-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x128x10000 : Shape := ⟨3, ![1, 128, 10000]⟩
abbrev S1x10000x32 : Shape := ⟨3, ![1, 10000, 32]⟩
abbrev S_ : Shape := ⟨0, ![]⟩

class Facts : Prop where
  bcast_S_S1x128x10000 : S_.BroadcastsInDim S1x128x10000 (![] : Fin 0 → Fin S1x128x10000.rank)
  reducesTo_S1x128x10000_S_d0_1_2 : S1x128x10000.ReducesTo [0, 1, 2] S_
  h_S_ : 0 < S_.numel
  bcast_S_S1x10000x32 : S_.BroadcastsInDim S1x10000x32 (![] : Fin 0 → Fin S1x10000x32.rank)
  reducesTo_S1x10000x32_S_d0_1_2 : S1x10000x32.ReducesTo [0, 1, 2] S_

variable [Facts]

def fn {F : FTy → Type} [FloatOps F] (main_arg0 : FVec F S1x128x10000 .f32) (main_arg1 : IVec S1x10000x32 32) : IVec S_ 1 :=
  let main_v0 : FVec F S1x128x10000 .f32 := Host.absf main_arg0
  let main_cst : FVec F S_ .f32 := constant S_ .f32 0x7F800000#32
  let main_v1 : FVec F S1x128x10000 .f32 := broadcastInDim S1x128x10000 ![] bcast_S_S1x128x10000 main_cst
  let main_v2 : IVec S1x128x10000 1 := cmpf .olt main_v0 main_v1
  let main_c : IVec S_ 1 := constantI S_ 1 1#1
  let main_v3 : IVec S_ 1 := (fun x v => Host.reduce IntOp.andi x v reducesTo_S1x128x10000_S_d0_1_2 h_S_) main_v2 main_c
  let main_c_0 : IVec S_ 32 := constantI S_ 32 0#32
  let main_v4 : IVec S1x10000x32 32 := broadcastInDim S1x10000x32 ![] bcast_S_S1x10000x32 main_c_0
  let main_v5 : IVec S1x10000x32 1 := cmpi .sge main_arg1 main_v4
  let main_c_1 : IVec S_ 32 := constantI S_ 32 9999#32
  let main_v6 : IVec S1x10000x32 32 := broadcastInDim S1x10000x32 ![] bcast_S_S1x10000x32 main_c_1
  let main_v7 : IVec S1x10000x32 1 := cmpi .sle main_arg1 main_v6
  let main_v8 : IVec S1x10000x32 1 := andi main_v5 main_v7
  let main_c_2 : IVec S_ 1 := constantI S_ 1 1#1
  let main_v9 : IVec S_ 1 := (fun x v => Host.reduce IntOp.andi x v reducesTo_S1x10000x32_S_d0_1_2 h_S_) main_v8 main_c_2
  let main_v10 : IVec S_ 1 := andi main_v3 main_v9
  main_v10
-- ==== Kernel.lean ====
abbrev S1x128x10000 : Shape := ⟨3, ![1, 128, 10000]⟩
abbrev S1x10000x32 : Shape := ⟨3, ![1, 10000, 32]⟩
abbrev S128x10000 : Shape := ⟨2, ![128, 10000]⟩
abbrev S10000x128 : Shape := ⟨2, ![10000, 128]⟩
abbrev S320000 : Shape := ⟨1, ![320000]⟩
abbrev S_ : Shape := ⟨0, ![]⟩
abbrev S327680 : Shape := ⟨1, ![327680]⟩
abbrev S1 : Shape := ⟨1, ![1]⟩
abbrev S2560x128 : Shape := ⟨2, ![2560, 128]⟩
abbrev S327680x128 : Shape := ⟨2, ![327680, 128]⟩
abbrev S128 : Shape := ⟨1, ![128]⟩
abbrev S128x128 : Shape := ⟨2, ![128, 128]⟩
abbrev S1x128 : Shape := ⟨2, ![1, 128]⟩
abbrev S256x320000 : Shape := ⟨2, ![256, 320000]⟩
abbrev S6400x128 : Shape := ⟨2, ![6400, 128]⟩
abbrev S200x128 : Shape := ⟨2, ![200, 128]⟩
abbrev S256x6400 : Shape := ⟨2, ![256, 6400]⟩
abbrev S200x1x128 : Shape := ⟨3, ![200, 1, 128]⟩
abbrev S200x32x128 : Shape := ⟨3, ![200, 32, 128]⟩
abbrev S6400x256 : Shape := ⟨2, ![6400, 256]⟩
abbrev S1x256x10000x32 : Shape := ⟨4, ![1, 256, 10000, 32]⟩

abbrev nBuf : Table → Nat
  | .hbm => 14
  | .local .tc .vmem => 6
  | .local .scVector .vmem => 2
  | _ => 0

abbrev bufTy : (tb : Table) → Fin (nBuf tb) → BufTy
  | .hbm, ⟨0, _⟩ => ⟨S1x128x10000, .f32⟩
  | .hbm, ⟨1, _⟩ => ⟨S1x10000x32, .i32⟩
  | .hbm, ⟨2, _⟩ => ⟨S128x10000, .f32⟩
  | .hbm, ⟨3, _⟩ => ⟨S10000x128, .f32⟩
  | .hbm, ⟨4, _⟩ => ⟨S320000, .i32⟩
  | .hbm, ⟨5, _⟩ => ⟨S_, .i32⟩
  | .hbm, ⟨6, _⟩ => ⟨S327680, .i32⟩
  | .hbm, ⟨7, _⟩ => ⟨S_, .i32⟩
  | .hbm, ⟨8, _⟩ => ⟨S1, .i32⟩
  | .hbm, ⟨9, _⟩ => ⟨S327680, .i32⟩
  | .hbm, ⟨10, _⟩ => ⟨S2560x128, .i32⟩
  | .hbm, ⟨11, _⟩ => ⟨S327680x128, .f32⟩
  | .hbm, ⟨12, _⟩ => ⟨S256x320000, .f32⟩
  | .hbm, ⟨13, _⟩ => ⟨S1x256x10000x32, .f32⟩
  | .local .tc .vmem, ⟨0, _⟩ => ⟨S6400x128, .f32⟩
  | .local .tc .vmem, ⟨1, _⟩ => ⟨S6400x128, .f32⟩
  | .local .tc .vmem, ⟨2, _⟩ => ⟨S200x128, .f32⟩
  | .local .tc .vmem, ⟨3, _⟩ => ⟨S200x128, .f32⟩
  | .local .tc .vmem, ⟨4, _⟩ => ⟨S256x6400, .f32⟩
  | .local .tc .vmem, ⟨5, _⟩ => ⟨S256x6400, .f32⟩
  | .local .scVector .vmem, ⟨0, _⟩ => ⟨S128, .i32⟩
  | .local .scVector .vmem, ⟨1, _⟩ => ⟨S128x128, .f32⟩
  | _, _ => ⟨S1x128x10000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v1_scv : Ref sig .scVector := ⟨.hbm, 3, rfl⟩
abbrev main_v6_scv : Ref sig .scVector := ⟨.hbm, 10, rfl⟩
abbrev main_v7_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c80_i32 : BitVec 32 := 80#32
  let v2 : BitVec 32 := Scalar.addi c0_i32 c80_i32
  let c1_i32 : BitVec 32 := 1#32
  ⟨c0_i32, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32_3 : BitVec 32 := 80#32
  let v5 : BitVec 32 := Scalar.muli v1 c80_i32_3
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v3 : BitVec 32 := Scalar.muli arg8 c1_i32_1
  let v4 : BitVec 32 := Scalar.addi c0_i32_2 v3
  let v6 : BitVec 32 := Scalar.addi v5 v4
  let c0_i32_8_r0 : BitVec 32 := 0#32
  ![v6.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32_3 : BitVec 32 := 80#32
  let v5 : BitVec 32 := Scalar.muli v1 c80_i32_3
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v3 : BitVec 32 := Scalar.muli arg8 c1_i32_1
  let v4 : BitVec 32 := Scalar.addi c0_i32_2 v3
  let v6 : BitVec 32 := Scalar.addi v5 v4
  let c128_i32 : BitVec 32 := 128#32
  let v9 : BitVec 32 := Scalar.muli v6 c128_i32
  let c0_i32_8_r1 : BitVec 32 := 0#32
  ![v9.toNat, 0]
abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x128x10000_S128x10000 : S1x128x10000.ShapeCasts S128x10000
  transposes_S128x10000_S10000x128_1_0 : S128x10000.Transposes [1, 0] S10000x128
  shapeCasts_S1x10000x32_S320000 : S1x10000x32.ShapeCasts S320000
  bcast_S_S327680 : S_.BroadcastsInDim S327680 (![] : Fin 0 → Fin S327680.rank)
  bcast_S_S1 : S_.BroadcastsInDim S1 (![] : Fin 0 → Fin S1.rank)
  shapeCasts_S327680_S2560x128 : S327680.ShapeCasts S2560x128
  squeezes_S1x128_S128 : S1x128.Squeezes S128
  inb_S10000x128_S10000x128_0_0 : ∀ a, (![0, 0] : Fin 2 → Nat) a + S10000x128.size a ≤ S10000x128.size a
  gathers_S10000x128_S128x128 : S10000x128.Gathers 0 S128x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S200x128_S200x1x128 : S200x128.ShapeCasts S200x1x128
  shapeCasts_S200x1x128_S200x1x128 : S200x1x128.ShapeCasts S200x1x128
  broadcasts_S200x1x128_S200x32x128 : S200x1x128.Broadcasts S200x32x128
  shapeCasts_S200x32x128_S6400x128 : S200x32x128.ShapeCasts S6400x128
  concatenates_S6400x128_S6400x128_S6400x256_d1 : Shape.Concatenates [S6400x128, S6400x128] S6400x256 1
  transposes_S6400x256_p1_0_S256x6400 : S6400x256.Transposes [1, 0] S256x6400
  inb_S256x6400_S256x6400_0_0 : ∀ a, (![0, 0] : Fin 2 → Nat) a + S256x6400.size a ≤ S256x6400.size a
  h_S256x6400 : 0 < S256x6400.numel
  shapeCasts_S256x320000_S1x256x10000x32 : S256x320000.ShapeCasts S1x256x10000x32
  scatter_S327680_S1_S320000_0_n_0_0_wf : ScatterDims.WF S327680 S1 S320000 [0] [] [0] 0
  hcc0_scratch2 : 0 + S_.numel ≤ 9
  hcc0_scoped0 : 1 + S_.numel ≤ 9
  hcc0_scoped1 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x128.size a ≤ S2560x128.size a
  k0_off2_inb : ∀ (i : grid0.Coords) (k0_t1 : Fin k0_t1_loop.trips), ∀ a, (k0_off2 i k0_t1) a + S128x128.size a ≤ S327680x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S6400x128.size a < S327680x128.size a
  hwx1_0 : ∀ i : grid1.Coords, EltTy.bits .f32 = 32 ∨ (Rect.unit (s := S327680x128) (fun a => cc1_transform_0 i a * S6400x128.size a) (fun a => (Pipeline.Clip.of (cc1_transform_0 i a) (S6400x128.size a) (S327680x128.size a)).extent (S6400x128.size a)) fun a => Pipeline.Clip.inb (Pipeline.Clip.ok_of (hstart1_0 i a))).WholeWords (EltTy.packing .f32)
  hwxs1_0 : ∀ i : grid1.Coords, EltTy.bits .f32 = 32 ∨ (Rect.unit (s := S6400x128) (fun _ => 0) (fun a => (Pipeline.Clip.of (cc1_transform_0 i a) (S6400x128.size a) (S327680x128.size a)).extent (S6400x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S10000x128.size a
  hwx1_1 : ∀ i : grid1.Coords, EltTy.bits .f32 = 32 ∨ (Rect.block (s := S10000x128) S200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x6400.size a ≤ S256x320000.size a
  hwx1_2 : ∀ i : grid1.Coords, EltTy.bits .f32 = 32 ∨ (Rect.block (s := S256x320000) S256x6400.size (cc1_transform_2 i) (hinb1_2 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def scatter_S327680_S1_S320000_0_n_0_0 : ScatterDims S327680 S1 S320000 where
  updateWindowDims := [0]
  insertedWindowDims := []
  scatterDimsToOperandDims := [0]
  indexVectorDim := 0
  wf := scatter_S327680_S1_S320000_0_n_0_0_wf

abbrev win1_0 : Pipeline.Window sig grid1 :=
  Pipeline.Window.ofSpecClip (Memref.whole main_v7) S6400x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v1) S200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x6400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x128x10000 : Shape := ⟨3, ![1, 128, 10000]⟩
abbrev S1x10000x32 : Shape := ⟨3, ![1, 10000, 32]⟩
abbrev S1 : Shape := ⟨1, ![1]⟩
abbrev S_ : Shape := ⟨0, ![]⟩
abbrev S1x1x1 : Shape := ⟨3, ![1, 1, 1]⟩
abbrev S320000 : Shape := ⟨1, ![320000]⟩
abbrev S1x10000x128 : Shape := ⟨3, ![1, 10000, 128]⟩
abbrev S10000x128 : Shape := ⟨2, ![10000, 128]⟩
abbrev S320000x1 : Shape := ⟨2, ![320000, 1]⟩
abbrev S1x1 : Shape := ⟨2, ![1, 1]⟩
abbrev S320000x128 : Shape := ⟨2, ![320000, 128]⟩
abbrev S1x10000x32x128 : Shape := ⟨4, ![1, 10000, 32, 128]⟩
abbrev S1x10000x1x128 : Shape := ⟨4, ![1, 10000, 1, 128]⟩
abbrev S1x10000x32x256 : Shape := ⟨4, ![1, 10000, 32, 256]⟩
abbrev S1x256x10000x32 : Shape := ⟨4, ![1, 256, 10000, 32]⟩

abbrev nBuf : Space → Nat
  | .hbm => 41
  | .vmem => 0
  | .smem => 0
  | _ => 0

abbrev bufTy : (tb : Table) → Fin (tcTables nBuf tb) → BufTy
  | .hbm, ⟨0, _⟩ => ⟨S1x128x10000, .f32⟩
  | .hbm, ⟨1, _⟩ => ⟨S1x10000x32, .i32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S1x1x1, .i32⟩
  | .hbm, ⟨7, _⟩ => ⟨S1x10000x32, .i32⟩
  | .hbm, ⟨8, _⟩ => ⟨S1x10000x32, .i32⟩
  | .hbm, ⟨9, _⟩ => ⟨S320000, .i32⟩
  | .hbm, ⟨10, _⟩ => ⟨S1x10000x128, .f32⟩
  | .hbm, ⟨11, _⟩ => ⟨S10000x128, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S1, .i32⟩
  | .hbm, ⟨21, _⟩ => ⟨S_, .i32⟩
  | .hbm, ⟨22, _⟩ => ⟨S320000x1, .i32⟩
  | .hbm, ⟨23, _⟩ => ⟨S320000x1, .i1⟩
  | .hbm, ⟨24, _⟩ => ⟨S1x1, .i32⟩
  | .hbm, ⟨25, _⟩ => ⟨S320000x1, .i32⟩
  | .hbm, ⟨26, _⟩ => ⟨S320000x1, .i1⟩
  | .hbm, ⟨27, _⟩ => ⟨S320000x1, .i1⟩
  | .hbm, ⟨28, _⟩ => ⟨S_, .i1⟩
  | .hbm, ⟨29, _⟩ => ⟨S320000, .i1⟩
  | .hbm, ⟨30, _⟩ => ⟨S320000x128, .f32⟩
  | .hbm, ⟨31, _⟩ => ⟨S320000x128, .i1⟩
  | .hbm, ⟨32, _⟩ => ⟨S_, .f32⟩
  | .hbm, ⟨33, _⟩ => ⟨S320000x128, .f32⟩
  | .hbm, ⟨34, _⟩ => ⟨S320000x128, .f32⟩
  | .hbm, ⟨35, _⟩ => ⟨S1x10000x32x128, .f32⟩
  | .hbm, ⟨36, _⟩ => ⟨S1x10000x1x128, .f32⟩
  | .hbm, ⟨37, _⟩ => ⟨S1x10000x32x128, .f32⟩
  | .hbm, ⟨38, _⟩ => ⟨S1x10000x32x128, .f32⟩
  | .hbm, ⟨39, _⟩ => ⟨S1x10000x32x256, .f32⟩
  | .hbm, ⟨40, _⟩ => ⟨S1x256x10000x32, .f32⟩
  | _, _ => ⟨S1x128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩

abbrev nD : Nat := 1
abbrev τ : Topo := Topo.v7x

variable {F : FTy → Type} [FloatOps F]

class Facts₀ : Prop where
  bcast_S_S1 : S_.BroadcastsInDim S1 (![] : Fin 0 → Fin S1.rank)
  shapeCasts_S1_S1x1x1 : S1.ShapeCasts S1x1x1
  bcast_S1x1x1_S1x10000x32_0_1_2 : S1x1x1.BroadcastsInDim S1x10000x32 (![0, 1, 2] : Fin 3 → Fin S1x10000x32.rank)
  shapeCasts_S1x10000x32_S320000 : S1x10000x32.ShapeCasts S320000
  transposes_S1x128x10000_S1x10000x128_0_2_1 : S1x128x10000.Transposes [0, 2, 1] S1x10000x128
  shapeCasts_S1x10000x128_S10000x128 : S1x10000x128.ShapeCasts S10000x128
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  shapeCasts_S320000x128_S1x10000x32x128 : S320000x128.ShapeCasts S1x10000x32x128
  shapeCasts_S10000x128_S1x10000x1x128 : S10000x128.ShapeCasts S1x10000x1x128
  bcast_S1x10000x1x128_S1x10000x32x128_0_1_2_3 : S1x10000x1x128.BroadcastsInDim S1x10000x32x128 (![0, 1, 2, 3] : Fin 4 → Fin S1x10000x32x128.rank)
  concatenates_S1x10000x32x128_S1x10000x32x128_S1x10000x32x256_d3 : Shape.Concatenates [S1x10000x32x128, S1x10000x32x128] S1x10000x32x256 3
  transposes_S1x10000x32x256_S1x256x10000x32_0_3_1_2 : S1x10000x32x256.Transposes [0, 3, 1, 2] S1x256x10000x32
  gather_S10000x128_S320000x1_S320000x128_1_0_n_n_0_1_1128_wf : GatherDims.WF S10000x128 S320000x1 S320000x128 [1] [0] [] [0] [] 1 ![1, 128]

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf

class Facts : Prop extends Facts₀ where

variable [Facts]
-- ==== Proof.Spec.lean ====
/-
  The function both programs compute, index by index, and the intermediate arrays of the kernel's road to it.

  With `x : [1, 128, 10000]` (channels by points) and `idx : [1, 10000, 32]` (for each point its 32 neighbours),
  the result `[1, 256, 10000, 32]` holds at `(0, c, n, k)`:
    for `c < 128`: `x[0, c, idx[0, n, k]] - x[0, c, n]`  (the neighbour's feature minus the point's own),
    for `c ≥ 128`: `x[0, c - 128, n]`                    (the point's own feature).
  A neighbour word is read as a row number clamped to the table (`rowOf`); under the precondition every word is
  already a row number and the clamp is the identity.

  The kernel's road: `xt` (x transposed to points by channels), `idxp` (the flat neighbour list padded with zeros
  to 2560 rows of 128), `gath` (row `p` of the gathered array is the table row the `p`-th padded entry names),
  `tcOut` (difference and own feature stacked on the channel axis, transposed to channels by flat position),
  `kout` (the same, the flat position split into point and neighbour).
-/
import Idealize.ShloMosaic.PureOps
import Idealize.ShloMosaic.Lib.ValueIdx

noncomputable section

namespace Cert.Spec

open Idealize.ShloMosaic Idealize.ShloMosaic.ValueIdx

abbrev SX : Shape := ⟨3, ![1, 128, 10000]⟩
abbrev SJ : Shape := ⟨3, ![1, 10000, 32]⟩
abbrev ST : Shape := ⟨2, ![10000, 128]⟩
abbrev SP : Shape := ⟨2, ![2560, 128]⟩
abbrev SG : Shape := ⟨2, ![327680, 128]⟩
abbrev SO2 : Shape := ⟨2, ![256, 320000]⟩
abbrev SO : Shape := ⟨4, ![1, 256, 10000, 32]⟩

variable {F : FTy → Type}

/-- The table row a neighbour word names: the word read unsigned, clamped to the last row. -/
def rowOf (w : BitVec 32) : Fin 10000 := ⟨min w.toNat 9999, by omega⟩

theorem rowOf_of_le {w : BitVec 32} (h : w.toNat ≤ 9999) : (rowOf w).val = w.toNat := by
  unfold rowOf; simp only; omega

/-- `x` transposed: point `n`, channel `c`. -/
def xt (x : SX.Idx → F .f32) : ST.Idx → F .f32 := fun j => x (ix3 0 (j 1) (j 0))

/-- The flat neighbour list in rows of 128, zeros past its 320000 entries. -/
def idxp (idx : SJ.Idx → BitVec 32) : SP.Idx → BitVec 32 := fun j =>
  if h : (j 0).val * 128 + (j 1).val < 320000 then
    idx (ix3 0 ⟨((j 0).val * 128 + (j 1).val) / 32, by omega⟩ ⟨((j 0).val * 128 + (j 1).val) % 32, Nat.mod_lt _ (by norm_num)⟩)
  else 0#32

/-- The gathered rows: row `p` is the table row that entry `p` of the padded list names. -/
def gath (t : ST.Idx → F .f32) (ip : SP.Idx → BitVec 32) : SG.Idx → F .f32 := fun j =>
  t (ix2 (rowOf (ip (ix2 ⟨(j 0).val / 128, by have := idx2_lt0 j; omega⟩ ⟨(j 0).val % 128, Nat.mod_lt _ (by norm_num)⟩))) (j 1))

variable [FloatOps F]

/-- Channels by flat position: the gathered row minus the point's own row on channels below 128, the point's
    own row on the channels from 128 on. Position `p` belongs to point `p / 32`. -/
def tcOut (g : SG.Idx → F .f32) (t : ST.Idx → F .f32) : SO2.Idx → F .f32 := fun j =>
  if h : (j 0).val < 128 then
    FloatOps.subf (g (ix2 ⟨(j 1).val, by have := idx2_lt1 j; omega⟩ ⟨(j 0).val, h⟩))
      (t (ix2 ⟨(j 1).val / 32, by have := idx2_lt1 j; omega⟩ ⟨(j 0).val, h⟩))
  else t (ix2 ⟨(j 1).val / 32, by have := idx2_lt1 j; omega⟩ ⟨(j 0).val - 128, by have := idx2_lt0 j; omega⟩)

/-- The kernel's result: `tcOut` with the flat position split into point and neighbour. -/
def kout (x : SX.Idx → F .f32) (idx : SJ.Idx → BitVec 32) : SO.Idx → F .f32 := fun j =>
  tcOut (gath (xt x) (idxp idx)) (xt x)
    (ix2 (j 1) ⟨(j 2).val * 32 + (j 3).val, by
      have h2 : (j 2).val < 10000 := (j 2).isLt
      have h3 : (j 3).val < 32 := (j 3).isLt
      omega⟩)

/-- The function of the statement. -/
def G (x : SX.Idx → F .f32) (idx : SJ.Idx → BitVec 32) : SO.Idx → F .f32 := fun j =>
  if h : (j 1).val < 128 then
    FloatOps.subf (x (ix3 0 ⟨(j 1).val, h⟩ (rowOf (idx (ix3 0 (j 2) (j 3)))))) (x (ix3 0 ⟨(j 1).val, h⟩ (j 2)))
  else x (ix3 0 ⟨(j 1).val - 128, by have h1 : (j 1).val < 256 := (j 1).isLt; omega⟩ (j 2))

end Cert.Spec

end
-- ==== Proof.KSetup.lean ====
/-
  The kernel's program as the SparseCore launch theorem sees it: its configuration, body table, variants, the
  facts of its launch semaphores, and the ghost state of a run — the launch handshakes' rounds beside the
  counters of the tiles' local copies. Generic in the float instance: the program only moves data on the
  SparseCores and subtracts on the TensorCore.
-/
import proofs.«213211_g18829136625754_cont_8to1_584_2_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213211_g18829136625754_cont_8to1_584_2_alg».proof.Proof.Gen.KernelIdeal
import proofs.«213211_g18829136625754_cont_8to1_584_2_alg».proof.Proof.Gen.KernelIdeal.Skeleton
import proofs.«213211_g18829136625754_cont_8to1_584_2_alg».proof.Proof.Spec

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The rounds of the pallas_call's staging cells. -/
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev adm : (p : Fin 1) → (pcfgs (F := F) p).Adm := fun p => (cfgs p).toPCfg_adm

end Cert.KernelIdeal.Pf

end
-- ==== Proof.KChunks.lean ====
/-
  The arrays of the gather as locations, a tile's coordinates as threads, and the pieces a tile's trip touches:
  trip `k` of tile `L` reads row `k0_off1 L k` of the padded list and writes the 128-row chunk at
  `k0_off2 L k` of the gathered array. `landed` is what the three copies of a trip leave on that chunk, spelt
  as the copies wrote it.
-/
import proofs.«213211_g18829136625754_cont_8to1_584_2_alg».proof.Proof.KSetup

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

/-- The table, the padded list and the gathered array, as locations of device `d`. -/
abbrev tLoc (d : Dev nD) : Loc nD τ sig := (SparseCore.T d).loc main_v1
abbrev pLoc (d : Dev nD) : Loc nD τ sig := (SparseCore.T d).loc main_v6
abbrev oLoc (d : Dev nD) : Loc nD τ sig := (SparseCore.T d).loc main_v7

abbrev cV (L : grid0.Coords) : Fin τ.nSC := (L 0).castLE hcore0
abbrev jV (L : grid0.Coords) : Fin τ.nSub := (L 1).castLE hsub0

/-- Grid coordinates from a SparseCore and a subcore number. -/
def coordsV (c : Fin (grid0.bound 0)) (s : Fin (grid0.bound 1)) : grid0.Coords :=
  fun | 0 => c | 1 => s | ⟨_ + 2, h⟩ => absurd h (Nat.not_lt.2 (Nat.le_add_left _ _))

/-- Trip `k`'s row of the list and chunk of the gathered array, as the body slices them. -/
abbrev pRow (L : grid0.Coords) (k : Fin k0_t1_loop.trips) : Memref sig .scVector .hbm S128 .i32 :=
  ((pW).slice (Rect.unit (s := S2560x128) (k0_off1 L k) S1x128.size (k0_off1_inb L k)) (fun _ => rfl)).squeeze S128 squeezes_S1x128_S128
abbrev oChunk (L : grid0.Coords) (k : Fin k0_t1_loop.trips) : Memref sig .scVector .hbm S128x128 .f32 :=
  (oW).slice (Rect.unit (s := S327680x128) (k0_off2 L k) S128x128.size (k0_off2_inb L k)) (fun _ => rfl)
abbrev chunkSet (L : grid0.Coords) (k : Fin k0_t1_loop.trips) : Finset S327680x128.Idx := (oChunk L k).view.set
/-- The table as the gather names it: the whole array, sliced at the origin. -/
abbrev tSl : Memref sig .scVector .hbm S10000x128 .f32 :=
  (tW).slice (Rect.unit (s := S10000x128) ![0, 0] S10000x128.size inb_S10000x128_S10000x128_0_0) (fun _ => rfl)

/-- The index scratch after trip `k`'s fetch of its row of the list. -/
abbrev fetched (L : grid0.Coords) (k : Fin k0_t1_loop.trips) (ip : S2560x128.Idx → BitVec 32) (fs : S128.Idx → BitVec 32) : S128.Idx → BitVec 32 :=
  View.read (Elt F) (sI).view (View.write (Elt F) (sI).view fs (ReadAs.same.apply (View.read (Elt F) (pRow L k).view ip)) Finset.univ)

/-- What trip `k` leaves in the gathered array: the rows the fetched words name, gathered into the row scratch,
    copied onto the chunk. -/
abbrev landed (L : grid0.Coords) (k : Fin k0_t1_loop.trips) (t : S10000x128.Idx → F .f32) (ip : S2560x128.Idx → BitVec 32)
    (o0 : S327680x128.Idx → F .f32) (fs : S128.Idx → BitVec 32) (fr : S128x128.Idx → F .f32)
    (hn : S128.numel = S128x128.size gathers_S10000x128_S128x128.axis')
    (hr : ∀ x, (fetched (F := F) L k ip fs x).toNat < S10000x128.size gathers_S10000x128_S128x128.axis) : S327680x128.Idx → F .f32 :=
  (oChunk L k).view.writes (Elt F) o0
    [⟨Rect.whole S128x128,
      ReadAs.same.apply
        (View.read (Elt F) (sR).view
          ((sR).view.writes (Elt F) fr
            [⟨Rect.whole S128x128,
              SparseCore.gatherPayload gathers_S10000x128_S128x128 (View.read (Elt F) (tSl).view t)
                (SparseCore.rows (F := F) (fetched (F := F) L k ip fs) hn hr)⟩]))⟩]

end Cert.KernelIdeal.Pf

end
-- ==== Proof.KTile.lean ====
/-
  One tile's task of the gather kernel. Tile `(c, s)` is worker `w = 2 s + c`; in trip `k` of its 80 it copies
  row `80 w + k` of the padded neighbour list into its index scratch, gathers the 128 table rows those words
  name into its row scratch, and copies that scratch onto rows `128 (80 w + k) … + 127` of the gathered array.
  The tile holds a read share of the table and of the list and owns its 80 chunks of the gathered array; after
  trip `k` the chunks below `k` hold the gathered rows `gath t ip`, the others what they held before.
-/
import proofs.«213211_g18829136625754_cont_8to1_584_2_alg».proof.Proof.KChunks

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

section Tile

variable (d : Dev nD) (L : grid0.Coords)

abbrev cG (d : Dev nD) (L : grid0.Coords) : GSem nD τ sig := (V d (cV L) (jV L), .dma cc0_scratch2.sem)
abbrev cA (d : Dev nD) (L : grid0.Coords) : GSem nD τ sig := (V d (cV L) (jV L), .dma cc0_scoped0.sem)
abbrev cB (d : Dev nD) (L : grid0.Coords) : GSem nD τ sig := (V d (cV L) (jV L), .dma cc0_scoped1.sem)

omit [FloatOps F] in
theorem ownSems0_V :
    (ownSems0 (V d (cV L) (jV L)) : sProp 𝕄)
      = iprop(semVal (cG d L) 0 ∗ semVal (cA d L) 0 ∗ semVal (cB d L) 0
          ∗ bigSep ((((ownCells (V d (cV L) (jV L))).erase (cG d L)).erase (cA d L)).erase (cB d L)) fun g => semVal g 0) := by
  unfold SparseCore.Cfg.ownSems0
  rw [SparseCore.bigSep_erase' ((mem_ownCells (g := cG d L)).mpr ⟨rfl, by
      show (SemLoc.dma cc0_scratch2.sem : SemLoc sig).isScoped .scVector = true; decide⟩),
    SparseCore.bigSep_erase' (Finset.mem_erase.mpr ⟨by simp [cG, cA]; decide, (mem_ownCells (g := cA d L)).mpr ⟨rfl, by
      show (SemLoc.dma cc0_scoped0.sem : SemLoc sig).isScoped .scVector = true; decide⟩⟩),
    SparseCore.bigSep_erase' (Finset.mem_erase.mpr ⟨by simp [cA, cB]; decide, Finset.mem_erase.mpr ⟨by simp [cG, cB]; decide,
      (mem_ownCells (g := cB d L)).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The chunks of the gathered array the tile owns: those below trip `k` gathered, the others as before. -/
def chunks (g o0 : S327680x128.Idx → F .f32) (k : Nat) : sProp 𝕄 :=
  bigSep Finset.univ fun j : Fin k0_t1_loop.trips => oLoc d ↦[chunkSet L j]{fullShare} (if j.val < k then g else o0)

/-- The loop's invariant: the read shares, the two scratches at some contents, the three counters at zero, the
    chunks below the trip gathered, and what the tile owes the launch. -/
def inv (t : S10000x128.Idx → F .f32) (ip : S2560x128.Idx → BitVec 32) (g o0 : S327680x128.Idx → F .f32) (qt qp : PosShare TreeShare)
    (O : CellTallies nD τ sig (HIx 1)) (W : Waits sig (HIx 1)) (k : Nat) (_ : PUnit) : sProp 𝕄 :=
  iprop(Transfers.MayWaits (V d (cV L) (jV L)) (none : HIx 1) O
    ∗ ((tW).view.loc (V d (cV L) (jV L)) ↦{qt} t)
    ∗ ((pW).view.loc (V d (cV L) (jV L)) ↦{qp} ip)
    ∗ (∃ f, (sI).view.loc (V d (cV L) (jV L)) ↦{fullShare} f)
    ∗ (∃ f, (sR).view.loc (V d (cV L) (jV L)) ↦{fullShare} f)
    ∗ semVal (cG d L) 0 ∗ semVal (cA d L) 0 ∗ semVal (cB d L) 0
    ∗ chunks d L g o0 k
    ∗ ∃ W', ⌜∀ p ∈ W', p ∈ W ∨ p.2 = none⌝ ∗ owes (V d (cV L) (jV L)) O W')

omit [FloatOps F] in
/-- Chunk `k` out of the family, still at its old contents at trip `k`. -/
theorem chunks_take (g o0 : S327680x128.Idx → F .f32) (k : Fin k0_t1_loop.trips) :
    chunks d L g o0 k.val ⊢ iprop(((oChunk L k).view.loc (V d (cV L) (jV L)) ↦[(oChunk L k).view.set]{fullShare} o0)
      ∗ bigSep (Finset.univ.erase k) fun j : Fin k0_t1_loop.trips => oLoc d ↦[chunkSet L j]{fullShare} (if j.val < k.val then g else o0)) := by
  unfold chunks
  rw [BI.bigSep_univ_split k, if_neg (lt_irrefl _)]
  exact .rfl

omit [FloatOps F] in
/-- Chunk `k` back, now at the gathered rows: the family at trip `k + 1`. -/
theorem chunks_put (g o0 f : S327680x128.Idx → F .f32) (k : Fin k0_t1_loop.trips) (hf : ∀ x ∈ chunkSet L k, f x = g x) :
    iprop(((oChunk L k).view.loc (V d (cV L) (jV L)) ↦[(oChunk L k).view.set]{fullShare} f)
      ∗ bigSep (Finset.univ.erase k) fun j : Fin k0_t1_loop.trips => oLoc d ↦[chunkSet L j]{fullShare} (if j.val < k.val then g else o0))
      ⊢ chunks d L g o0 (k.val + 1) := by
  unfold chunks
  rw [BI.bigSep_univ_split k, if_pos (Nat.lt_succ_self _)]
  refine BIClass.sep_mono (Entails.of_eq (pointsTo_congr hf)) (Entails.of_eq (bigSep_congr fun j hj => ?_))
  have hne : j ≠ k := (Finset.mem_erase.mp hj).1
  have : (j.val < k.val) ↔ (j.val < k.val + 1) := by
    have : j.val ≠ k.val := fun e => hne (Fin.ext e)
    omega
  simp only [this]

theorem tile_body (hF : (K (F := F)).Facts) (t : S10000x128.Idx → F .f32) (ip : S2560x128.Idx → BitVec 32) (o0 : S327680x128.Idx → F .f32)
    (qt qp : PosShare TreeShare) (hin : ∀ j, (ip j).toNat ≤ 9999)
    (hval : ∀ (k : Fin k0_t1_loop.trips) fs fr hn hr, ∀ x ∈ chunkSet L k, landed (F := F) L k t ip o0 fs fr hn hr x = Cert.Spec.gath t ip x)
    (O : CellTallies nD τ sig (HIx 1)) (W : Waits sig (HIx 1)) (hO : ∀ g, O g none = 0) :
    iprop(levAts (K (F := F)).L (K (F := F)).lev ∗ emp
        ∗ ((tLoc d ↦{qt} t) ∗ (pLoc d ↦{qp} ip) ∗ chunks d L (Cert.Spec.gath t ip) o0 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tW (Memref.isWhole_whole _) pW (Memref.isWhole_whole _) oW (Memref.isWhole_whole _)
            sI (Memref.isWhole_whole _) sR (Memref.isWhole_whole _) cc0_scratch2 cc0_scoped0 cc0_scoped1)
          fun _ => iprop(((tLoc d ↦{qt} t) ∗ (pLoc d ↦{qp} ip) ∗ chunks d L (Cert.Spec.gath t ip) o0 k0_t1_loop.trips)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hp, Hch⟩, ⟨⟨%fs, Hs⟩, ⟨%fr, Hr⟩, Hbufs⟩, ⟨HsG, HsA, HsB, Hsems⟩, HO⟩
  ihave Hmw := ((K (F := F)).mayWaits_none (thr := V d (cV L) (jV L)) hO) $$ Hlv
  sl_exec
  sl_for (inv d L t ip (Cert.Spec.gath t ip) o0 qt qp O W) $$ [Hmw Ht Hp Hs Hr HsG HsA HsB Hch HO]
  case region =>
    intro k _
    unfold inv
    iintro ⟨Hmw, Ht, Hp, ⟨%fs, Hs⟩, ⟨%fr, Hr⟩, HsG, HsA, HsB, Hch, %W', %hW', HO⟩
    ihave Hch' := (chunks_take d L (Cert.Spec.gath t ip) o0 k) $$ Hch
    icases Hch' with ⟨Hck, Hrest⟩
    -- the words the gather reads are the trip's row of the list: row numbers of the table
    have hin' : ∀ (fs : Buf (Elt F) ((sI).view.loc (V d (cV L) (jV L)))) x,
        ((sI).view.read (Elt F) ((sI).view.write (Elt F) fs (ReadAs.same.apply ((pRow L k).view.read (Elt F) ip)) Finset.univ) x).toNat
          < S10000x128.size gathers_S10000x128_S128x128.axis := by
      intro fs x
      have h1 : (sI).view.write (Elt F) fs (ReadAs.same.apply ((pRow L k).view.read (Elt F) ip)) Finset.univ
          = ReadAs.same.apply ((pRow L k).view.read (Elt F) ip) := View.write_whole_univ _ _ _
      rw [h1]
      simp only [Memref.view_whole, View.read_whole]
      show (((pRow L k).view.read (Elt F) ip) x).toNat < 10000
      rw [View.read_apply]
      exact Nat.lt_succ_of_le (hin _)
    sl_exec
    sl_step
    isplitl [Hmw]; · iexact Hmw
    isplitl [Ht]; · iexact Ht
    isplitl [Hp]; · iexact Hp
    isplitl [Hs]; · iexists _; iexact Hs
    isplitl [Hr]; · iexists _; iexact Hr
    isplitl [HsG]; · iexact HsG
    isplitl [HsA]; · iexact HsA
    isplitl [HsB]; · iexact HsB
    isplitl [Hck Hrest]
    · iapply (chunks_put d L (Cert.Spec.gath t ip) o0 _ k (hval k fs fr rfl (fun x => hin' fs x)))
      isplitl [Hck]
      · iexact Hck
      · iexact Hrest
    iexists _; isplitr
    rotate_left
    · iexact HO
    · ipureintro; intro p hp
      simp only [Finset.mem_insert] at hp
      rcases hp with rfl | rfl | rfl | hp
      · exact .inr rfl
      · exact .inr rfl
      · exact .inr rfl
      · exact hW' p hp
  · unfold inv
    isplitl [Hmw]; · iexact Hmw
    isplitl [Ht]; · iexact Ht
    isplitl [Hp]; · iexact Hp
    isplitl [Hs]; · iexists _; iexact Hs
    isplitl [Hr]; · iexists _; iexact Hr
    isplitl [HsG]; · iexact HsG
    isplitl [HsA]; · iexact HsA
    isplitl [HsB]; · iexact HsB
    isplitl [Hch]; · iexact Hch
    iexists W; isplitr
    · ipureintro; exact fun p hp => .inl hp
    · iexact HO
  iintro %_ HI
  unfold inv
  icases HI with ⟨-, Ht, Hp, ⟨%fs', Hs⟩, ⟨%fr', Hr⟩, HsG, HsA, HsB, Hch, %W', %hW', HO⟩
  sl_exec
  sl_step
  isplitl [Ht Hp Hch]
  · isplitl [Ht]; · iexact Ht
    isplitl [Hp]; · iexact Hp
    iexact Hch
  isplitl [Hs Hr Hbufs]
  · isplitl [Hs]; · iexists _; iexact Hs
    isplitl [Hr]; · iexists _; iexact Hr
    iexact Hbufs
  isplitl [HsG HsA HsB Hsems]
  · isplitl [HsG]; · iexact HsG
    isplitl [HsA]; · iexact HsA
    isplitl [HsB]; · iexact HsB
    iexact Hsems
  iexists W'; isplitr
  · ipureintro; exact hW'
  · iexact HO

end Tile

end Cert.KernelIdeal.Pf

end
-- ==== Proof.KPay.lean ====
/-
  What the SparseCore call's handshakes carry. The call takes the table and the padded list as read shares — one
  per SparseCore, split again into one per tile — and the gathered array as its 2·16·80 chunks; it brings the
  shares back and every chunk at the gathered rows. A tile's obligation is its body's proof (the loop over its 80
  chunks); a SparseCore's operands split among its 16 tiles share by share, the chunks already grouped by tile.
-/
import proofs.«213211_g18829136625754_cont_8to1_584_2_alg».proof.Proof.KTile

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

variable (m : (ℓ : Loc nD τ sig) → Buf (Elt F) ℓ) (ρ : Dev nD → PrngReg)

/-- The arguments as locations of device `d`. -/
abbrev a0Loc (d : Dev nD) : Loc nD τ sig := (SparseCore.T d).loc main_arg0
abbrev a1Loc (d : Dev nD) : Loc nD τ sig := (SparseCore.T d).loc main_arg1

/-- The table (`x` transposed), the padded list, the gathered rows, and the gathered array's launch contents. -/
def tV (d : Dev nD) : S10000x128.Idx → F .f32 := Cert.Spec.xt (m (a0Loc d))
def pV (d : Dev nD) : S2560x128.Idx → BitVec 32 := Cert.Spec.idxp (m (a1Loc d))
def gV (d : Dev nD) : S327680x128.Idx → F .f32 := Cert.Spec.gath (tV m d) (pV m d)
def o0V (d : Dev nD) : S327680x128.Idx → F .f32 := m (oLoc d)

/-- The read share of SparseCore `c`, and of its tile `i`. -/
abbrev qC (c : ℕ) : PosShare TreeShare := Transfers.shareTokN fullShare c
abbrev qT (c i : ℕ) : PosShare TreeShare := Transfers.shareTokN (qC c) i

theorem bound_zero : grid0.bound 0 = 2 := rfl
theorem bound_one : grid0.bound 1 = 16 := rfl

/-- Tile `(c, i)`'s coordinates. -/
abbrev Lci (c : Fin ((K (F := F)).nCore 0)) (i : Fin ((K (F := F)).nSub 0)) : grid0.Coords := coordsV (Fin.cast nCore_zero c) (Fin.cast nSub_zero i)

/-- What a tile is handed (`n = 0`) and hands back (`n` the trip count): its two read shares and its chunks. -/
def forTile (d : Dev nD) (c : Fin ((K (F := F)).nCore 0)) (i : Fin ((K (F := F)).nSub 0)) (n : ℕ) : sProp 𝕄 :=
  iprop((tLoc d ↦{qT c.val i.val} tV m d) ∗ (pLoc d ↦{qT c.val i.val} pV m d) ∗ chunks d (Lci c i) (gV m d) (o0V m d) n)
/-- What a SparseCore is handed and hands back: its two read shares and its tiles' chunks. -/
def forCore (d : Dev nD) (c : Fin ((K (F := F)).nCore 0)) (n : ℕ) : sProp 𝕄 :=
  iprop((tLoc d ↦{qC c.val} tV m d) ∗ (pLoc d ↦{qC c.val} pV m d)
    ∗ bigSep Finset.univ fun i : Fin ((K (F := F)).nSub 0) => chunks d (Lci c i) (gV m d) (o0V m d) n)

instance chunks_storable (d : Dev nD) (L : grid0.Coords) (g o0 : S327680x128.Idx → F .f32) (n : ℕ) :
    BI.Storable (upEmb : UEmb _ 𝕄) (chunks d L g o0 n) := by unfold chunks; infer_instance
instance forTile_storable (d : Dev nD) (c i) (n : ℕ) : BI.Storable (upEmb : UEmb _ 𝕄) (forTile m d c i n) := by unfold forTile; infer_instance
instance forCore_storable (d : Dev nD) (c) (n : ℕ) : BI.Storable (upEmb : UEmb _ 𝕄) (forCore m d c n) := by unfold forCore; infer_instance

def P : (K (F := F)).Pay (nD := nD) (Val := Elt F) (Name := ℕ) (U := UU) where
  st := fun q d c => match q with | 0 => forCore m d c 0
  dn := fun q d c => match q with | 0 => forCore m d c k0_t1_loop.trips
  go := fun q d c i => match q with | 0 => forTile m d c i 0
  td := fun q d c i => match q with | 0 => forTile m d c i k0_t1_loop.trips
  x := fun _ _ => iprop(emp)

instance P_storable : (P (F := F) m).IsStorable where
  st q d c := match q with | 0 => (inferInstance : BI.Storable (upEmb : UEmb _ 𝕄) (forCore m d c 0))
  dn q d c := match q with | 0 => (inferInstance : BI.Storable (upEmb : UEmb _ 𝕄) (forCore m d c k0_t1_loop.trips))
  go q d c i := match q with | 0 => (inferInstance : BI.Storable (upEmb : UEmb _ 𝕄) (forTile m d c i 0))
  td q d c i := match q with | 0 => (inferInstance : BI.Storable (upEmb : UEmb _ 𝕄) (forTile m d c i k0_t1_loop.trips))

/-! ## The tile's obligation -/

theorem defs₀_vector (c : Fin τ.nSC) (s : Fin τ.nSub) :
    defs₀ (F := F) (.scVector c s) 0 ()
      = SparseCore.onTile hcore0 hsub0 (fun c s => cc0_k (coordsV c s)
          tW (Memref.isWhole_whole _) pW (Memref.isWhole_whole _) oW (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory: every neighbour word is a row number of the table. -/
def PreOK : Prop := ∀ (d : Dev nD) j, (m (a1Loc d) j).toNat ≤ 9999

omit [FloatOps F] in
theorem pV_le (hpre : PreOK m) (d : Dev nD) : ∀ j, (pV m d j).toNat ≤ 9999 := by
  intro j
  unfold pV Cert.Spec.idxp
  split
  · exact hpre d _
  · simp

/-- The value lemma of a trip, as the tile's proof asks it. -/
def ValOK : Prop := ∀ (d : Dev nD) (L : grid0.Coords) (k : Fin k0_t1_loop.trips) fs fr hn hr,
  ∀ x ∈ chunkSet L k, landed (F := F) L k (tV m d) (pV m d) (o0V m d) fs fr hn hr x = Cert.Spec.gath (tV m d) (pV m d) x

theorem tileObl (hF : (K (F := F)).Facts) (hpre : PreOK m) (hval : ValOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (tV m d) (pV m d) (o0V m d) (qT c.val i.val) (qT c.val i.val) (pV_le m hpre d)
    (fun k fs fr hn hr => hval d _ k fs fr hn hr) O W hO).trans (wp_mono frame _ _ fun _ => obl_post)

/-! ## A SparseCore's operands split among its tiles -/

omit [FloatOps F] in
theorem bigSep_sep'' {I : Type} (s : Finset I) (Φ Ψ : I → sProp 𝕄) : (bigSep s fun i => iprop(Φ i ∗ Ψ i)) = iprop(bigSep s Φ ∗ bigSep s Ψ) :=
  BI.bigSep_sep s Φ Ψ

theorem vecSplit : (K (F := F)).VecSplit' (P m) 0 := by
  intro d c
  show forCore m d c 0 ⊢ |={Set.univ}=> iprop((bigSep Finset.univ fun i : Fin ((K (F := F)).nSub 0) => forTile m d c i 0)
      ∗ ((bigSep Finset.univ fun i : Fin ((K (F := F)).nSub 0) => forTile m d c i k0_t1_loop.trips) -∗ forCore m d c k0_t1_loop.trips))
  unfold forCore forTile
  rw [bigSep_sep'', bigSep_sep'', bigSep_sep'', bigSep_sep'']
  iintro ⟨Ht, Hp, Hch⟩
  ihave Ht' := (Transfers.pointsTo_toks (qC c.val) 16).1 $$ Ht
  ihave Hp' := (Transfers.pointsTo_toks (qC c.val) 16).1 $$ Hp
  icases Ht' with ⟨Htd, Hts⟩
  icases Hp' with ⟨Hpd, Hps⟩
  imodintro
  isplitl [Hts Hps Hch]
  · isplitl [Hts]; · iexact Hts
    isplitl [Hps]; · iexact Hps
    iexact Hch
  iintro ⟨Hts, Hps, Hch⟩
  isplitl [Htd Hts]
  · iapply (Transfers.pointsTo_toks (qC c.val) 16).2; isplitl [Htd]; · iexact Htd
    iexact Hts
  isplitl [Hpd Hps]
  · iapply (Transfers.pointsTo_toks (qC c.val) 16).2; isplitl [Hpd]; · iexact Hpd
    iexact Hps
  iexact Hch

end Cert.KernelIdeal.Pf

end
-- ==== Proof.ValHost.lean ====
/-
  The host operations around the two kernels, each read as a function of the arguments.

  Before the kernels: the table `x : [1, 128, 10000]` is reshaped to `[128, 10000]` and transposed, which is `xt x`
  (point by channel); the neighbour list `idx : [1, 10000, 32]` is flattened to 320000 words, written over the
  first 320000 places of a zero vector of 327680 words, and cut into 2560 rows of 128, which is `idxp idx`.
  After them: the `[256, 320000]` result is reshaped to `[1, 256, 10000, 32]`; flat position `p` becomes
  `(p / 32, p % 32)`, i.e. entry `(0, c, n, k)` is entry `(c, n * 32 + k)`.

  The write of the list into the zero vector is a scatter whose body returns the update, with one start index,
  `0`, and the whole update as its window: update element `p` lands on place `0 + p`. The scatter is a left fold
  of single-place writes over the update's places; the places are distinct, so a place that some update element
  lands on holds that element and every other place keeps the operand's value.
-/
import proofs.«213211_g18829136625754_cont_8to1_584_2_alg».proof.Proof.Gen.KernelIdeal
import proofs.«213211_g18829136625754_cont_8to1_584_2_alg».proof.Proof.Spec
import Idealize.ShloMosaic.Lib.ValueLayout

noncomputable section

namespace Cert.KernelIdeal.Val

open Idealize.ShloMosaic Idealize.ShloMosaic.ValueIdx
open Cert.KernelIdeal Cert.KernelIdeal.Gen

/-! ## A fold of single-place writes -/

section Fold
variable {ι β α : Type} {_inst : DecidableEq ι}

/-- A place no write of the list lands on keeps its value. -/
theorem foldl_set_miss (E : β → ι) (U : β → α) : ∀ (L : List β) (r : ι → α) (i' : ι), (∀ n ∈ L, E n ≠ i') →
    L.foldl (fun r n => fun i'' => if i'' = E n then U n else r i'') r i' = r i'
  | [], _, _, _ => rfl
  | n :: L, r, i', h => by
    rw [List.foldl_cons, foldl_set_miss E U L _ i' (fun m hm => h m (List.mem_cons_of_mem _ hm))]
    exact if_neg (fun e => h n List.mem_cons_self e.symm)

/-- When the writes land on distinct places, the place of write `n0` holds its value. -/
theorem foldl_set_hit (E : β → ι) (U : β → α) (hinj : Function.Injective E) : ∀ (L : List β) (r : ι → α) (n0 : β),
    L.Nodup → n0 ∈ L → L.foldl (fun r n => fun i'' => if i'' = E n then U n else r i'') r (E n0) = U n0
  | [], _, _, _, h => absurd h List.not_mem_nil
  | n :: L, r, n0, hnd, hmem => by
    rw [List.foldl_cons]
    rcases List.mem_cons.1 hmem with e | hm
    · subst e
      rw [foldl_set_miss E U L _ (E n0) (fun m hm e => (List.nodup_cons.1 hnd).1 (hinj e ▸ hm))]
      exact if_pos rfl
    · exact foldl_set_hit E U hinj L _ n0 (List.nodup_cons.1 hnd).2 hm

end Fold

/-! ## A scatter whose body returns the update, every update element landing inside the operand -/

section Scatter
variable {α : Type} {s si u : Shape} {w : Nat}

/-- Such a scatter is the fold of the writes "place `E j` takes update element `j`". -/
theorem scatter_set_eq_foldl (d : ScatterDims s si u) (x : s.Idx → α) (idx : IVec si w) (upd : u.Idx → α)
    (E : u.Idx → s.Idx) (hE : ∀ j, d.resultIdx? j idx = some (E j)) :
    Host.scatter d (fun _ b => b) x idx upd
      = (List.finRange u.numel).foldl
          (fun r n => fun i' => if i' = E (u.rowMajor.symm n) then upd (u.rowMajor.symm n) else r i') x := by
  unfold Host.scatter
  simp only [hE]

/-- With distinct landing places, the place of update element `j0` holds it. -/
theorem scatter_set_hit (d : ScatterDims s si u) (x : s.Idx → α) (idx : IVec si w) (upd : u.Idx → α)
    (E : u.Idx → s.Idx) (hE : ∀ j, d.resultIdx? j idx = some (E j)) (hinj : Function.Injective E) (j0 : u.Idx) :
    Host.scatter d (fun _ b => b) x idx upd (E j0) = upd j0 := by
  rw [scatter_set_eq_foldl d x idx upd E hE]
  obtain ⟨n0, rfl⟩ : ∃ n0, j0 = u.rowMajor.symm n0 := ⟨u.rowMajor j0, (Equiv.symm_apply_apply _ _).symm⟩
  exact foldl_set_hit (fun n => E (u.rowMajor.symm n)) (fun n => upd (u.rowMajor.symm n))
    (hinj.comp u.rowMajor.symm.injective) (List.finRange u.numel) x n0 (List.nodup_finRange _)
    (List.mem_finRange _)

/-- A place no update element lands on keeps the operand's value. -/
theorem scatter_set_miss (d : ScatterDims s si u) (x : s.Idx → α) (idx : IVec si w) (upd : u.Idx → α)
    (E : u.Idx → s.Idx) (hE : ∀ j, d.resultIdx? j idx = some (E j)) (i' : s.Idx) (hi : ∀ j, E j ≠ i') :
    Host.scatter d (fun _ b => b) x idx upd i' = x i' := by
  rw [scatter_set_eq_foldl d x idx upd E hE]
  exact foldl_set_miss (fun n => E (u.rowMajor.symm n)) (fun n => upd (u.rowMajor.symm n)) _ x i' (fun n _ => hi _)

end Scatter

/-! ## The table transposed -/

variable {F : FTy → Type}

/-- The reshape to `[128, 10000]` followed by the transpose is `xt`. -/
theorem transpose_reshape_eq_xt (x : FVec F S1x128x10000 .f32) :
    transpose S10000x128 [1, 0] (shapeCast S128x10000 x shapeCasts_S1x128x10000_S128x10000)
      transposes_S128x10000_S10000x128_1_0 = Cert.Spec.xt x := by
  funext j
  obtain ⟨r, c, rfl⟩ : ∃ (r : Fin 10000) (c : Fin 128), j = ix2 r c := ⟨j 0, j 1, eq_ix2 j⟩
  exact (transpose_ix2_apply _ _ r c).trans (shapeCast_1ab_ab_apply x _ c r)

/-! ## The padded neighbour list -/

/-- The flat list: entry `p` is `idx[0, p / 32, p % 32]`. -/
theorem flat_apply {α : Type} (idx : (⟨3, ![1, 10000, 32]⟩ : Shape).Idx → α)
    (h : (⟨3, ![1, 10000, 32]⟩ : Shape).ShapeCasts ⟨1, ![320000]⟩) (p : Fin 320000) :
    shapeCast ⟨1, ![320000]⟩ idx h (ix1 p)
      = idx (ix3 (0 : Fin 1) (⟨p.val / 32, by omega⟩ : Fin 10000) (⟨p.val % 32, Nat.mod_lt _ (by norm_num)⟩ : Fin 32)) :=
  shapeCast_apply idx h _ _ (by
    rw [Shape.rowMajor_val_three, Shape.rowMajor_val_one]
    show (0 * 10000 + p.val / 32) * 32 + p.val % 32 = p.val
    omega)

/-- A vector of 327680 cut into rows of 128: entry `(a, b)` is entry `a * 128 + b`. -/
theorem rows_apply {α : Type} (v : (⟨1, ![327680]⟩ : Shape).Idx → α)
    (h : (⟨1, ![327680]⟩ : Shape).ShapeCasts ⟨2, ![2560, 128]⟩) (a : Fin 2560) (b : Fin 128) :
    shapeCast ⟨2, ![2560, 128]⟩ v h (ix2 a b) = v (ix1 (⟨a.val * 128 + b.val, by omega⟩ : Fin 327680)) :=
  shapeCast_apply v h _ _ (by
    rw [Shape.rowMajor_val_two, Shape.rowMajor_val_one]
    rfl)

/-- A rank-1 index's coordinate is below the extent, written as `n` itself. -/
theorem idx1_lt {n : Nat} (j : (⟨1, ![n]⟩ : Shape).Idx) : (j 0).val < n := (j 0).isLt

/-- The start index of the write: the one word `0`. -/
abbrev start0 : IVec S1 32 := broadcastInDim S1 ![] bcast_S_S1 (constantI S_ 32 0#32)

/-- Update element `p` lands on place `p`. -/
theorem resultIdx_pad (p : Fin 320000) :
    scatter_S327680_S1_S320000_0_n_0_0.resultIdx? (ix1 p) start0 = some (ix1 (⟨p.val, by omega⟩ : Fin 327680)) := by
  have hs : ∀ a, scatter_S327680_S1_S320000_0_n_0_0.start (ix1 p) start0 a = 0 := fun a => by
    unfold ScatterDims.start
    split <;> rfl
  have hw : ∀ a, scatter_S327680_S1_S320000_0_n_0_0.window (ix1 p) a = p.val := fun a => by
    obtain rfl : a = 0 := Subsingleton.elim _ _
    rfl
  have hp := p.isLt
  unfold ScatterDims.resultIdx?
  rw [dif_pos (fun a => by
    rw [hs, hw]
    obtain rfl : a = 0 := Subsingleton.elim _ _
    show 0 ≤ (0 : Int) + (p.val : Int) ∧ (0 : Int) + (p.val : Int) < ((327680 : Nat) : Int)
    omega)]
  refine congrArg some (funext fun a => ?_)
  obtain rfl : a = 0 := Subsingleton.elim _ _
  refine Fin.ext ?_
  show (scatter_S327680_S1_S320000_0_n_0_0.start (ix1 p) start0 0
    + (scatter_S327680_S1_S320000_0_n_0_0.window (ix1 p) 0 : Int)).toNat = p.val
  rw [hs, hw]
  omega

/-- The list written over the zero vector, at place `p`: the list's entry below 320000, zero from there on. -/
theorem pad_apply (upd : IVec S320000 32) (p : Fin 327680) :
    Host.scatter scatter_S327680_S1_S320000_0_n_0_0 (fun _ b => b)
        (broadcastInDim S327680 ![] bcast_S_S327680 (constantI S_ 32 0#32)) start0 upd (ix1 p)
      = if h : p.val < 320000 then upd (ix1 (⟨p.val, h⟩ : Fin 320000)) else 0#32 := by
  have hE : ∀ j : S320000.Idx, scatter_S327680_S1_S320000_0_n_0_0.resultIdx? j start0
      = some ((fun j : S320000.Idx => (ix1 (⟨(j 0).val, by have := idx1_lt j; omega⟩ : Fin 327680) : S327680.Idx)) j) := fun j => by
    obtain ⟨q, rfl⟩ : ∃ q : Fin 320000, j = ix1 q := ⟨j 0, eq_ix1 j⟩
    exact resultIdx_pad q
  by_cases h : p.val < 320000
  · rw [dif_pos h]
    exact scatter_set_hit _ _ _ upd _ hE (fun j j' e => by
      obtain ⟨q, rfl⟩ : ∃ q : Fin 320000, j = ix1 q := ⟨j 0, eq_ix1 j⟩
      obtain ⟨q', rfl⟩ : ∃ q : Fin 320000, j' = ix1 q := ⟨j' 0, eq_ix1 j'⟩
      have hv : q.val = q'.val := congrArg (fun i : S327680.Idx => (i 0).val) e
      exact congrArg ix1 (Fin.ext hv)) (ix1 (⟨p.val, h⟩ : Fin 320000))
  · rw [dif_neg h]
    exact scatter_set_miss _ _ _ upd _ hE (ix1 p) (fun j e => by
      have hv : (j 0).val = p.val := congrArg (fun i : S327680.Idx => (i 0).val) e
      have hj := idx1_lt j
      exact h (by omega))

/-- Flatten, write over the zero vector, cut into rows of 128: the padded list `idxp`. -/
theorem padded_eq_idxp (idx : IVec S1x10000x32 32) :
    shapeCast S2560x128
        (Host.scatter scatter_S327680_S1_S320000_0_n_0_0 (fun _ b => b)
          (broadcastInDim S327680 ![] bcast_S_S327680 (constantI S_ 32 0#32))
          (broadcastInDim S1 ![] bcast_S_S1 (constantI S_ 32 0#32))
          (shapeCast S320000 idx shapeCasts_S1x10000x32_S320000))
        shapeCasts_S327680_S2560x128
      = Cert.Spec.idxp idx := by
  funext j
  obtain ⟨a, b, rfl⟩ : ∃ (a : Fin 2560) (b : Fin 128), j = ix2 a b := ⟨j 0, j 1, eq_ix2 j⟩
  refine (rows_apply _ _ a b).trans ((pad_apply _ _).trans ?_)
  show _ = if h : a.val * 128 + b.val < 320000 then _ else 0#32
  by_cases h : a.val * 128 + b.val < 320000
  · rw [dif_pos h, dif_pos h]
    exact flat_apply idx _ _
  · rw [dif_neg h, dif_neg h]

/-! ## The result split into point and neighbour -/

/-- A `[256, 320000]` array reshaped to `[1, 256, 10000, 32]` reads, at `(a, c, n, k)`, entry `(c, n * 32 + k)`. -/
theorem split_apply {α : Type} (o : (⟨2, ![256, 320000]⟩ : Shape).Idx → α)
    (h : (⟨2, ![256, 320000]⟩ : Shape).ShapeCasts ⟨4, ![1, 256, 10000, 32]⟩)
    (a : Fin 1) (c : Fin 256) (n : Fin 10000) (k : Fin 32) :
    shapeCast ⟨4, ![1, 256, 10000, 32]⟩ o h (ix4 a c n k)
      = o (ix2 c (⟨n.val * 32 + k.val, by omega⟩ : Fin 320000)) :=
  shapeCast_apply o h _ _ (by
    have ha : a.val = 0 := by omega
    rw [Shape.rowMajor_val_four, Shape.rowMajor_val_two]
    show c.val * 320000 + (n.val * 32 + k.val) = ((a.val * 256 + c.val) * 10000 + n.val) * 32 + k.val
    omega)

variable [FloatOps F]

/-- The final reshape of `tcOut`: the flat position split into point and neighbour. -/
theorem split_tcOut (g : Cert.Spec.SG.Idx → F .f32) (t : Cert.Spec.ST.Idx → F .f32) :
    shapeCast S1x256x10000x32 (Cert.Spec.tcOut g t) shapeCasts_S256x320000_S1x256x10000x32
      = fun j => Cert.Spec.tcOut g t (ix2 (j 1) (⟨(j 2).val * 32 + (j 3).val, by
          have h2 : (j 2).val < 10000 := (j 2).isLt
          have h3 : (j 3).val < 32 := (j 3).isLt
          omega⟩ : Fin 320000)) := by
  funext j
  obtain ⟨a, c, n, k, rfl⟩ : ∃ (a : Fin 1) (c : Fin 256) (n : Fin 10000) (k : Fin 32), j = ix4 a c n k :=
    ⟨j 0, j 1, j 2, j 3, eq_ix4 j⟩
  exact split_apply _ _ a c n k

/-- The final reshape of the kernel's road is `kout`. -/
theorem split_tcOut_eq_kout (x : Cert.Spec.SX.Idx → F .f32) (idx : Cert.Spec.SJ.Idx → BitVec 32) :
    shapeCast S1x256x10000x32
        (Cert.Spec.tcOut (Cert.Spec.gath (Cert.Spec.xt x) (Cert.Spec.idxp idx)) (Cert.Spec.xt x))
        shapeCasts_S256x320000_S1x256x10000x32
      = Cert.Spec.kout x idx :=
  split_tcOut _ _

end Cert.KernelIdeal.Val

end
-- ==== Proof.KHost.lean ====
/-
  The host operations of the kernel's @main as a list, @main as that list followed by the SparseCore call, the
  TensorCore call and the last reshape, and the arrays' contents after the list: the table is `x` transposed, the
  list is the neighbour words padded with zeros, every other array of interest is as at the launch.
-/
import proofs.«213211_g18829136625754_cont_8to1_584_2_alg».proof.Proof.KPay
import proofs.«213211_g18829136625754_cont_8to1_584_2_alg».proof.Proof.ValHost
import Idealize.ShloMosaic.Lib.StableHlo.RunLoop

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

open Idealize.ShloMosaic.StableHlo (held held_sub_split held_congr wp_hlo_within wp_seq launchContents after)

variable [FloatOps F]

/-- A TensorCore reference as a device buffer. -/
abbrev R (b : Ref sig .tc) : DevRef τ sig := Proc.devRef .tc b

abbrev op0 : HloOp τ sig (Elt F) := StableHlo.reshape main_arg0 main_v0 rfl shapeCasts_S1x128x10000_S128x10000
abbrev op1 : HloOp τ sig (Elt F) := StableHlo.unary main_v0 main_v1 ((transpose S10000x128 [1, 0] · transposes_S128x10000_S10000x128_1_0) : (⟨S128x10000, .f32⟩ : BufTy).Contents (Elt F) → (⟨S10000x128, .f32⟩ : BufTy).Contents (Elt F))
abbrev op2 : HloOp τ sig (Elt F) := StableHlo.reshape main_arg1 main_v2 rfl shapeCasts_S1x10000x32_S320000
abbrev op3 : HloOp τ sig (Elt F) := StableHlo.nullary main_c (constantI S_ 32 0#32)
abbrev op4 : HloOp τ sig (Elt F) := StableHlo.unary main_c main_v3 (broadcastInDim S327680 ![] bcast_S_S327680 : (⟨S_, .i32⟩ : BufTy).Contents (Elt F) → (⟨S327680, .i32⟩ : BufTy).Contents (Elt F))
abbrev op5 : HloOp τ sig (Elt F) := StableHlo.nullary main_c_0 (constantI S_ 32 0#32)
abbrev op6 : HloOp τ sig (Elt F) := StableHlo.unary main_c_0 main_v4 (broadcastInDim S1 ![] bcast_S_S1 : (⟨S_, .i32⟩ : BufTy).Contents (Elt F) → (⟨S1, .i32⟩ : BufTy).Contents (Elt F))
abbrev op7 : HloOp τ sig (Elt F) := StableHlo.ternary main_v3 main_v4 main_v2 main_v5 ((fun x i u => Host.scatter scatter_S327680_S1_S320000_0_n_0_0 (fun _ b => b) x i u) : (⟨S327680, .i32⟩ : BufTy).Contents (Elt F) → (⟨S1, .i32⟩ : BufTy).Contents (Elt F) → (⟨S320000, .i32⟩ : BufTy).Contents (Elt F) → (⟨S327680, .i32⟩ : BufTy).Contents (Elt F))
abbrev op8 : HloOp τ sig (Elt F) := StableHlo.reshape main_v5 main_v6 rfl shapeCasts_S327680_S2560x128
abbrev op9 : HloOp τ sig (Elt F) := StableHlo.reshape main_v8 main_v9 rfl shapeCasts_S256x320000_S1x256x10000x32

/-- The nine host operations before the SparseCore call. -/
abbrev ops0 : List (HloOp τ sig (Elt F)) := [op0, op1, op2, op3, op4, op5, op6, op7, op8]

theorem main_eq (d : Dev nD) :
    main (F := F) d = (StableHlo.seq ops0 >>= fun _ => (sc (F := F)).run d 0 >>= fun _ =>
      Prog.lift (.customCall (SparseCore.inner (Pipeline.entry 0)) ()) >>= fun _ => hlo rfl op9 (fun _ => .ret (⟨⟩ : PUnit)) >>= fun _ => pure ⟨⟩) := rfl

theorem ops0_sub : ∀ op ∈ (ops0 : List (HloOp τ sig (Elt F))), op.bufs ⊆ Pipeline.ucRefs τ sig := by
  intro op hop
  simp only [ops0, List.mem_cons, List.not_mem_nil, or_false] at hop
  rcases hop with rfl | rfl | rfl | rfl | rfl | rfl | rfl | rfl | rfl <;> exact Pipeline.sub_ucRefs _ (by simp)

theorem ops0_fresh : ∀ op ∈ (ops0 : List (HloOp τ sig (Elt F))), op.fresh = ∅ := by
  intro op hop
  simp only [ops0, List.mem_cons, List.not_mem_nil, or_false] at hop
  rcases hop with rfl | rfl | rfl | rfl | rfl | rfl | rfl | rfl | rfl <;> rfl

variable (m : (ℓ : Loc nD τ sig) → Buf (Elt F) ℓ)

/-- The device's arrays after the nine host operations. -/
def V1 (d : Dev nD) : Valuation τ sig (Elt F) := after ops0 (launchContents m d)

theorem V1_t (d : Dev nD) : V1 m d (R main_v1) = tV m d := by
  unfold V1 tV; after_results
  exact Cert.KernelIdeal.Val.transpose_reshape_eq_xt _
theorem V1_p (d : Dev nD) : V1 m d (R main_v6) = pV m d := by
  unfold V1 pV; after_results
  exact Cert.KernelIdeal.Val.padded_eq_idxp _
theorem V1_o (d : Dev nD) : V1 m d (R main_v7) = o0V m d := by
  unfold V1 o0V; after_results
theorem V1_a0 (d : Dev nD) : V1 m d (R main_arg0) = m (a0Loc d) := by
  unfold V1; after_results
theorem V1_a1 (d : Dev nD) : V1 m d (R main_arg1) = m (a1Loc d) := by
  unfold V1; after_results

end Cert.KernelIdeal.Pf

end
-- ==== Proof.KSplit.lean ====
/-
  The gathered array as its chunks, and the read shares of the table and the list as one per SparseCore: what
  @main hands the SparseCore call from the whole arrays, and what it reassembles from what the call brings back.
-/
import proofs.«213211_g18829136625754_cont_8to1_584_2_alg».proof.Proof.KPay

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

/-- The chunks, indexed by SparseCore, tile and trip. -/
abbrev A : Type := Fin (grid0.bound 0) × Fin (grid0.bound 1) × Fin k0_t1_loop.trips
abbrev ch (a : A) : Finset S327680x128.Idx := chunkSet (coordsV a.1 a.2.1) a.2.2

/-- The chunks partition the gathered array. -/
def Partition : Prop :=
  (∀ a ∈ (Finset.univ : Finset A), ∀ b ∈ (Finset.univ : Finset A), a ≠ b → Disjoint (ch a) (ch b))
    ∧ (Finset.univ : Finset A).biUnion ch = Finset.univ

omit [FloatOps F] in
/-- The whole array at `f` is its chunks at `f`, grouped by SparseCore, then tile, then trip. -/
theorem array_chunks (hP : Partition) (d : Dev nD) (f : S327680x128.Idx → F .f32) :
    (oLoc d ↦{fullShare} f : sProp 𝕄)
      = bigSep Finset.univ fun c : Fin (grid0.bound 0) => bigSep Finset.univ fun i : Fin (grid0.bound 1) =>
          bigSep Finset.univ fun k : Fin k0_t1_loop.trips => oLoc d ↦[chunkSet (coordsV c i) k]{fullShare} f := by
  have h1 : (oLoc d ↦{fullShare} f : sProp 𝕄) = bigSep (Finset.univ : Finset A) fun a => oLoc d ↦[ch a]{fullShare} f := by
    rw [← pointsTo_biUnion Finset.univ (ℓ := oLoc d) ch hP.1, hP.2]
  rw [h1, show (Finset.univ : Finset A) = (Finset.univ : Finset (Fin (grid0.bound 0))) ×ˢ (Finset.univ : Finset (Fin (grid0.bound 1) × Fin k0_t1_loop.trips)) from rfl,
    SparseCore.bigSep_product]
  refine bigSep_congr fun c _ => ?_
  rw [show (Finset.univ : Finset (Fin (grid0.bound 1) × Fin k0_t1_loop.trips)) = (Finset.univ : Finset (Fin (grid0.bound 1))) ×ˢ (Finset.univ : Finset (Fin k0_t1_loop.trips)) from rfl,
    SparseCore.bigSep_product]

omit [FloatOps F] in
theorem chunks_zero (d : Dev nD) (L : grid0.Coords) (g o0 : S327680x128.Idx → F .f32) :
    (chunks d L g o0 0 : sProp 𝕄) = bigSep Finset.univ fun k : Fin k0_t1_loop.trips => oLoc d ↦[chunkSet L k]{fullShare} o0 := by
  unfold chunks
  exact bigSep_congr fun j _ => by rw [if_neg (Nat.not_lt_zero _)]
omit [FloatOps F] in
theorem chunks_all (d : Dev nD) (L : grid0.Coords) (g o0 : S327680x128.Idx → F .f32) :
    (chunks d L g o0 k0_t1_loop.trips : sProp 𝕄) = bigSep Finset.univ fun k : Fin k0_t1_loop.trips => oLoc d ↦[chunkSet L k]{fullShare} g := by
  unfold chunks
  exact bigSep_congr fun j _ => by rw [if_pos j.isLt]

omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tiles (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ)

/-- All the chunks at trip count `n` (`0`: as at the launch; the trip count: gathered), grouped as the call takes them. -/
def allChunks (d : Dev nD) (n : ℕ) : sProp 𝕄 :=
  bigSep Finset.univ fun c : Fin ((K (F := F)).nCore 0) => bigSep Finset.univ fun i : Fin ((K (F := F)).nSub 0) => chunks d (Lci c i) (gV m d) (o0V m d) n

theorem allChunks_zero (hP : Partition) (d : Dev nD) : (allChunks m d 0 : sProp 𝕄) = (oLoc d ↦{fullShare} o0V m d) := by
  rw [array_chunks hP]
  unfold allChunks
  simp only [chunks_zero]
  rw [← bigSep_cores (F := F) (fun c => bigSep Finset.univ fun i : Fin (grid0.bound 1) => bigSep Finset.univ fun k : Fin k0_t1_loop.trips => oLoc d ↦[chunkSet (coordsV c i) k]{fullShare} o0V m d)]
  refine bigSep_congr fun c _ => ?_
  rw [← bigSep_tiles (F := F) (fun i => bigSep Finset.univ fun k : Fin k0_t1_loop.trips => oLoc d ↦[chunkSet (coordsV (Fin.cast nCore_zero c) i) k]{fullShare} o0V m d)]

theorem allChunks_all (hP : Partition) (d : Dev nD) : (allChunks m d k0_t1_loop.trips : sProp 𝕄) = (oLoc d ↦{fullShare} gV m d) := by
  rw [array_chunks hP]
  unfold allChunks
  simp only [chunks_all]
  rw [← bigSep_cores (F := F) (fun c => bigSep Finset.univ fun i : Fin (grid0.bound 1) => bigSep Finset.univ fun k : Fin k0_t1_loop.trips => oLoc d ↦[chunkSet (coordsV c i) k]{fullShare} gV m d)]
  refine bigSep_congr fun c _ => ?_
  rw [← bigSep_tiles (F := F) (fun i => bigSep Finset.univ fun k : Fin k0_t1_loop.trips => oLoc d ↦[chunkSet (coordsV (Fin.cast nCore_zero c) i) k]{fullShare} gV m d)]

/-- What the SparseCore call takes (`n = 0`) and brings back (`n` the trip count), over both SparseCores: the two
    arrays' read shares, one per SparseCore, and all the chunks. -/
theorem cores_eq (d : Dev nD) (n : ℕ) :
    (bigSep Finset.univ fun c : Fin ((K (F := F)).nCore 0) => forCore m d c n)
      = iprop((bigSep Finset.univ fun c : Fin 2 => tLoc d ↦{Transfers.shareTok fullShare 2 c} tV m d)
          ∗ (bigSep Finset.univ fun c : Fin 2 => pLoc d ↦{Transfers.shareTok fullShare 2 c} pV m d) ∗ allChunks m d n) := by
  unfold forCore allChunks
  rw [bigSep_sep'', bigSep_sep'']

end Cert.KernelIdeal.Pf

end
-- ==== Proof.KFinDef.lean ====
/-
  What @main leaves the claim on each device: the two arguments as at the launch and the result array at the
  kernel's function of them.
-/
import proofs.«213211_g18829136625754_cont_8to1_584_2_alg».proof.Proof.KPay

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

variable (m : (ℓ : Loc nD τ sig) → Buf (Elt F) ℓ)

/-- The result array, as a location of device `d`. -/
abbrev rLoc (d : Dev nD) : Loc nD τ sig := (SparseCore.T d).loc main_v9

/-- What @main leaves the claim. -/
def FIN (d : Dev nD) : sProp 𝕄 :=
  iprop((a0Loc d ↦{fullShare} m (a0Loc d)) ∗ (a1Loc d ↦{fullShare} m (a1Loc d))
    ∗ (rLoc d ↦{fullShare} Cert.Spec.kout (m (a0Loc d)) (m (a1Loc d))))

end Cert.KernelIdeal.Pf

end
-- ==== Proof.ValBody.lean ====
/-
  The value the TensorCore body stores, read at one index.

  The body loads a block `g` of 6400 gathered rows (128 channels each) and a block `t` of 200 table rows. It
  repeats each table row 32 times (row `q` of the repeated block is table row `q / 32`), subtracts that from the
  gathered block, puts the difference and the repeated block side by side on the channel axis (256 channels)
  and stores the transpose. So entry `(c, q)` of what it stores is `g[q, c] - t[q / 32, c]` for `c < 128` and
  `t[q / 32, c - 128]` for `c ≥ 128`.
-/
import proofs.«213211_g18829136625754_cont_8to1_584_2_alg».proof.Proof.Gen.KernelIdeal.Skeleton
import Idealize.ShloMosaic.Lib.ValueLayout

noncomputable section

namespace Cert.KernelIdeal.Val

open Idealize.ShloMosaic Idealize.ShloMosaic.ValueIdx
open Cert.KernelIdeal Cert.KernelIdeal.Gen

/-! ## The layout operations of the body at explicit coordinates -/

section Layout
variable {α : Type}

/-- A `[200, 128]` array cast to `[200, 1, 128]` reads, at `(p, u, c)`, the operand at `(p, c)`. -/
theorem cast_200x128_200x1x128 (x : (⟨2, ![200, 128]⟩ : Shape).Idx → α)
    (h : (⟨2, ![200, 128]⟩ : Shape).ShapeCasts ⟨3, ![200, 1, 128]⟩) (p : Fin 200) (u : Fin 1) (c : Fin 128) :
    shapeCast ⟨3, ![200, 1, 128]⟩ x h (ix3 p u c) = x (ix2 p c) :=
  shapeCast_apply x h _ _ (by
    have hu : u.val = 0 := by omega
    rw [Shape.rowMajor_val_three, Shape.rowMajor_val_two]
    show p.val * 128 + c.val = (p.val * 1 + u.val) * 128 + c.val
    omega)

/-- A `[200, 1, 128]` array broadcast to `[200, 32, 128]` reads, at `(p, r, c)`, the operand at `(p, 0, c)`. -/
theorem bcast_200x1x128_200x32x128 (x : (⟨3, ![200, 1, 128]⟩ : Shape).Idx → α)
    (h : (⟨3, ![200, 1, 128]⟩ : Shape).Broadcasts ⟨3, ![200, 32, 128]⟩) (p : Fin 200) (r : Fin 32) (c : Fin 128) :
    broadcastTo ⟨3, ![200, 32, 128]⟩ x h (ix3 p r c) = x (ix3 p (0 : Fin 1) c) := by
  refine broadcastTo_apply x h (ix3 p r c) (ix3 p (0 : Fin 1) c) fun ax => ?_
  match ax with
  | ⟨0, _⟩ => rfl
  | ⟨1, _⟩ => rfl
  | ⟨2, _⟩ => rfl

/-- A `[200, 32, 128]` array cast to `[6400, 128]` reads, at `(q, c)`, the operand at `(q / 32, q % 32, c)`:
    row-major, row `q` of the flat array is row `q % 32` of slab `q / 32`. -/
theorem cast_200x32x128_6400x128 (x : (⟨3, ![200, 32, 128]⟩ : Shape).Idx → α)
    (h : (⟨3, ![200, 32, 128]⟩ : Shape).ShapeCasts ⟨2, ![6400, 128]⟩) (q : Fin 6400) (c : Fin 128) :
    shapeCast ⟨2, ![6400, 128]⟩ x h (ix2 q c)
      = x (ix3 (⟨q.val / 32, by omega⟩ : Fin 200) (⟨q.val % 32, Nat.mod_lt _ (by norm_num)⟩ : Fin 32) c) :=
  shapeCast_apply x h _ _ (by
    rw [Shape.rowMajor_val_three, Shape.rowMajor_val_two]
    show (q.val / 32 * 32 + q.val % 32) * 128 + c.val = q.val * 128 + c.val
    omega)

/-- Two `[6400, 128]` arrays side by side on axis 1, read at a column below 128: the first. -/
theorem concat_6400x256_left (x₁ x₂ : (⟨2, ![6400, 128]⟩ : Shape).Idx → α)
    (h : Shape.Concatenates [(⟨2, ![6400, 128]⟩ : Shape), ⟨2, ![6400, 128]⟩] ⟨2, ![6400, 256]⟩ 1)
    (q : Fin 6400) (c : Fin 256) (hc : c.val < 128) :
    concatenate ⟨2, ![6400, 256]⟩ 1 [⟨⟨2, ![6400, 128]⟩, x₁⟩, ⟨⟨2, ![6400, 128]⟩, x₂⟩] h (ix2 q c)
      = x₁ (ix2 q (⟨c.val, hc⟩ : Fin 128)) :=
  concatenate_pair_apply_left 1 x₁ x₂ h (ix2 q c) rfl (ix2 q (⟨c.val, hc⟩ : Fin 128))
    (fun b => match b with | ⟨0, _⟩ => rfl | ⟨1, _⟩ => rfl)

/-- Two `[6400, 128]` arrays side by side on axis 1, read at a column from 128 on: the second, 128 columns back. -/
theorem concat_6400x256_right (x₁ x₂ : (⟨2, ![6400, 128]⟩ : Shape).Idx → α)
    (h : Shape.Concatenates [(⟨2, ![6400, 128]⟩ : Shape), ⟨2, ![6400, 128]⟩] ⟨2, ![6400, 256]⟩ 1)
    (q : Fin 6400) (c : Fin 256) (hc : 128 ≤ c.val) :
    concatenate ⟨2, ![6400, 256]⟩ 1 [⟨⟨2, ![6400, 128]⟩, x₁⟩, ⟨⟨2, ![6400, 128]⟩, x₂⟩] h (ix2 q c)
      = x₂ (ix2 q (⟨c.val - 128, by omega⟩ : Fin 128)) :=
  concatenate_pair_apply_right 1 x₁ x₂ h (ix2 q c) rfl rfl (ix2 q (⟨c.val - 128, by omega⟩ : Fin 128))
    (fun b hb => match b, hb with
      | ⟨0, _⟩, _ => rfl
      | ⟨1, _⟩, hb => absurd rfl hb)
    (by show c.val - 128 + 128 = c.val; omega)

/-- The table block repeated 32 times: row `q` of the repeated block is row `q / 32` of the block. -/
theorem repeated_apply (t : (⟨2, ![200, 128]⟩ : Shape).Idx → α)
    (h1 : (⟨2, ![200, 128]⟩ : Shape).ShapeCasts ⟨2, ![200, 128]⟩)
    (h2 : (⟨2, ![200, 128]⟩ : Shape).ShapeCasts ⟨3, ![200, 1, 128]⟩)
    (h3 : (⟨3, ![200, 1, 128]⟩ : Shape).ShapeCasts ⟨3, ![200, 1, 128]⟩)
    (h4 : (⟨3, ![200, 1, 128]⟩ : Shape).Broadcasts ⟨3, ![200, 32, 128]⟩)
    (h5 : (⟨3, ![200, 32, 128]⟩ : Shape).ShapeCasts ⟨2, ![6400, 128]⟩) (q : Fin 6400) (c : Fin 128) :
    shapeCast ⟨2, ![6400, 128]⟩ (broadcastTo ⟨3, ![200, 32, 128]⟩
        (shapeCast ⟨3, ![200, 1, 128]⟩ (shapeCast ⟨3, ![200, 1, 128]⟩ (shapeCast ⟨2, ![200, 128]⟩ t h1) h2) h3) h4) h5 (ix2 q c)
      = t (ix2 (⟨q.val / 32, by omega⟩ : Fin 200) c) := by
  rw [shapeCast_self t h1, shapeCast_self _ h3]
  exact (cast_200x32x128_6400x128 _ h5 q c).trans
    ((bcast_200x1x128_200x32x128 _ h4 _ _ c).trans (cast_200x128_200x1x128 t h2 _ _ c))

end Layout

/-! ## The stored value at an index -/

variable {F : FTy → Type} [FloatOps F]

/-- Entry `(c, q)` of the value the body stores: the gathered entry minus the point's own on channels below 128,
    the point's own on the channels from 128 on; row `q` of the block belongs to table row `q / 32`. -/
theorem k1_pay1_apply (g : Vec F S6400x128 .f32) (t : Vec F S200x128 .f32) (c : Fin 256) (q : Fin 6400) :
    k1_pay1 g t (ix2 c q) =
      if h : c.val < 128 then
        FloatOps.subf ((g : FVec F S6400x128 .f32) (ix2 q (⟨c.val, h⟩ : Fin 128)))
          ((t : FVec F S200x128 .f32) (ix2 (⟨q.val / 32, by omega⟩ : Fin 200) (⟨c.val, h⟩ : Fin 128)))
      else (t : FVec F S200x128 .f32) (ix2 (⟨q.val / 32, by omega⟩ : Fin 200) (⟨c.val - 128, by omega⟩ : Fin 128)) := by
  unfold k1_pay1
  dsimp only
  refine (transpose_ix2_apply _ _ c q).trans ?_
  by_cases h : c.val < 128
  · rw [dif_pos h]
    refine (concat_6400x256_left _ _ _ q c h).trans ?_
    show FloatOps.subf _ _ = FloatOps.subf _ _
    rw [shapeCast_self, repeated_apply]
  · rw [dif_neg h]
    refine (concat_6400x256_right _ _ _ q c (by omega)).trans ?_
    exact repeated_apply _ _ _ _ _ _ q _

end Cert.KernelIdeal.Val

end
-- ==== Proof.KRegion.lean ====
/-
  The TensorCore pallas_call inside the program's @main.

  After the SparseCore call has written the gathered rows `g : [327680, 128]`, @main runs one pipelined kernel on the
  TensorCore over a grid of 50 points. At point `i` the pipeline fetches rows `[6400 i, 6400 i + 6400)` of `g` and
  rows `[200 i, 200 i + 200)` of the table `t : [10000, 128]` into staging buffers, runs the body — two whole loads,
  the payload, one whole store — and writes the `[256, 6400]` block it stored back to columns
  `[6400 i, 6400 i + 6400)` of the result `[256, 320000]`.

  What is proved here (`wp_tcRegion`): from the three arrays at `g`, `t` and anything, the call terminates with
  `g` and `t` unchanged and the result equal to `Cert.Spec.tcOut g t`: channel `c < 128` of position `p` is
  `g[p, c] - t[p / 32, c]`, channel `c ≥ 128` is `t[p / 32, c - 128]`.

  The steps: the body at a point on any choice of staging buffers (`sound_body`); what each staging buffer holds
  when the body runs — the window of `g` is declared as one whose last block may overhang the array, but all fifty
  blocks used lie inside it, so a fetch overwrites the whole buffer (`moved0`, `fill0_eq`) —; the obligation of the
  body at every point (`body_obligation`); each block at explicit indices (`full0_apply`, `blk1_apply`,
  `emb2_apply`) and with the payload's value at an index the block a point writes back is that block of `tcOut`
  (`flushed2`); the fifty blocks of columns cover the result (`arrAt_final`); the region's record and its entry into
  the program of all the device's processors (`reg`, `wp_tcRegionF`, `wp_tcRegion`); and the part of the launch's
  ghost state the region consumes (`Greg`, `fund_Greg`).
-/
import proofs.«213211_g18829136625754_cont_8to1_584_2_alg».proof.Proof.KSetup
import proofs.«213211_g18829136625754_cont_8to1_584_2_alg».proof.Proof.Gen.KernelIdeal.Launch
import proofs.«213211_g18829136625754_cont_8to1_584_2_alg».proof.Proof.Gen.KernelIdeal.Points
import Idealize.ShloMosaic.Lib.Pipeline.Regions
import Idealize.ShloMosaic.Lib.Pipeline.Value
import proofs.«213211_g18829136625754_cont_8to1_584_2_alg».proof.Proof.ValBody

noncomputable section

namespace Cert.KernelIdeal.Pf

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf kernel pipe)

variable {F : FTy → Type} [FloatOps F]

local notation "𝕄" => MT nD τ sig (HIx 1) (Elt F) ℕ UU ℕ

variable (g : (c : Dev nD) → Buf (Elt F) ((T c : Thread nD τ).loc main_v7)) (t : (c : Dev nD) → Buf (Elt F) ((T c : Thread nD τ).loc main_v1))
  (o : (c : Dev nD) → Buf (Elt F) ((T c : Thread nD τ).loc main_v8))

/-- Block `tt` of the gathered rows, as the fetch reads it. -/
def blk0 (c : Dev nD) (tt : Fin cfg1.N) : (win1_0.xblock (grid1.coords tt)).Idx → Elt F .f32 :=
  (win1_0.blk tt).view.read (Elt F) (g c)
def blk1 (c : Dev nD) (tt : Fin cfg1.N) : S200x128.Idx → Elt F .f32 :=
  (win1_1.blk tt).view.read (Elt F) (t c)
def full0 (c : Dev nD) (tt : Fin cfg1.N) : S6400x128.Idx → Elt F .f32 :=
  win1_0.fill (grid1.coords tt) (fun _ => Scalar.ofBits .f32 0#32) (blk0 g c tt)

def dats (_ : Fin 1) (c : Dev nD) : Dat τ (Elt F) (HIx 1) ℕ UU ℕ (Pipeline.pin (pcfgs (F := F)) adm 0) c where
  A w := match w with
    | ⟨0, _⟩ => g c
    | ⟨1, _⟩ => t c
    | ⟨2, _⟩ => o c
  after w tt := match w with
    | ⟨0, _⟩ => full0 g c tt
    | ⟨1, _⟩ => blk1 t c tt
    | ⟨2, _⟩ => k1_pay1 (full0 g c tt) (blk1 t c tt)
  Φ _ := iprop(emp)
  q _ := fullShare
  owed _ := 0
  recorded _ := {p | (K (F := F)).lev ((T c : Thread nD τ), p.1) p.2 ≤ 8}

/-! ## The body at a point -/

set_option hygiene false in
local macro "body_case" b0:term "," b1:term "," b2:term : tactic => `(tactic| (
    have hr0 : (Memref.whole $b0 : Memref sig .tc _ _ _).view.readAt (Elt F) (Rect.unit (s := S6400x128) ![0, 0] S6400x128.size
        inb_S6400x128_S6400x128_0_0).toLoadRect = id := funext (Memref.readAt_unit_zero (Elt F) $b0 hz _)
    have hr1 : (Memref.whole $b1 : Memref sig .tc _ _ _).view.readAt (Elt F) (Rect.unit (s := S200x128) ![0, 0] S200x128.size
        inb_S200x128_S200x128_0_0).toLoadRect = id := funext (Memref.readAt_unit_zero (Elt F) $b1 hz _)
    have hw2 : ∀ f w, (((Memref.whole $b2).access (Rect.unit (s := S256x6400) ![0, 0] S256x6400.size inb_S256x6400_S256x6400_0_0)) :
        View sig .tc _ _ _).write (Elt F) f w Finset.univ = w := Memref.write_access_unit_zero_univ (Elt F) $b2 hz _
    simp only [owns_whole_eq, cc1__tc_body_eq_skeleton]; unfold cc1__tc_body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2))

set_option maxHeartbeats 4000000 in
/-- The body on staging buffers `s0`, `s1`, `s2` of the three windows: it loads the first two whole, and stores the
    payload of what it read whole into the third; the first two are unchanged. -/
theorem sound_body (c : Dev nD) (E : Set ℕ) (i : grid1.Coords) (s0 s1 s2 : Fin 2)
    (X0 : S6400x128.Idx → Elt F .f32) (X1 : S200x128.Idx → Elt F .f32) (X2 : S256x6400.Idx → Elt F .f32) (Kk : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ Kk ⟨⟩))
      ⊢ wp frame (wpE (defs₀ (F := F)) 𝒱₀ c none) E
          (cc1__tc_body i (stage1_0 s0) (hstage1_0 s0) (stage1_1 s1) (hstage1_1 s1) (stage1_2 s2) (hstage1_2 s2)) Kk := by
  have hz : (![0, 0] : Fin 2 → Nat) = fun _ => 0 := funext fun a => by fin_cases a <;> rfl
  fin_cases s0 <;> fin_cases s1 <;> fin_cases s2
  · body_case cc1_stg0_0, cc1_stg1_0, cc1_stg2_0
  · body_case cc1_stg0_0, cc1_stg1_0, cc1_stg2_1
  · body_case cc1_stg0_0, cc1_stg1_1, cc1_stg2_0
  · body_case cc1_stg0_0, cc1_stg1_1, cc1_stg2_1
  · body_case cc1_stg0_1, cc1_stg1_0, cc1_stg2_0
  · body_case cc1_stg0_1, cc1_stg1_0, cc1_stg2_1
  · body_case cc1_stg0_1, cc1_stg1_1, cc1_stg2_0
  · body_case cc1_stg0_1, cc1_stg1_1, cc1_stg2_1

/-! ## What the body finds in the staging buffers -/

/-- The result's window is never fetched. -/
theorem fetch1_2 : ∀ tt : Fin cfg1.N, (cfg1.win 2).fetch tt = false :=
  (by decide +kernel : ∀ tt : Fin grid1.N, win1_2.fetch tt = false)

/-- Every block of the gathered rows that the grid uses lies inside the array: the transfer moves all of it. -/
theorem xsize0 : ∀ (tt : Fin cfg1.N) (a : Fin 2), win1_0.xsize (grid1.coords tt) a = S6400x128.size a :=
  (by decide +kernel : ∀ (tt : Fin grid1.N) (a : Fin 2), win1_0.xsize (grid1.coords tt) a = S6400x128.size a)

theorem moved0 (tt : Fin cfg1.N) (j : S6400x128.Idx) : win1_0.moved (grid1.coords tt) j = true :=
  (win1_0.moved_iff _ j).mpr fun a => by rw [xsize0 tt a]; exact (j a).isLt

/-- So what a fetch leaves in the staging buffer does not depend on what the buffer held. -/
theorem fill0_eq (tt : Fin cfg1.N) (d d' : S6400x128.Idx → Elt F .f32) (b : (win1_0.xblock (grid1.coords tt)).Idx → Elt F .f32) :
    win1_0.fill (grid1.coords tt) d b = win1_0.fill (grid1.coords tt) d' b := by
  funext j; unfold Window.fill; rw [dif_pos (moved0 tt j), dif_pos (moved0 tt j)]

theorem before_0 (c : Dev nD) (tt : Fin cfg1.N) (d) :
    (dats g t o 0 c).before (0 : Fin 3) tt d = win1_0.fill (grid1.coords tt) d (blk0 g c tt) := by
  unfold Dat.before; rw [if_pos (fetch1_0 tt)]; rfl
theorem before_1 (c : Dev nD) (tt : Fin cfg1.N) (d) :
    (dats g t o 0 c).before (1 : Fin 3) tt d = blk1 t c tt := by
  unfold Dat.before; rw [if_pos (fetch1_1 tt)]; rfl
theorem before_2 (c : Dev nD) (tt : Fin cfg1.N) (d) : (dats g t o 0 c).before (2 : Fin 3) tt d = d := by
  unfold Dat.before
  rw [if_neg (by rw [fetch1_2 tt]; exact Bool.false_ne_true)]
  by_cases h0 : tt.val = 0
  · rw [if_pos h0]
  · rw [if_neg h0]; exact if_pos (flush1_2 _)

/-! ## The body obligation -/

theorem body_obligation (c : Dev nD) : BodyObligationLoose (dats g t o 0 c) (defs₀ (F := F)) 𝒱₀ none Set.univ := fun tt => by
  rw [bigSep_W1, bigSep_W1]
  simp only
  rw [show (dats g t o 0 c).Φ tt.succ = (dats g t o 0 c).Φ tt.castSucc from rfl,
    show (dats g t o 0 c).owesAt none tt.succ = (dats g t o 0 c).owesAt none tt.castSucc from rfl]
  iintro ⟨HΦ, Ho, ⟨%d0, H0⟩, ⟨%d1, H1⟩, ⟨%d2, H2⟩⟩
  rw [before_0 g t o c tt d0, before_1 g t o c tt d1, before_2 g t o c tt d2]
  iapply (sound_body (F := F) c Set.univ (grid1.coords tt) (cfg1.slots tt 0) (cfg1.slots tt 1) (cfg1.slots tt 2)
    (win1_0.fill (grid1.coords tt) d0 (blk0 g c tt)) (blk1 t c tt) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win1_0.cut (grid1.coords tt) (full0 g c tt) = blk0 g c tt := win1_0.cut_fill _ _ _
  have hf : win1_0.fill (grid1.coords tt) d0 (blk0 g c tt) = full0 g c tt := fill0_eq tt _ _ _
  isplitl [H0]
  · iexists d0
    change _ ⊢ owns (c : Thread nD τ) (stage1_0 (cfg1.slots tt 0)) fullShare (win1_0.fill (grid1.coords tt) d0 (win1_0.cut (grid1.coords tt) (full0 g c tt)))
    rw [hx]; try iexact H0
  isplitl [H1]
  · iexact H1
  · rw [hf]; iexact H2

/-! ## The blocks at explicit indices -/

/-- The block index maps at a point: block `tt` of rows for the two operands, block `tt` of columns for the result. -/
theorem index0 : ∀ tt : Fin cfg1.N, win1_0.index tt 0 = tt.val ∧ win1_0.index tt 1 = 0 :=
  (by decide +kernel : ∀ tt : Fin grid1.N, win1_0.index tt 0 = tt.val ∧ win1_0.index tt 1 = 0)
theorem index1 : ∀ tt : Fin cfg1.N, win1_1.index tt 0 = tt.val ∧ win1_1.index tt 1 = 0 :=
  (by decide +kernel : ∀ tt : Fin grid1.N, win1_1.index tt 0 = tt.val ∧ win1_1.index tt 1 = 0)
theorem index2 : ∀ tt : Fin cfg1.N, win1_2.index tt 0 = 0 ∧ win1_2.index tt 1 = tt.val :=
  (by decide +kernel : ∀ tt : Fin grid1.N, win1_2.index tt 0 = 0 ∧ win1_2.index tt 1 = tt.val)

theorem tt_lt (tt : Fin cfg1.N) : tt.val < 50 := Nat.lt_of_lt_of_eq tt.isLt N_1

/-- Row `q` of block `tt` of the gathered rows is row `6400 tt + q` of the array. -/
theorem full0_apply (c : Dev nD) (tt : Fin cfg1.N) (q : Fin 6400) (ch : Fin 128) :
    full0 g c tt (ix2 q ch) = g c (ix2 (⟨tt.val * 6400 + q.val, by have := tt_lt tt; omega⟩ : Fin 327680) ch) := by
  unfold full0 Window.fill
  rw [dif_pos (moved0 tt _)]
  unfold blk0
  rw [View.read_apply]
  show g c ((win1_0.rect tt).emb _) = _
  congr 1
  funext a
  apply Fin.ext
  rw [Window.rect_emb_val]
  match a with
  | ⟨0, _⟩ => show win1_0.index tt 0 * 6400 + q.val = tt.val * 6400 + q.val; rw [(index0 tt).1]
  | ⟨1, _⟩ => show win1_0.index tt 1 * 128 + ch.val = ch.val; rw [(index0 tt).2]; omega

/-- Row `r` of block `tt` of the table is row `200 tt + r` of the array. -/
theorem blk1_apply (c : Dev nD) (tt : Fin cfg1.N) (r : Fin 200) (ch : Fin 128) :
    blk1 t c tt (ix2 r ch) = t c (ix2 (⟨tt.val * 200 + r.val, by have := tt_lt tt; omega⟩ : Fin 10000) ch) := by
  unfold blk1
  rw [View.read_apply]
  show t c ((win1_1.rect tt).emb _) = _
  congr 1
  funext a
  apply Fin.ext
  rw [Window.rect_emb_val]
  match a with
  | ⟨0, _⟩ => show win1_1.index tt 0 * 200 + r.val = tt.val * 200 + r.val; rw [(index1 tt).1]
  | ⟨1, _⟩ => show win1_1.index tt 1 * 128 + ch.val = ch.val; rw [(index1 tt).2]; omega

/-- Column `q` of block `tt` of the result is column `6400 tt + q` of the array. -/
theorem emb2_apply (tt : Fin cfg1.N) (y : (win1_2.xblock (grid1.coords tt)).Idx) :
    (win1_2.blk tt).view.emb y
      = ix2 (⟨(y 0).val, (y 0).isLt⟩ : Fin 256) (⟨tt.val * 6400 + (y 1).val, by have := tt_lt tt; have : (y 1).val < 6400 := (y 1).isLt; show _ < 320000; omega⟩ : Fin 320000) := by
  show (win1_2.rect tt).emb y = _
  funext a
  apply Fin.ext
  rw [Window.rect_emb_val]
  match a with
  | ⟨0, _⟩ => show win1_2.index tt 0 * 256 + (y 0).val = (y 0).val; rw [(index2 tt).1]; omega
  | ⟨1, _⟩ => show win1_2.index tt 1 * 6400 + (y 1).val = tt.val * 6400 + (y 1).val; rw [(index2 tt).2]

omit [FloatOps F] in
theorem ix2_congr {n0 n1 : Nat} {a a' : Fin n0} {b b' : Fin n1} (ha : a.val = a'.val) (hb : b.val = b'.val) : ix2 a b = ix2 a' b' := by
  rw [Fin.ext ha, Fin.ext hb]

/-! ## The result array after the last write-back -/

/-- What point `tt` writes back is block `tt` of `tcOut`. -/
theorem flushed2 (c : Dev nD) (tt : Fin cfg1.N) :
    (dats g t o 0 c).flushed (2 : Fin 3) tt = (win1_2.blk tt).view.read (Elt F) (Cert.Spec.tcOut (g c) (t c)) := by
  funext y
  rw [View.read_apply, emb2_apply]
  show k1_pay1 (full0 g c tt) (blk1 t c tt) (win1_2.xinj (grid1.coords tt) y) = Cert.Spec.tcOut (g c) (t c) _
  rw [eq_ix2 (win1_2.xinj (grid1.coords tt) y)]
  have hq : (y 1).val < 6400 := (y 1).isLt
  have hc : (y 0).val < 256 := (y 0).isLt
  have htt := tt_lt tt
  refine (Val.k1_pay1_apply (full0 g c tt) (blk1 t c tt) ⟨(y 0).val, hc⟩ ⟨(y 1).val, hq⟩).trans ?_
  unfold Cert.Spec.tcOut
  by_cases h : (y 0).val < 128
  · rw [dif_pos h, dif_pos (show ((ix2 (⟨(y 0).val, hc⟩ : Fin 256) (⟨tt.val * 6400 + (y 1).val, by omega⟩ : Fin 320000)) 0).val < 128 from h)]
    rw [full0_apply, blk1_apply]
    refine congrArg₂ FloatOps.subf (congrArg (g c) (ix2_congr rfl rfl)) (congrArg (t c) (ix2_congr ?_ rfl))
    show tt.val * 200 + (y 1).val / 32 = (tt.val * 6400 + (y 1).val) / 32
    omega
  · rw [dif_neg h, dif_neg (show ¬ ((ix2 (⟨(y 0).val, hc⟩ : Fin 256) (⟨tt.val * 6400 + (y 1).val, by omega⟩ : Fin 320000)) 0).val < 128 from h)]
    rw [blk1_apply]
    refine congrArg (t c) (ix2_congr ?_ rfl)
    show tt.val * 200 + (y 1).val / 32 = (tt.val * 6400 + (y 1).val) / 32
    omega

theorem mem_blk2 (tt : Fin cfg1.N) (i : S256x320000.Idx) (h : tt.val * 6400 ≤ (i 1).val ∧ (i 1).val < tt.val * 6400 + 6400) :
    i ∈ (win1_2.blk tt).view.set := by
  show i ∈ ((View.whole main_v8).slice (win1_2.rect tt)).set
  rw [View.set_slice_whole, Rect.mem_set_unit]
  have hi0 : (i 0).val < 256 := (i 0).isLt
  intro a
  match a with
  | ⟨0, _⟩ =>
    show win1_2.index tt 0 * 256 ≤ (i 0).val ∧ (i 0).val < win1_2.index tt 0 * 256 + 256
    rw [(index2 tt).1]; omega
  | ⟨1, _⟩ =>
    show win1_2.index tt 1 * 6400 ≤ (i 1).val ∧ (i 1).val < win1_2.index tt 1 * 6400 + 6400
    rw [(index2 tt).2]; exact h

/-- The fifty blocks of columns cover the result, and each is written with its block of `tcOut`: the result ends
    holding `tcOut`. -/
theorem arrAt_final (c : Dev nD) : (dats g t o 0 c).arrAt (2 : Fin 3) cfg1.N = Cert.Spec.tcOut (g c) (t c) := by
  refine (dats g t o 0 c).arrAt_eq_of_cover (2 : Fin 3) (Cert.Spec.tcOut (g c) (t c)) (fun tt _ => flushed2 g t o c tt) fun i => ?_
  have hi1 : ((i : S256x320000.Idx) 1).val < 320000 := (i 1).isLt
  exact ⟨⟨((i : S256x320000.Idx) 1).val / 6400, Nat.lt_of_lt_of_eq (by omega) N_1.symm⟩, flush1_2 _,
    mem_blk2 _ i (by show ((i : S256x320000.Idx) 1).val / 6400 * 6400 ≤ _ ∧ _ < ((i : S256x320000.Idx) 1).val / 6400 * 6400 + 6400; omega)⟩

/-! ## The region -/

/-- What the TensorCore owes and has recorded when it is at the region: nothing owed, every recorded pair at a level
    at most that of the first call's handshakes. -/
def owesB (c : Dev nD) : sProp 𝕄 :=
  iprop(∃ W, ⌜(K (F := F)).WBelow (T c) W 8⌝ ∗ owes (T c : Thread nD τ) (0 : CellTallies nD τ sig (HIx 1)) W)

theorem share_eq (c : Dev nD) (w : Fin 3) : (dats g t o 0 c).share w = fullShare :=
  (dats g t o 0 c).share_full (fun _ => rfl) w

set_option backward.isDefEq.respectTransparency.types false in
/-- The region's record: the layout decided by the generated launch facts, no semaphore of the kernel's own, the
    body obligation; entered with the three arrays at `g`, `t`, `o` and left with the result at `tcOut`. -/
def reg : Pipeline.RegionSeg (pcfgs (F := F)) adm (dats g t o) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation g t o c
  hwaits := Pipeline.hwaits_of_owed_zero _ _ _ _ (K (F := F)).L (K (F := F)).lev 0 fun _ _ => rfl
  pre c := iprop(owesB c ∗ ((T c : Thread nD τ).loc main_v7 ↦{fullShare} g c) ∗ ((T c : Thread nD τ).loc main_v1 ↦{fullShare} t c)
    ∗ ((T c : Thread nD τ).loc main_v8 ↦{fullShare} o c))
  post c := iprop(owesB c ∗ ((T c : Thread nD τ).loc main_v7 ↦{fullShare} g c) ∗ ((T c : Thread nD τ).loc main_v1 ↦{fullShare} t c)
    ∗ ((T c : Thread nD τ).loc main_v8 ↦{fullShare} (Cert.Spec.tcOut (g c) (t c) : Buf (Elt F) ((T c : Thread nD τ).loc main_v8))))
  X _ := iprop(emp)
  Y _ := iprop(emp)
  Z _ := iprop(emp)
  hentry c := by
    rw [Pipeline.arrays_eq (Pipeline.pin (pcfgs (F := F)) adm) (dats g t o) 0 c launch1.arr_whole (share_eq g t o c), bigSep_W1]
    unfold owesB
    iintro ⟨⟨⟨%W, %hW, HO⟩, H7, H1, H8⟩, -, -⟩
    imodintro
    isplitl [H7 H1 H8]
    · isplitl [H7]; · iexact H7
      isplitl [H1]; · iexact H1
      iexact H8
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [Pipeline.arrays_eq (Pipeline.pin (pcfgs (F := F)) adm) (dats g t o) 0 c launch1.arr_whole (share_eq g t o c), bigSep_W1]
    rw [(dats g t o 0 c).arrAt_in (0 : Fin 3) rfl _, (dats g t o 0 c).arrAt_in (1 : Fin 3) rfl _]
    rw [show (dats g t o 0 c).arrAt (2 : Fin 3) (Pipeline.pin (pcfgs (F := F)) adm 0).N = Cert.Spec.tcOut (g c) (t c) from arrAt_final g t o c]
    unfold owesB Pipeline.Dat.owesAt Pipeline.owesWithin
    iintro ⟨⟨H7, H1, H8⟩, ⟨%W, %hW, HO⟩, -, -⟩
    imodintro
    isplitl [HO]
    · iexists W; isplitr
      · ipureintro
        intro p hp
        rcases hW hp with h | ⟨w, s, rfl⟩
        · exact h
        · exact Nat.zero_le _
      iexact HO
    isplitl [H7]; · iexact H7
    isplitl [H1]; · iexact H1
    iexact H8

/-! ## The pallas_call inside @main -/

/-- What the launch element hands the TensorCore of `d` for the region: the staging cells' rounds and the duty tokens
    of the pipeline's transfers. -/
def Greg (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_fin1 {M : Type} [URA M] (Φ : Fin 1 → sProp M) : bigSep Finset.univ Φ = Φ 0 := by
  rw [show (Finset.univ : Finset (Fin 1)) = {0} from by decide, bigSep_singleton]

/-- The launch element's pipeline component funds every device's cells and tokens. -/
theorem fund_Greg :
    (BI.own (EP (F := F) (initOf (Pipeline.cells cfgs cellOf_inj) (Pipeline.launchToks cfgs cellOf_inj))) : sProp 𝕄)
      ⊢ |==> bigSep Finset.univ fun d : Dev nD => Greg (F := F) d := by
  have e : (bigSep Finset.univ fun d : Dev nD => Greg (F := F) d)
      = iprop((bigSep Finset.univ fun c : Dev nD => bigSep Finset.univ fun p : Fin 1 => Pipeline.cellsGhost cfgs (EP (F := F)) p c)
          ∗ (bigSep Finset.univ fun c : Dev nD => bigSep Finset.univ fun p : Fin 1 => (Pipeline.toksInit cfgs (EP (F := F)) p c : sProp 𝕄))) := by
    unfold Greg; rw [bigSep_sep']; simp only [bigSep_fin1]
  rw [e]; exact Pipeline.fund_ghost cfgs (EP (F := F)) cellOf_inj

set_option backward.isDefEq.respectTransparency.types false in
theorem wp_tcRegionF (d : Dev nD) (Φ : PUnit → sProp 𝕄) :
    iprop(levAts (K (F := F)).L (K (F := F)).lev
        ∗ (K (F := F)).tcSt EH d 1 ∗ boundary (T d : Thread nD τ) ∗ Greg d
        ∗ ((T d : Thread nD τ).loc main_v7 ↦{fullShare} g d) ∗ ((T d : Thread nD τ).loc main_v1 ↦{fullShare} t d)
        ∗ ((T d : Thread nD τ).loc main_v8 ↦{fullShare} o d)
        ∗ (iprop((K (F := F)).tcSt EH d 1 ∗ boundary (T d : Thread nD τ)
              ∗ ((T d : Thread nD τ).loc main_v7 ↦{fullShare} g d) ∗ ((T d : Thread nD τ).loc main_v1 ↦{fullShare} t d)
              ∗ ((T d : Thread nD τ).loc main_v8 ↦{fullShare} (Cert.Spec.tcOut (g d) (t d) : Buf (Elt F) ((T d : Thread nD τ).loc main_v8))))
            -∗ Φ ⟨⟩))
      ⊢ wp frame (wpE ((K (F := F)).defs (D (F := F))) 𝒱 (T d) none) Set.univ
          (Prog.lift (.customCall (SparseCore.inner (Pipeline.entry 0)) ())) Φ := by
  unfold SparseCore.Cfg.tcSt Greg
  rw [(K (F := F)).Otc_end d (le_refl 1)]
  iintro ⟨#Hlev, ⟨⟨%W, %hW, HO⟩, Hrest⟩, Hb, ⟨Hcg, Htk⟩, H7, H1, H8, Hk⟩
  iapply ((K (F := F)).wp_liftProg (D (F := F)) 𝒱 (T d) Set.univ none (Prog.lift (.customCall (Pipeline.entry (0 : Fin 1)) ())) Φ)
  iapply (Pipeline.RegionSeg.wp (pcfgs (F := F)) adm (dats g t o) none cellOf_inj EP defs₀ 𝒱₀ (K (F := F)).L (K (F := F)).lev
    (reg g t o) d none (fun _ h => nomatch h) (fun x => Prog.ret x) Φ)
  isplitl [Hrest Hk]
  · unfold reg owesB; dsimp only
    iintro ⟨Hb, ⟨%W', %hW', HO⟩, H7, H1, H8⟩
    rw [wp_ret]; imodintro
    iapply Hk
    isplitl [HO Hrest]
    · isplitl [HO]
      · iexists W'; isplitr; · ipureintro; exact hW'
        iexact HO
      iexact Hrest
    isplitl [Hb]; · iexact Hb
    isplitl [H7]; · iexact H7
    isplitl [H1]; · iexact H1
    iexact H8
  isplitl [Hb]; · iexact Hb
  isplitl [HO H7 H1 H8]
  · unfold reg owesB; dsimp only
    isplitl [HO]
    · iexists W; isplitr; · ipureintro; exact hW
      iexact HO
    isplitl [H7]; · iexact H7
    isplitl [H1]; · iexact H1
    iexact H8
  isplitr; · iexact Hlev
  isplitl [Hcg]; · iexact Hcg
  iexact Htk

/-! ## The statement at one device's contents -/

/-- Contents given at device `d`, read at any device: the mesh has one. -/
def atDev (d : Dev nD) {b : Ref sig .tc} (x : Buf (Elt F) ((T d : Thread nD τ).loc b)) (c : Dev nD) : Buf (Elt F) ((T c : Thread nD τ).loc b) :=
  (Subsingleton.elim d c) ▸ x

omit [FloatOps F] in
theorem atDev_self (d : Dev nD) {b : Ref sig .tc} (x : Buf (Elt F) ((T d : Thread nD τ).loc b)) : atDev d x d = x := rfl

/-- **The TensorCore pallas_call inside @main.** From the level facts, the TensorCore's handshake state after the
    SparseCore call, the region boundary, the staging cells' ghost state and the three arrays — the gathered rows at
    `g`, the table at `t`, the result at anything —, the call runs to the same with the result at `tcOut g t`. -/
theorem wp_tcRegion (d : Dev nD) (g : Buf (Elt F) ((T d : Thread nD τ).loc main_v7)) (t : Buf (Elt F) ((T d : Thread nD τ).loc main_v1))
    (o : Buf (Elt F) ((T d : Thread nD τ).loc main_v8)) (Φ : PUnit → sProp 𝕄) :
    iprop(levAts (K (F := F)).L (K (F := F)).lev
        ∗ (K (F := F)).tcSt EH d 1 ∗ boundary (T d : Thread nD τ) ∗ Greg d
        ∗ ((T d : Thread nD τ).loc main_v7 ↦{fullShare} g) ∗ ((T d : Thread nD τ).loc main_v1 ↦{fullShare} t)
        ∗ ((T d : Thread nD τ).loc main_v8 ↦{fullShare} o)
        ∗ (iprop((K (F := F)).tcSt EH d 1 ∗ boundary (T d : Thread nD τ)
              ∗ ((T d : Thread nD τ).loc main_v7 ↦{fullShare} g) ∗ ((T d : Thread nD τ).loc main_v1 ↦{fullShare} t)
              ∗ ((T d : Thread nD τ).loc main_v8 ↦{fullShare} (Cert.Spec.tcOut g t : Buf (Elt F) ((T d : Thread nD τ).loc main_v8))))
            -∗ Φ ⟨⟩))
      ⊢ wp frame (wpE ((K (F := F)).defs (D (F := F))) 𝒱 (T d) none) Set.univ
          (Prog.lift (.customCall (SparseCore.inner (Pipeline.entry 0)) ())) Φ :=
  wp_tcRegionF (atDev d g) (atDev d t) (atDev d o) d Φ

end Cert.KernelIdeal.Pf

end
-- ==== Proof.KMain.lean ====
/-
  @main on the TensorCore: the nine host operations (the table and the padded list computed), the SparseCore call
  (the two read shares and the chunks out, the gathered array back), the TensorCore call (the difference and own
  features, channels by flat position), the last reshape. The arguments end as they began and the result holds
  the kernel's function of them.
-/
import proofs.«213211_g18829136625754_cont_8to1_584_2_alg».proof.Proof.KHost
import proofs.«213211_g18829136625754_cont_8to1_584_2_alg».proof.Proof.KSplit
import proofs.«213211_g18829136625754_cont_8to1_584_2_alg».proof.Proof.KFinDef
import proofs.«213211_g18829136625754_cont_8to1_584_2_alg».proof.Proof.KRegion

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

open Idealize.ShloMosaic.StableHlo (held held_sub_split held_congr wp_hlo_within wp_seq launchContents after)

variable [FloatOps F]

abbrev T7 : Finset (DevRef τ sig) := {R main_arg0, R main_arg1, R main_v1, R main_v6, R main_v7, R main_v8, R main_v9}

omit [FloatOps F] in
theorem T7_sub : T7 ⊆ Pipeline.ucRefs τ sig := by
  intro b hb
  simp only [T7, Finset.mem_insert, Finset.mem_singleton] at hb
  rcases hb with rfl | rfl | rfl | rfl | rfl | rfl | rfl <;> exact StableHlo.devRef_mem_ucRefs _ rfl

omit [FloatOps F] in
/-- The seven arrays @main goes on with, out of all it holds. -/
theorem held_T7 (d : Dev nD) (V : Valuation τ sig (Elt F)) :
    (held (d.tc : Thread nD τ) (Pipeline.ucRefs τ sig) V : sProp 𝕄)
      ⊢ iprop((a0Loc d ↦{fullShare} V (R main_arg0)) ∗ (a1Loc d ↦{fullShare} V (R main_arg1)) ∗ (tLoc d ↦{fullShare} V (R main_v1))
        ∗ (pLoc d ↦{fullShare} V (R main_v6)) ∗ (oLoc d ↦{fullShare} V (R main_v7)) ∗ ((SparseCore.T d).loc main_v8 ↦{fullShare} V (R main_v8))
        ∗ ((SparseCore.T d).loc main_v9 ↦{fullShare} V (R main_v9))) := by
  rw [held_sub_split (d.tc : Thread nD τ) T7_sub V]
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  iintro ⟨H, -⟩
  iexact H

variable (m : (ℓ : Loc nD τ sig) → Buf (Elt F) ℓ) (ρ : Dev nD → PrngReg)

abbrev S89 : Finset (DevRef τ sig) := {R main_v8, R main_v9}

omit [FloatOps F] in
theorem held_S89 (d : Dev nD) (V : Valuation τ sig (Elt F)) :
    (held (SparseCore.T d) S89 V : sProp 𝕄) = iprop(((SparseCore.T d).loc main_v8 ↦{fullShare} V (R main_v8)) ∗ (rLoc d ↦{fullShare} V (R main_v9))) := by
  unfold held S89
  rw [SparseCore.bigSep_insert' (by decide), bigSep_singleton]

theorem op9_sub : (op9 (F := F)).bufs ⊆ S89 := by
  rw [StableHlo.reshape_bufs]

/-- The arrays before the last reshape: the result of the TensorCore call in place. -/
def V9 (d : Dev nD) : Valuation τ sig (Elt F) :=
  Function.update (V1 m d) (R main_v8) (Cert.Spec.tcOut (gV m d) (tV m d) : S256x320000.Idx → F .f32)

theorem V9_v8 (d : Dev nD) : V9 m d (R main_v8) = (Cert.Spec.tcOut (gV m d) (tV m d) : S256x320000.Idx → F .f32) := Function.update_self _ _ _
theorem V9_v9 (d : Dev nD) : V9 m d (R main_v9) = V1 m d (R main_v9) := Function.update_of_ne (show R main_v9 ≠ R main_v8 by decide) _ _

/-- The last reshape's result: the kernel's function of the arguments. -/
theorem result_v9 (d : Dev nD) : (op9 (F := F)).result (V9 m d) (R main_v9) = Cert.Spec.kout (m (a0Loc d)) (m (a1Loc d)) := by
  rw [StableHlo.reshape_result, V9_v8]
  exact Cert.KernelIdeal.Val.split_tcOut_eq_kout _ _

/-- What the call takes over both SparseCores, and what it brings back. -/
theorem st_eq (d : Dev nD) :
    (bigSep Finset.univ fun c : Fin ((K (F := F)).nCore 0) => (P m).st 0 d c)
      = iprop((bigSep Finset.univ fun c : Fin 2 => tLoc d ↦{Transfers.shareTok fullShare 2 c} tV m d)
          ∗ (bigSep Finset.univ fun c : Fin 2 => pLoc d ↦{Transfers.shareTok fullShare 2 c} pV m d) ∗ allChunks m d 0) := cores_eq m d 0
theorem dn_eq (d : Dev nD) :
    (bigSep Finset.univ fun c : Fin ((K (F := F)).nCore 0) => (P m).dn 0 d c)
      = iprop((bigSep Finset.univ fun c : Fin 2 => tLoc d ↦{Transfers.shareTok fullShare 2 c} tV m d)
          ∗ (bigSep Finset.univ fun c : Fin 2 => pLoc d ↦{Transfers.shareTok fullShare 2 c} pV m d) ∗ allChunks m d k0_t1_loop.trips) :=
  cores_eq m d k0_t1_loop.trips

theorem hmain (hP : Partition) (κ : GSem nD τ sig → ℕ) (d : Dev nD) :
    iprop((K (F := F)).ctx EH (P m) κ ∗ (K (F := F)).tcSt EH d 0 ∗ (K (F := F)).tcRes m ρ d ∗ Greg (F := F) d)
      ⊢ wp frame (wpE ((K (F := F)).defs (D (F := F))) 𝒱 (SparseCore.T d) none) Set.univ (main d)
          fun _ => iprop((K (F := F)).tcSt EH d 1 ∗ FIN m d) := by
  have e0 : after ops0 (launchContents m d) (R main_arg0) = m (a0Loc d) := V1_a0 m d
  have e1 : after ops0 (launchContents m d) (R main_arg1) = m (a1Loc d) := V1_a1 m d
  have e2 : after ops0 (launchContents m d) (R main_v1) = tV m d := V1_t m d
  have e3 : after ops0 (launchContents m d) (R main_v6) = pV m d := V1_p m d
  have e4 : after ops0 (launchContents m d) (R main_v7) = o0V m d := V1_o m d
  unfold SparseCore.Cfg.tcRes
  rw [show unscopedBufs d (fun b => m ((SparseCore.T d).loc b)) = held (SparseCore.T d) (Pipeline.ucRefs τ sig) (launchContents m d) from
    Pipeline.unscopedBufs_held d (launchContents m d), main_eq]
  iintro ⟨#Hctx, Hst, ⟨Hb, Hheld, -, -⟩, HG⟩
  ihave #Hlev := (SparseCore.Cfg.ctx_levAts κ) $$ Hctx
  iapply (wp_seq 𝒱 none Set.univ d (Pipeline.ucRefs τ sig) _ ops0 ops0_sub ops0_fresh (launchContents m d)) $$ [Hb Hheld]
  · isplitl [Hb]; · iexact Hb
    iexact Hheld
  iintro ⟨Hb, Hheld⟩
  ihave Hh := (held_T7 d (after ops0 (launchContents m d))) $$ Hheld
  rw [e0, e1, e2, e3, e4]
  icases Hh with ⟨Ha0, Ha1, Ht, Hp, Ho, Hv8, Hv9⟩
  -- the read shares, one per SparseCore; the gathered array as its chunks
  ihave Ht' := (Transfers.pointsTo_toks fullShare 2).1 $$ Ht
  icases Ht' with ⟨Htd, Hts⟩
  ihave Hp' := (Transfers.pointsTo_toks fullShare 2).1 $$ Hp
  icases Hp' with ⟨Hpd, Hps⟩
  ihave Hch := (Entails.of_eq (allChunks_zero m hP d).symm) $$ Ho
  simp only [wp_bind, wp_pure]
  iapply ((K (F := F)).wp_run (D (F := F)) 𝒱 (EH := EH) (P := P m) κ d 0) $$ [Hst Hts Hps Hch Hb Htd Hpd Ha0 Ha1 Hv8 Hv9 HG]
  isplitr; · iexact Hctx
  isplitl [Hst]; · iexact Hst
  isplitl [Hts Hps Hch]
  · rw [st_eq]
    isplitl [Hts]; · iexact Hts
    isplitl [Hps]; · iexact Hps
    iexact Hch
  iintro ⟨Hst, Hdn⟩
  ihave Hdn' := (Entails.of_eq (dn_eq m d)) $$ Hdn
  icases Hdn' with ⟨Hts, Hps, Hch⟩
  ihave Ho := (Entails.of_eq (allChunks_all m hP d)) $$ Hch
  ihave Ht := (Transfers.pointsTo_toks fullShare 2).2 $$ [Htd Hts]
  · isplitl [Htd]; · iexact Htd
    iexact Hts
  ihave Hp := (Transfers.pointsTo_toks fullShare 2).2 $$ [Hpd Hps]
  · isplitl [Hpd]; · iexact Hpd
    iexact Hps
  -- the TensorCore call: from the gathered array and the table, the result array
  iapply (wp_tcRegion d (gV m d) (tV m d) (after ops0 (launchContents m d) (R main_v8)) _) $$ [Hst Hb HG Ho Ht Hv8 Ha0 Ha1 Hv9 Hp]
  isplitr; · iexact Hlev
  isplitl [Hst]; · iexact Hst
  isplitl [Hb]; · iexact Hb
  isplitl [HG]; · iexact HG
  isplitl [Ho]; · iexact Ho
  isplitl [Ht]; · iexact Ht
  isplitl [Hv8]; · iexact Hv8
  iintro ⟨Hst, Hb, Ho, Ht, Hv8⟩
  -- the last reshape: the flat position split into point and neighbour
  iapply (wp_hlo_within 𝒱 (SparseCore.T d) none Set.univ (op := op9) (S := S89) op9_sub (V := V9 m d)) $$ [Hb Hv8 Hv9]
  · isplitl [Hb]; · iexact Hb
    rw [held_S89, V9_v8, V9_v9]
    isplitl [Hv8]; · iexact Hv8
    iexact Hv9
  iintro ⟨Hb, Hheld⟩
  ihave Hh := (Entails.of_eq (held_S89 d _)) $$ Hheld
  rw [result_v9]
  icases Hh with ⟨-, Hr⟩
  rw [wp_ret]; imodintro; imodintro
  isplitl [Hst]; · iexact Hst
  unfold FIN
  isplitl [Ha0]; · iexact Ha0
  isplitl [Ha1]; · iexact Ha1
  iexact Hr

end Cert.KernelIdeal.Pf

end
-- ==== Proof.KFin.lean ====
/-
  How the final memory reads the claim: a device that holds its two arguments and its result array in full, at
  the launch values and at the kernel's function of them, has exactly those contents in memory.
-/
import proofs.«213211_g18829136625754_cont_8to1_584_2_alg».proof.Proof.KFinDef

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

variable (m : (ℓ : Loc nD τ sig) → Buf (Elt F) ℓ)

/-- The final memory of device `d`: the result array at the kernel's function of the arguments, the arguments
    as at the launch. -/
def fq (d : Dev nD) (s' : Phys nD τ sig (Elt F)) : Prop :=
  s'.mem.mem (rLoc d) = Cert.Spec.kout (m (a0Loc d)) (m (a1Loc d)) ∧ s'.mem.mem (a0Loc d) = m (a0Loc d)
    ∧ s'.mem.mem (a1Loc d) = m (a1Loc d)

/-- Full ownership of the three arrays at given contents, beside the state interpretation, says the memory holds
    those contents. -/
theorem hfin (d : Dev nD) (s' : Phys nD τ sig (Elt F)) : iprop(FIN m d ∗ SI s') ⊢ (⌜fq m d s'⌝ : sProp 𝕄) := by
  unfold FIN
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare)
    (f := Cert.Spec.kout (m (a0Loc d)) (m (a1Loc d)))) $$ [HSI Hr]
  · isplitl [HSI] <;> iassumption
  icases H with %h2
  ipureintro
  exact ⟨funext fun i => h2 i (Finset.mem_univ i), funext fun i => h0 i (Finset.mem_univ i),
    funext fun i => h1 i (Finset.mem_univ i)⟩

/-- The claim about the run's final memory: on every device the result array is the kernel's function of the
    arguments and the arguments are unchanged. -/
def QC : PUnit × MemSt nD τ sig (Elt F) → Prop := fun r =>
  ∀ c : Dev nD, r.2.mem (rLoc c) = Cert.Spec.kout (m (a0Loc c)) (m (a1Loc c)) ∧ r.2.mem (a0Loc c) = m (a0Loc c)
    ∧ r.2.mem (a1Loc c) = m (a1Loc c)

/-- Every device's final memory reading as above is the claim. -/
theorem hQC : ∀ s' : Phys nD τ sig (Elt F), (∀ d, fq m d s') → QC m (⟨⟩, s'.mem) := fun _ h => h

end Cert.KernelIdeal.Pf

end
-- ==== Proof.KElem.lean ====
/-
  The launch element of the ghost state and what it funds: the rounds of the launch handshakes, the rounds and duty
  tokens of the TensorCore pipeline's staging cells, and a unit for the transfer counters. Owning it yields, after an
  update, the handshakes' part as it is, every device's share of the pipeline's cells and tokens, and the (empty)
  extra resources of the handshakes' payloads.
-/
import proofs.«213211_g18829136625754_cont_8to1_584_2_alg».proof.Proof.KPay
import proofs.«213211_g18829136625754_cont_8to1_584_2_alg».proof.Proof.KRegion

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

variable (m : (ℓ : Loc nD τ sig) → Buf (Elt F) ℓ)

/-- The launch element: the handshakes' rounds, beside the staging cells' rounds and tokens and the unit counters. -/
def u₀ : UU :=
  (initOf (K (F := F)).hsCells (K (F := F)).hsToks,
    (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

/-- Owning the launch element funds the handshakes, every device's pipeline cells and tokens, and the payloads' extras. -/
theorem hu₀ : (ownU (u₀ (F := F)) : sProp 𝕄)
    ⊢ |={Set.univ}=> iprop(BI.own (EH (initOf (K (F := F)).hsCells (K (F := F)).hsToks))
        ∗ (bigSep Finset.univ fun d : Dev nD => Greg (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (fund_Greg (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Pf

end
-- ==== Proof.KLanded.lean ====
/-
  What one trip of a tile leaves on its chunk of the gathered array.

  Trip `k` of tile `L` works on row `r = 160 * L 1 + 80 * L 0 + k` of the padded list. It copies that row (128 words)
  into the index scratch, gathers into the row scratch, for each word, the table row the word names, and copies the
  row scratch onto rows `128 * r, …, 128 * r + 127` of the gathered array. So the element of the chunk at local
  place `(y0, y1)`, which is element `(128 * r + y0, y1)` of the array, holds the table at row `ip[r, y0]`,
  column `y1`. As `(128 * r + y0) / 128 = r` and `(128 * r + y0) % 128 = y0`, and a word that is already a row
  number is its own clamp, this is `gath t ip` there.
-/
import proofs.«213211_g18829136625754_cont_8to1_584_2_alg».proof.Proof.KChunks
import Idealize.ShloMosaic.Lib.ValueLayout

noncomputable section

namespace Cert.KernelIdeal.Pf

open Cert.KernelIdeal Cert.KernelIdeal.Gen

open Idealize.ShloMosaic Idealize.ShloMosaic.ValueIdx

variable {F : FTy → Type}

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

/-! ## Reading back one whole write, and the list's row in the index scratch -/

/-- One write of the whole shape through a view reads back as its payload. -/
theorem read_writes_whole {sig : RefSig} {κ : Kind} {sp : Space} {s : Shape} {e : EltTy} {Val : EltTy → Type}
    (v : View sig κ sp s e) (f : v.ty.Contents Val) (w : s.Idx → Val e) (y : s.Idx) :
    v.read Val (v.writes Val f [⟨Rect.whole s, w⟩]) y = w y := by
  have h := View.read_writes_cons_emb v f (Rect.whole s) w [] y
  rwa [Rect.emb_whole_apply] at h

/-- The number of the list's row that trip `k` of tile `L` works on. -/
abbrev rowNo (L : grid0.Coords) (k : Fin k0_t1_loop.trips) : Nat := 160 * (L 1).val + 80 * (L 0).val + k.val

theorem rowNo_lt (L : grid0.Coords) (k : Fin k0_t1_loop.trips) : rowNo L k < 2560 := by
  have h := k0_off1_inb L k 0
  rw [k0_off1_eq] at h
  have h' : rowNo L k + 1 ≤ 2560 := h
  omega

theorem off1_zero (L : grid0.Coords) (k : Fin k0_t1_loop.trips) : k0_off1 L k 0 = rowNo L k := by
  rw [k0_off1_eq]; rfl
theorem off1_one (L : grid0.Coords) (k : Fin k0_t1_loop.trips) : k0_off1 L k 1 = 0 := by
  rw [k0_off1_eq]; rfl
theorem off2_zero (L : grid0.Coords) (k : Fin k0_t1_loop.trips) : k0_off2 L k 0 = 128 * rowNo L k := by
  rw [k0_off2_eq]
  show 20480 * (L 1).val + 10240 * (L 0).val + 128 * k.val = 128 * (160 * (L 1).val + 80 * (L 0).val + k.val)
  omega
theorem off2_one (L : grid0.Coords) (k : Fin k0_t1_loop.trips) : k0_off2 L k 1 = 0 := by
  rw [k0_off2_eq]; rfl

/-- A vector index matched with the `[1, 128]` shape is `(0, ·)`. -/
theorem reshapeEquiv_128_1x128 (h : (⟨1, ![128]⟩ : Shape).numel = (⟨2, ![1, 128]⟩ : Shape).numel) (z : Fin 128) :
    Shape.reshapeEquiv h (ix1 z) = ix2 (0 : Fin 1) z :=
  Shape.reshapeEquiv_eq_of_rowMajor h (by
    rw [Shape.rowMajor_val_two, Shape.rowMajor_val_one]
    show 0 * 128 + z.val = z.val
    omega)

/-- The index scratch after the fetch holds the list's row: word `z` is `ip[r, z]`. -/
theorem fetched_apply (L : grid0.Coords) (k : Fin k0_t1_loop.trips) (ip : S2560x128.Idx → BitVec 32)
    (fs : S128.Idx → BitVec 32) (z : Fin 128) :
    fetched (F := F) L k ip fs (ix1 z) = ip (ix2 (⟨rowNo L k, rowNo_lt L k⟩ : Fin 2560) z) := by
  show View.read (Elt F) (sI).view (View.write (Elt F) (sI).view fs
    (ReadAs.same.apply (View.read (Elt F) (pRow L k).view ip)) Finset.univ) (ix1 z) = _
  rw [View.read_write_univ, ReadAs.apply_same]
  show ip ((pRow L k).view.emb (ix1 z)) = _
  refine congrArg ip (funext fun a => Fin.ext ?_)
  show k0_off1 L k a + 1 * ((Shape.reshapeEquiv squeezes_S1x128_S128.numel_eq (ix1 z)) a).val = _
  rw [reshapeEquiv_128_1x128]
  match a with
  | ⟨0, _⟩ => show k0_off1 L k 0 + 1 * 0 = rowNo L k; rw [off1_zero]; omega
  | ⟨1, _⟩ => show k0_off1 L k 1 + 1 * z.val = z.val; rw [off1_one]; omega

/-! ## The chunk after the trip -/

/-- The row a word names under the gather: entry `j` of the rows of the fetched words is the word's value. -/
theorem rows_fetched_val (L : grid0.Coords) (k : Fin k0_t1_loop.trips) (ip : S2560x128.Idx → BitVec 32)
    (fs : S128.Idx → BitVec 32) (hn : S128.numel = S128x128.size gathers_S10000x128_S128x128.axis')
    (hr : ∀ x, (fetched (F := F) L k ip fs x).toNat < S10000x128.size gathers_S10000x128_S128x128.axis)
    (j : Fin (S128x128.size gathers_S10000x128_S128x128.axis')) (z : Fin 128) (hz : z.val = j.val) :
    (SparseCore.rows (F := F) (fetched (F := F) L k ip fs) hn hr j).val
      = (ip (ix2 (⟨rowNo L k, rowNo_lt L k⟩ : Fin 2560) z)).toNat := by
  have e : S128.rowMajor.symm (j.cast hn.symm) = ix1 z := by
    apply S128.rowMajor.injective
    rw [Equiv.apply_symm_apply]
    refine Fin.ext ?_
    rw [Shape.rowMajor_val_one]
    exact hz.symm
  show (fetched (F := F) L k ip fs (S128.rowMajor.symm (j.cast hn.symm))).toNat = _
  rw [e, fetched_apply]

/-- What the trip leaves on its chunk is the gathered array there. -/
theorem landed_eq (L : grid0.Coords) (k : Fin k0_t1_loop.trips) (t : S10000x128.Idx → F .f32)
    (ip : S2560x128.Idx → BitVec 32) (o0 : S327680x128.Idx → F .f32) (fs : S128.Idx → BitVec 32)
    (fr : S128x128.Idx → F .f32) (hn : S128.numel = S128x128.size gathers_S10000x128_S128x128.axis')
    (hr : ∀ x, (fetched (F := F) L k ip fs x).toNat < S10000x128.size gathers_S10000x128_S128x128.axis)
    (hin : ∀ j, (ip j).toNat ≤ 9999) :
    ∀ x ∈ chunkSet L k, landed (F := F) L k t ip o0 fs fr hn hr x = Cert.Spec.gath t ip x := by
  intro x hx
  obtain ⟨y, rfl⟩ := View.exists_emb_of_mem_set (oChunk L k).view hx
  obtain ⟨y0, y1, rfl⟩ : ∃ (y0 : Fin 128) (y1 : Fin 128), y = ix2 y0 y1 := ⟨y 0, y 1, eq_ix2 y⟩
  -- the chunk's element reads the row scratch, the row scratch the gather's payload
  have hA : landed (F := F) L k t ip o0 fs fr hn hr ((oChunk L k).view.emb (ix2 y0 y1))
      = SparseCore.gatherPayload gathers_S10000x128_S128x128 (View.read (Elt F) (tSl).view t)
          (SparseCore.rows (F := F) (fetched (F := F) L k ip fs) hn hr) (ix2 y0 y1) := by
    show View.read (Elt F) (oChunk L k).view ((oChunk L k).view.writes (Elt F) o0 [⟨Rect.whole S128x128, _⟩]) (ix2 y0 y1) = _
    rw [read_writes_whole, ReadAs.apply_same]
    exact read_writes_whole _ _ _ _
  rw [hA]
  -- both sides are the table at one index
  show t ((tSl).view.emb (gathers_S10000x128_S128x128.idx
      (SparseCore.rows (F := F) (fetched (F := F) L k ip fs) hn hr) (ix2 y0 y1))) = _
  refine congrArg t (funext fun a => Fin.ext ?_)
  have hX0 : (((oChunk L k).view.emb (ix2 y0 y1)) 0).val = 128 * rowNo L k + y0.val := by
    show k0_off2 L k 0 + 1 * y0.val = _
    rw [off2_zero]; omega
  have hy0 := y0.isLt
  have hrow := rowNo_lt L k
  match a with
  | ⟨0, _⟩ =>
    show 0 + 1 * (gathers_S10000x128_S128x128.idx (SparseCore.rows (F := F) (fetched (F := F) L k ip fs) hn hr) (ix2 y0 y1)
      gathers_S10000x128_S128x128.axis).val = (Cert.Spec.rowOf _).val
    rw [Shape.Gathers.idx_axis, rows_fetched_val L k ip fs hn hr _ y0 rfl, Cert.Spec.rowOf_of_le (hin _)]
    have e : (ix2 (⟨rowNo L k, rowNo_lt L k⟩ : Fin 2560) y0 : S2560x128.Idx)
        = ix2 (⟨(((oChunk L k).view.emb (ix2 y0 y1)) 0).val / 128, by omega⟩ : Fin 2560)
            (⟨(((oChunk L k).view.emb (ix2 y0 y1)) 0).val % 128, Nat.mod_lt _ (by norm_num)⟩ : Fin 128) :=
      congrArg₂ ix2 (Fin.ext (by show rowNo L k = _ / 128; omega)) (Fin.ext (by show y0.val = _ % 128; omega))
    rw [e]
    omega
  | ⟨1, _⟩ =>
    show 0 + 1 * (gathers_S10000x128_S128x128.idx (SparseCore.rows (F := F) (fetched (F := F) L k ip fs) hn hr) (ix2 y0 y1)
      (1 : Fin 2)).val = k0_off2 L k 1 + 1 * y1.val
    have e1 := Shape.Gathers.idx_of_ne gathers_S10000x128_S128x128
      (SparseCore.rows (F := F) (fetched (F := F) L k ip fs) hn hr) (ix2 y0 y1) (1 : Fin 2) (by decide)
    rw [off2_one, e1]
    rfl

end Cert.KernelIdeal.Pf

end
-- ==== Proof.KCover.lean ====
/-
  The chunks of the gathered array, one per tile and trip, are pairwise disjoint and cover it.

  Trip `k` of the tile at SparseCore `c`, subcore `s` writes rows `128 * r, …, 128 * r + 127` (all 128 columns) of
  the `[327680, 128]` array, with `r = 160 * s + 80 * c + k`. As `c < 2`, `s < 16`, `k < 80`, the map
  `(c, s, k) ↦ r` is a bijection onto `[0, 2560)` (`k = r % 80`, `c = r % 160 / 80`, `s = r / 160`), and the 2560
  row blocks of 128 partition the 327680 rows.
-/
import proofs.«213211_g18829136625754_cont_8to1_584_2_alg».proof.Proof.KChunks
import Idealize.ShloMosaic.Lib.ValueLayout

noncomputable section

namespace Cert.KernelIdeal.Pf

open Cert.KernelIdeal Cert.KernelIdeal.Gen

open Idealize.ShloMosaic Idealize.ShloMosaic.ValueIdx

variable {F : FTy → Type}

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

/-- The loop has 80 trips. -/
theorem trips_eq : k0_t1_loop.trips = 80 := by decide

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- A chunk starts at row `128 * r`, `r = 160 * L 1 + 80 * L 0 + k`, column 0. -/
theorem chunk_off_zero (L : grid0.Coords) (k : Fin k0_t1_loop.trips) :
    k0_off2 L k 0 = 128 * (160 * (L 1).val + 80 * (L 0).val + k.val) := by
  rw [k0_off2_eq]
  show 20480 * (L 1).val + 10240 * (L 0).val + 128 * k.val = 128 * (160 * (L 1).val + 80 * (L 0).val + k.val)
  omega
theorem chunk_off_one (L : grid0.Coords) (k : Fin k0_t1_loop.trips) : k0_off2 L k 1 = 0 := by
  rw [k0_off2_eq]; rfl

/-- A chunk by coordinates: the 128 rows from `128 * r`, every column. -/
theorem mem_chunkSet (L : grid0.Coords) (k : Fin k0_t1_loop.trips) (i : S327680x128.Idx) :
    i ∈ chunkSet L k ↔ 128 * (160 * (L 1).val + 80 * (L 0).val + k.val) ≤ (i 0).val
      ∧ (i 0).val < 128 * (160 * (L 1).val + 80 * (L 0).val + k.val) + 128 := by
  have hs : chunkSet L k = (Rect.unit (s := S327680x128) (k0_off2 L k) S128x128.size (k0_off2_inb L k)).set :=
    View.set_slice_whole main_v7_scv _
  rw [hs, Rect.mem_set_unit]
  constructor
  · intro h
    have h0 := h 0
    rw [chunk_off_zero] at h0
    exact h0
  · intro h a
    have ha : a = 0 ∨ a = 1 := by
      match a with
      | ⟨0, _⟩ => exact Or.inl rfl
      | ⟨1, _⟩ => exact Or.inr rfl
    rcases ha with rfl | rfl
    · rw [chunk_off_zero]; exact h
    · rw [chunk_off_one]
      have h1 : (i 1).val < 128 := (i 1).isLt
      exact ⟨Nat.zero_le _, by show (i 1).val < 0 + 128; omega⟩

/-- A tile (SparseCore, subcore) and a trip. -/
abbrev TripIx : Type := Fin (grid0.bound 0) × Fin (grid0.bound 1) × Fin k0_t1_loop.trips

/-- The chunk of a tile's trip. -/
abbrev tripChunk (a : TripIx) : Finset S327680x128.Idx := chunkSet (coordsV a.1 a.2.1) a.2.2

/-- Different trips write disjoint chunks. -/
theorem chunk_disjoint : ∀ a ∈ (Finset.univ : Finset TripIx), ∀ b ∈ (Finset.univ : Finset TripIx), a ≠ b →
    Disjoint (tripChunk a) (tripChunk b) := by
  intro a _ b _ hab
  rw [Finset.disjoint_left]
  intro i hia hib
  obtain ⟨c, s, k⟩ := a
  obtain ⟨c', s', k'⟩ := b
  rw [mem_chunkSet, coordsV_zero, coordsV_one] at hia hib
  dsimp only at hia hib
  have hc : c.val < 2 := c.isLt
  have hc' : c'.val < 2 := c'.isLt
  have hs : s.val < 16 := s.isLt
  have hs' : s'.val < 16 := s'.isLt
  have hk : k.val < 80 := trips_eq ▸ k.isLt
  have hk' : k'.val < 80 := trips_eq ▸ k'.isLt
  apply hab
  have e1 : c = c' := Fin.ext (by omega)
  have e2 : s = s' := Fin.ext (by omega)
  have e3 : k = k' := Fin.ext (by omega)
  rw [e1, e2, e3]

/-- The chunks cover the gathered array. -/
theorem chunk_cover : (Finset.univ : Finset TripIx).biUnion tripChunk = Finset.univ := by
  rw [Finset.eq_univ_iff_forall]
  intro i
  rw [Finset.mem_biUnion]
  have h0 : (i 0).val < 327680 := (i 0).isLt
  refine ⟨(⟨(i 0).val / 128 % 160 / 80, by show _ < 2; omega⟩, ⟨(i 0).val / 128 / 160, by show _ < 16; omega⟩,
    ⟨(i 0).val / 128 % 160 % 80, by rw [trips_eq]; omega⟩), Finset.mem_univ _, ?_⟩
  rw [mem_chunkSet, coordsV_zero, coordsV_one]
  show 128 * (160 * ((i 0).val / 128 / 160) + 80 * ((i 0).val / 128 % 160 / 80) + (i 0).val / 128 % 160 % 80) ≤ (i 0).val
    ∧ (i 0).val < 128 * (160 * ((i 0).val / 128 / 160) + 80 * ((i 0).val / 128 % 160 / 80) + (i 0).val / 128 % 160 % 80) + 128
  omega

end Cert.KernelIdeal.Pf

end
-- ==== Proof.PreIdx.lean ====
/-
  The precondition read back: every neighbour word is a row number of the table.

  The precondition's second conjunct is the conjunction, over all entries, of `0 ≤ idx` and `idx ≤ 9999`
  as signed comparisons; a word whose signed value lies in `[0, 9999]` has that same value unsigned.
-/
import proofs.«213211_g18829136625754_cont_8to1_584_2_alg».proof.Pre_input_domain
import proofs.«213211_g18829136625754_cont_8to1_584_2_alg».proof.Proof.Gen.Pre_input_domain
import Idealize.ShloMosaic.Lib.ReduceAll
import Idealize.ShloMosaic.Lib.Affine
import Idealize.ShloMosaic.Lib.ValueIdx

namespace Cert.Proof.PreIdx

open Idealize.ShloMosaic

instance : Subsingleton Cert.Pre_input_domain.S_.Idx := ⟨fun a b => funext fun d => d.elim0⟩

/-- A 32-bit word whose signed value lies between 0 and 9999 is at most 9999 read unsigned. -/
theorem toNat_le_of_toInt (w : BitVec 32) (h0 : (0 : Int) ≤ w.toInt) (h1 : w.toInt ≤ 9999) : w.toNat ≤ 9999 := by
  rw [BitVec.toInt_eq_toNat_cond] at h0 h1
  split at h0 <;> omega

theorem idx_le {F : FTy → Type} [FloatOps F] [Cert.Pre_input_domain.Facts]
    (x : FVec F Cert.Pre_input_domain.S1x128x10000 .f32) (idx : IVec Cert.Pre_input_domain.S1x10000x32 32)
    (h : Cert.Pre_input_domain.fn (F := F) x idx = fun _ => 1#1) : ∀ i, (idx i).toNat ≤ 9999 := by
  intro i
  have h0 := congrFun h ValueIdx.ix0
  dsimp only [Cert.Pre_input_domain.fn] at h0
  have h1 := (IntOp.andi_eq_one.1 h0).2
  have h2 := Host.reduce_andi_all _ _ _ _ _ h1 i
  obtain ⟨ha, hb⟩ := IntOp.andi_eq_one.1 h2
  have ha' := IntOp.cmpi_sge.1 ha
  have hb' := IntOp.cmpi_sle.1 hb
  refine toNat_le_of_toInt _ ?_ ?_
  · simpa [broadcastInDim, constantI] using ha'
  · simpa [broadcastInDim, constantI] using hb'

end Cert.Proof.PreIdx
-- ==== Proof.KRun.lean ====
/-
  The kernel's run: under "every neighbour word is a row number of the table", every weakly fair execution of
  the device's threads terminates, nothing faulting, the arguments unchanged and the result array at the kernel's
  function `kout` of them — the SparseCore launch theorem at the one gather call, its tile obligation the loop
  over the tile's chunks, @main the host operations, the two calls and the last reshape.
-/
import proofs.«213211_g18829136625754_cont_8to1_584_2_alg».proof.Proof.KMain
import proofs.«213211_g18829136625754_cont_8to1_584_2_alg».proof.Proof.KFin
import proofs.«213211_g18829136625754_cont_8to1_584_2_alg».proof.Proof.KElem
import proofs.«213211_g18829136625754_cont_8to1_584_2_alg».proof.Proof.KLanded
import proofs.«213211_g18829136625754_cont_8to1_584_2_alg».proof.Proof.KCover
import proofs.«213211_g18829136625754_cont_8to1_584_2_alg».proof.Proof.PreIdx

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S10000x128 EltTy.f32)
local notation "pW" => (Memref.whole Cert.KernelIdeal.main_v6_scv : Memref Cert.KernelIdeal.sig Kind.scVector Space.hbm Cert.KernelIdeal.S2560x128 EltTy.i32)
local notation "oW" => (Memref.whole Cert.KernelIdeal.main_v7_scv : Memref Cert.KernelIdeal.sig Kind.scVector Space.hbm Cert.KernelIdeal.S327680x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

variable (m : (ℓ : Loc nD τ sig) → Buf (Elt F) ℓ) (ρ : Dev nD → PrngReg)

omit [FloatOps F] in
theorem partition : Partition := ⟨chunk_disjoint, chunk_cover⟩

omit [FloatOps F] in
theorem valOK (hpre : PreOK m) : ValOK m :=
  fun d L k fs fr hn hr => landed_eq L k (tV m d) (pV m d) (o0V m d) fs fr hn hr (pV_le m hpre d)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre (valOK m hpre))
    (fun q _ => match q with | 0 => SparseCore.Cfg.VecSplit.of_plain (vecSplit m))
    m ρ main (fun d => Greg (F := F) d) (FIN m) (u₀ (F := F)) (sep_elim_left.trans (hu₀ m)) (hmain m ρ partition) (fq m) (hfin m) (QC m) (hQC m)

/-- The precondition's integer conjunct, read at every neighbour word. -/
theorem preOK_of_pre [Cert.Pre_input_domain.Facts]
    (h : ∀ c : Dev nD, Cert.Pre_input_domain.fn (F := F) (m ((c.tc : Thread nD τ).loc main_arg0)) (m ((c.tc : Thread nD τ).loc main_arg1)) = fun _ => 1#1) :
    PreOK m := fun d j => Cert.Proof.PreIdx.idx_le _ _ (h d) j

end Cert.KernelIdeal.Pf

end
-- ==== Proof.BSetup.lean ====
/-
  The kernel's program as the SparseCore launch theorem sees it: its configuration, body table, variants, the
  facts of its launch semaphores, and the ghost state of a run — the launch handshakes' rounds beside the
  counters of the tiles' local copies. Generic in the float instance: the program only moves data on the
  SparseCores and subtracts on the TensorCore.
-/
import proofs.«213211_g18829136625754_cont_8to1_584_2_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213211_g18829136625754_cont_8to1_584_2_alg».proof.Proof.Gen.Kernel
import proofs.«213211_g18829136625754_cont_8to1_584_2_alg».proof.Proof.Gen.Kernel.Skeleton
import proofs.«213211_g18829136625754_cont_8to1_584_2_alg».proof.Proof.Spec

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The rounds of the pallas_call's staging cells. -/
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev adm : (p : Fin 1) → (pcfgs (F := F) p).Adm := fun p => (cfgs p).toPCfg_adm

end Cert.Kernel.Pf

end
-- ==== Proof.BChunks.lean ====
/-
  The arrays of the gather as locations, a tile's coordinates as threads, and the pieces a tile's trip touches:
  trip `k` of tile `L` reads row `k0_off1 L k` of the padded list and writes the 128-row chunk at
  `k0_off2 L k` of the gathered array. `landed` is what the three copies of a trip leave on that chunk, spelt
  as the copies wrote it.
-/
import proofs.«213211_g18829136625754_cont_8to1_584_2_alg».proof.Proof.BSetup

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

/-- The table, the padded list and the gathered array, as locations of device `d`. -/
abbrev tLoc (d : Dev nD) : Loc nD τ sig := (SparseCore.T d).loc main_v1
abbrev pLoc (d : Dev nD) : Loc nD τ sig := (SparseCore.T d).loc main_v6
abbrev oLoc (d : Dev nD) : Loc nD τ sig := (SparseCore.T d).loc main_v7

abbrev cV (L : grid0.Coords) : Fin τ.nSC := (L 0).castLE hcore0
abbrev jV (L : grid0.Coords) : Fin τ.nSub := (L 1).castLE hsub0

/-- Grid coordinates from a SparseCore and a subcore number. -/
def coordsV (c : Fin (grid0.bound 0)) (s : Fin (grid0.bound 1)) : grid0.Coords :=
  fun | 0 => c | 1 => s | ⟨_ + 2, h⟩ => absurd h (Nat.not_lt.2 (Nat.le_add_left _ _))

/-- Trip `k`'s row of the list and chunk of the gathered array, as the body slices them. -/
abbrev pRow (L : grid0.Coords) (k : Fin k0_t1_loop.trips) : Memref sig .scVector .hbm S128 .i32 :=
  ((pW).slice (Rect.unit (s := S2560x128) (k0_off1 L k) S1x128.size (k0_off1_inb L k)) (fun _ => rfl)).squeeze S128 squeezes_S1x128_S128
abbrev oChunk (L : grid0.Coords) (k : Fin k0_t1_loop.trips) : Memref sig .scVector .hbm S128x128 .f32 :=
  (oW).slice (Rect.unit (s := S327680x128) (k0_off2 L k) S128x128.size (k0_off2_inb L k)) (fun _ => rfl)
abbrev chunkSet (L : grid0.Coords) (k : Fin k0_t1_loop.trips) : Finset S327680x128.Idx := (oChunk L k).view.set
/-- The table as the gather names it: the whole array, sliced at the origin. -/
abbrev tSl : Memref sig .scVector .hbm S10000x128 .f32 :=
  (tW).slice (Rect.unit (s := S10000x128) ![0, 0] S10000x128.size inb_S10000x128_S10000x128_0_0) (fun _ => rfl)

/-- The index scratch after trip `k`'s fetch of its row of the list. -/
abbrev fetched (L : grid0.Coords) (k : Fin k0_t1_loop.trips) (ip : S2560x128.Idx → BitVec 32) (fs : S128.Idx → BitVec 32) : S128.Idx → BitVec 32 :=
  View.read (Elt F) (sI).view (View.write (Elt F) (sI).view fs (ReadAs.same.apply (View.read (Elt F) (pRow L k).view ip)) Finset.univ)

/-- What trip `k` leaves in the gathered array: the rows the fetched words name, gathered into the row scratch,
    copied onto the chunk. -/
abbrev landed (L : grid0.Coords) (k : Fin k0_t1_loop.trips) (t : S10000x128.Idx → F .f32) (ip : S2560x128.Idx → BitVec 32)
    (o0 : S327680x128.Idx → F .f32) (fs : S128.Idx → BitVec 32) (fr : S128x128.Idx → F .f32)
    (hn : S128.numel = S128x128.size gathers_S10000x128_S128x128.axis')
    (hr : ∀ x, (fetched (F := F) L k ip fs x).toNat < S10000x128.size gathers_S10000x128_S128x128.axis) : S327680x128.Idx → F .f32 :=
  (oChunk L k).view.writes (Elt F) o0
    [⟨Rect.whole S128x128,
      ReadAs.same.apply
        (View.read (Elt F) (sR).view
          ((sR).view.writes (Elt F) fr
            [⟨Rect.whole S128x128,
              SparseCore.gatherPayload gathers_S10000x128_S128x128 (View.read (Elt F) (tSl).view t)
                (SparseCore.rows (F := F) (fetched (F := F) L k ip fs) hn hr)⟩]))⟩]

end Cert.Kernel.Pf

end
-- ==== Proof.BTile.lean ====
/-
  One tile's task of the gather kernel. Tile `(c, s)` is worker `w = 2 s + c`; in trip `k` of its 80 it copies
  row `80 w + k` of the padded neighbour list into its index scratch, gathers the 128 table rows those words
  name into its row scratch, and copies that scratch onto rows `128 (80 w + k) … + 127` of the gathered array.
  The tile holds a read share of the table and of the list and owns its 80 chunks of the gathered array; after
  trip `k` the chunks below `k` hold the gathered rows `gath t ip`, the others what they held before.
-/
import proofs.«213211_g18829136625754_cont_8to1_584_2_alg».proof.Proof.BChunks

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

section Tile

variable (d : Dev nD) (L : grid0.Coords)

abbrev cG (d : Dev nD) (L : grid0.Coords) : GSem nD τ sig := (V d (cV L) (jV L), .dma cc0_scratch2.sem)
abbrev cA (d : Dev nD) (L : grid0.Coords) : GSem nD τ sig := (V d (cV L) (jV L), .dma cc0_scoped0.sem)
abbrev cB (d : Dev nD) (L : grid0.Coords) : GSem nD τ sig := (V d (cV L) (jV L), .dma cc0_scoped1.sem)

omit [FloatOps F] in
theorem ownSems0_V :
    (ownSems0 (V d (cV L) (jV L)) : sProp 𝕄)
      = iprop(semVal (cG d L) 0 ∗ semVal (cA d L) 0 ∗ semVal (cB d L) 0
          ∗ bigSep ((((ownCells (V d (cV L) (jV L))).erase (cG d L)).erase (cA d L)).erase (cB d L)) fun g => semVal g 0) := by
  unfold SparseCore.Cfg.ownSems0
  rw [SparseCore.bigSep_erase' ((mem_ownCells (g := cG d L)).mpr ⟨rfl, by
      show (SemLoc.dma cc0_scratch2.sem : SemLoc sig).isScoped .scVector = true; decide⟩),
    SparseCore.bigSep_erase' (Finset.mem_erase.mpr ⟨by simp [cG, cA]; decide, (mem_ownCells (g := cA d L)).mpr ⟨rfl, by
      show (SemLoc.dma cc0_scoped0.sem : SemLoc sig).isScoped .scVector = true; decide⟩⟩),
    SparseCore.bigSep_erase' (Finset.mem_erase.mpr ⟨by simp [cA, cB]; decide, Finset.mem_erase.mpr ⟨by simp [cG, cB]; decide,
      (mem_ownCells (g := cB d L)).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The chunks of the gathered array the tile owns: those below trip `k` gathered, the others as before. -/
def chunks (g o0 : S327680x128.Idx → F .f32) (k : Nat) : sProp 𝕄 :=
  bigSep Finset.univ fun j : Fin k0_t1_loop.trips => oLoc d ↦[chunkSet L j]{fullShare} (if j.val < k then g else o0)

/-- The loop's invariant: the read shares, the two scratches at some contents, the three counters at zero, the
    chunks below the trip gathered, and what the tile owes the launch. -/
def inv (t : S10000x128.Idx → F .f32) (ip : S2560x128.Idx → BitVec 32) (g o0 : S327680x128.Idx → F .f32) (qt qp : PosShare TreeShare)
    (O : CellTallies nD τ sig (HIx 1)) (W : Waits sig (HIx 1)) (k : Nat) (_ : PUnit) : sProp 𝕄 :=
  iprop(Transfers.MayWaits (V d (cV L) (jV L)) (none : HIx 1) O
    ∗ ((tW).view.loc (V d (cV L) (jV L)) ↦{qt} t)
    ∗ ((pW).view.loc (V d (cV L) (jV L)) ↦{qp} ip)
    ∗ (∃ f, (sI).view.loc (V d (cV L) (jV L)) ↦{fullShare} f)
    ∗ (∃ f, (sR).view.loc (V d (cV L) (jV L)) ↦{fullShare} f)
    ∗ semVal (cG d L) 0 ∗ semVal (cA d L) 0 ∗ semVal (cB d L) 0
    ∗ chunks d L g o0 k
    ∗ ∃ W', ⌜∀ p ∈ W', p ∈ W ∨ p.2 = none⌝ ∗ owes (V d (cV L) (jV L)) O W')

omit [FloatOps F] in
/-- Chunk `k` out of the family, still at its old contents at trip `k`. -/
theorem chunks_take (g o0 : S327680x128.Idx → F .f32) (k : Fin k0_t1_loop.trips) :
    chunks d L g o0 k.val ⊢ iprop(((oChunk L k).view.loc (V d (cV L) (jV L)) ↦[(oChunk L k).view.set]{fullShare} o0)
      ∗ bigSep (Finset.univ.erase k) fun j : Fin k0_t1_loop.trips => oLoc d ↦[chunkSet L j]{fullShare} (if j.val < k.val then g else o0)) := by
  unfold chunks
  rw [BI.bigSep_univ_split k, if_neg (lt_irrefl _)]
  exact .rfl

omit [FloatOps F] in
/-- Chunk `k` back, now at the gathered rows: the family at trip `k + 1`. -/
theorem chunks_put (g o0 f : S327680x128.Idx → F .f32) (k : Fin k0_t1_loop.trips) (hf : ∀ x ∈ chunkSet L k, f x = g x) :
    iprop(((oChunk L k).view.loc (V d (cV L) (jV L)) ↦[(oChunk L k).view.set]{fullShare} f)
      ∗ bigSep (Finset.univ.erase k) fun j : Fin k0_t1_loop.trips => oLoc d ↦[chunkSet L j]{fullShare} (if j.val < k.val then g else o0))
      ⊢ chunks d L g o0 (k.val + 1) := by
  unfold chunks
  rw [BI.bigSep_univ_split k, if_pos (Nat.lt_succ_self _)]
  refine BIClass.sep_mono (Entails.of_eq (pointsTo_congr hf)) (Entails.of_eq (bigSep_congr fun j hj => ?_))
  have hne : j ≠ k := (Finset.mem_erase.mp hj).1
  have : (j.val < k.val) ↔ (j.val < k.val + 1) := by
    have : j.val ≠ k.val := fun e => hne (Fin.ext e)
    omega
  simp only [this]

theorem tile_body (hF : (K (F := F)).Facts) (t : S10000x128.Idx → F .f32) (ip : S2560x128.Idx → BitVec 32) (o0 : S327680x128.Idx → F .f32)
    (qt qp : PosShare TreeShare) (hin : ∀ j, (ip j).toNat ≤ 9999)
    (hval : ∀ (k : Fin k0_t1_loop.trips) fs fr hn hr, ∀ x ∈ chunkSet L k, landed (F := F) L k t ip o0 fs fr hn hr x = Cert.Spec.gath t ip x)
    (O : CellTallies nD τ sig (HIx 1)) (W : Waits sig (HIx 1)) (hO : ∀ g, O g none = 0) :
    iprop(levAts (K (F := F)).L (K (F := F)).lev ∗ emp
        ∗ ((tLoc d ↦{qt} t) ∗ (pLoc d ↦{qp} ip) ∗ chunks d L (Cert.Spec.gath t ip) o0 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tW (Memref.isWhole_whole _) pW (Memref.isWhole_whole _) oW (Memref.isWhole_whole _)
            sI (Memref.isWhole_whole _) sR (Memref.isWhole_whole _) cc0_scratch2 cc0_scoped0 cc0_scoped1)
          fun _ => iprop(((tLoc d ↦{qt} t) ∗ (pLoc d ↦{qp} ip) ∗ chunks d L (Cert.Spec.gath t ip) o0 k0_t1_loop.trips)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hp, Hch⟩, ⟨⟨%fs, Hs⟩, ⟨%fr, Hr⟩, Hbufs⟩, ⟨HsG, HsA, HsB, Hsems⟩, HO⟩
  ihave Hmw := ((K (F := F)).mayWaits_none (thr := V d (cV L) (jV L)) hO) $$ Hlv
  sl_exec
  sl_for (inv d L t ip (Cert.Spec.gath t ip) o0 qt qp O W) $$ [Hmw Ht Hp Hs Hr HsG HsA HsB Hch HO]
  case region =>
    intro k _
    unfold inv
    iintro ⟨Hmw, Ht, Hp, ⟨%fs, Hs⟩, ⟨%fr, Hr⟩, HsG, HsA, HsB, Hch, %W', %hW', HO⟩
    ihave Hch' := (chunks_take d L (Cert.Spec.gath t ip) o0 k) $$ Hch
    icases Hch' with ⟨Hck, Hrest⟩
    -- the words the gather reads are the trip's row of the list: row numbers of the table
    have hin' : ∀ (fs : Buf (Elt F) ((sI).view.loc (V d (cV L) (jV L)))) x,
        ((sI).view.read (Elt F) ((sI).view.write (Elt F) fs (ReadAs.same.apply ((pRow L k).view.read (Elt F) ip)) Finset.univ) x).toNat
          < S10000x128.size gathers_S10000x128_S128x128.axis := by
      intro fs x
      have h1 : (sI).view.write (Elt F) fs (ReadAs.same.apply ((pRow L k).view.read (Elt F) ip)) Finset.univ
          = ReadAs.same.apply ((pRow L k).view.read (Elt F) ip) := View.write_whole_univ _ _ _
      rw [h1]
      simp only [Memref.view_whole, View.read_whole]
      show (((pRow L k).view.read (Elt F) ip) x).toNat < 10000
      rw [View.read_apply]
      exact Nat.lt_succ_of_le (hin _)
    sl_exec
    sl_step
    isplitl [Hmw]; · iexact Hmw
    isplitl [Ht]; · iexact Ht
    isplitl [Hp]; · iexact Hp
    isplitl [Hs]; · iexists _; iexact Hs
    isplitl [Hr]; · iexists _; iexact Hr
    isplitl [HsG]; · iexact HsG
    isplitl [HsA]; · iexact HsA
    isplitl [HsB]; · iexact HsB
    isplitl [Hck Hrest]
    · iapply (chunks_put d L (Cert.Spec.gath t ip) o0 _ k (hval k fs fr rfl (fun x => hin' fs x)))
      isplitl [Hck]
      · iexact Hck
      · iexact Hrest
    iexists _; isplitr
    rotate_left
    · iexact HO
    · ipureintro; intro p hp
      simp only [Finset.mem_insert] at hp
      rcases hp with rfl | rfl | rfl | hp
      · exact .inr rfl
      · exact .inr rfl
      · exact .inr rfl
      · exact hW' p hp
  · unfold inv
    isplitl [Hmw]; · iexact Hmw
    isplitl [Ht]; · iexact Ht
    isplitl [Hp]; · iexact Hp
    isplitl [Hs]; · iexists _; iexact Hs
    isplitl [Hr]; · iexists _; iexact Hr
    isplitl [HsG]; · iexact HsG
    isplitl [HsA]; · iexact HsA
    isplitl [HsB]; · iexact HsB
    isplitl [Hch]; · iexact Hch
    iexists W; isplitr
    · ipureintro; exact fun p hp => .inl hp
    · iexact HO
  iintro %_ HI
  unfold inv
  icases HI with ⟨-, Ht, Hp, ⟨%fs', Hs⟩, ⟨%fr', Hr⟩, HsG, HsA, HsB, Hch, %W', %hW', HO⟩
  sl_exec
  sl_step
  isplitl [Ht Hp Hch]
  · isplitl [Ht]; · iexact Ht
    isplitl [Hp]; · iexact Hp
    iexact Hch
  isplitl [Hs Hr Hbufs]
  · isplitl [Hs]; · iexists _; iexact Hs
    isplitl [Hr]; · iexists _; iexact Hr
    iexact Hbufs
  isplitl [HsG HsA HsB Hsems]
  · isplitl [HsG]; · iexact HsG
    isplitl [HsA]; · iexact HsA
    isplitl [HsB]; · iexact HsB
    iexact Hsems
  iexists W'; isplitr
  · ipureintro; exact hW'
  · iexact HO

end Tile

end Cert.Kernel.Pf

end
-- ==== Proof.BPay.lean ====
/-
  What the SparseCore call's handshakes carry. The call takes the table and the padded list as read shares — one
  per SparseCore, split again into one per tile — and the gathered array as its 2·16·80 chunks; it brings the
  shares back and every chunk at the gathered rows. A tile's obligation is its body's proof (the loop over its 80
  chunks); a SparseCore's operands split among its 16 tiles share by share, the chunks already grouped by tile.
-/
import proofs.«213211_g18829136625754_cont_8to1_584_2_alg».proof.Proof.BTile

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

variable (m : (ℓ : Loc nD τ sig) → Buf (Elt F) ℓ) (ρ : Dev nD → PrngReg)

/-- The arguments as locations of device `d`. -/
abbrev a0Loc (d : Dev nD) : Loc nD τ sig := (SparseCore.T d).loc main_arg0
abbrev a1Loc (d : Dev nD) : Loc nD τ sig := (SparseCore.T d).loc main_arg1

/-- The table (`x` transposed), the padded list, the gathered rows, and the gathered array's launch contents. -/
def tV (d : Dev nD) : S10000x128.Idx → F .f32 := Cert.Spec.xt (m (a0Loc d))
def pV (d : Dev nD) : S2560x128.Idx → BitVec 32 := Cert.Spec.idxp (m (a1Loc d))
def gV (d : Dev nD) : S327680x128.Idx → F .f32 := Cert.Spec.gath (tV m d) (pV m d)
def o0V (d : Dev nD) : S327680x128.Idx → F .f32 := m (oLoc d)

/-- The read share of SparseCore `c`, and of its tile `i`. -/
abbrev qC (c : ℕ) : PosShare TreeShare := Transfers.shareTokN fullShare c
abbrev qT (c i : ℕ) : PosShare TreeShare := Transfers.shareTokN (qC c) i

theorem bound_zero : grid0.bound 0 = 2 := rfl
theorem bound_one : grid0.bound 1 = 16 := rfl

/-- Tile `(c, i)`'s coordinates. -/
abbrev Lci (c : Fin ((K (F := F)).nCore 0)) (i : Fin ((K (F := F)).nSub 0)) : grid0.Coords := coordsV (Fin.cast nCore_zero c) (Fin.cast nSub_zero i)

/-- What a tile is handed (`n = 0`) and hands back (`n` the trip count): its two read shares and its chunks. -/
def forTile (d : Dev nD) (c : Fin ((K (F := F)).nCore 0)) (i : Fin ((K (F := F)).nSub 0)) (n : ℕ) : sProp 𝕄 :=
  iprop((tLoc d ↦{qT c.val i.val} tV m d) ∗ (pLoc d ↦{qT c.val i.val} pV m d) ∗ chunks d (Lci c i) (gV m d) (o0V m d) n)
/-- What a SparseCore is handed and hands back: its two read shares and its tiles' chunks. -/
def forCore (d : Dev nD) (c : Fin ((K (F := F)).nCore 0)) (n : ℕ) : sProp 𝕄 :=
  iprop((tLoc d ↦{qC c.val} tV m d) ∗ (pLoc d ↦{qC c.val} pV m d)
    ∗ bigSep Finset.univ fun i : Fin ((K (F := F)).nSub 0) => chunks d (Lci c i) (gV m d) (o0V m d) n)

instance chunks_storable (d : Dev nD) (L : grid0.Coords) (g o0 : S327680x128.Idx → F .f32) (n : ℕ) :
    BI.Storable (upEmb : UEmb _ 𝕄) (chunks d L g o0 n) := by unfold chunks; infer_instance
instance forTile_storable (d : Dev nD) (c i) (n : ℕ) : BI.Storable (upEmb : UEmb _ 𝕄) (forTile m d c i n) := by unfold forTile; infer_instance
instance forCore_storable (d : Dev nD) (c) (n : ℕ) : BI.Storable (upEmb : UEmb _ 𝕄) (forCore m d c n) := by unfold forCore; infer_instance

def P : (K (F := F)).Pay (nD := nD) (Val := Elt F) (Name := ℕ) (U := UU) where
  st := fun q d c => match q with | 0 => forCore m d c 0
  dn := fun q d c => match q with | 0 => forCore m d c k0_t1_loop.trips
  go := fun q d c i => match q with | 0 => forTile m d c i 0
  td := fun q d c i => match q with | 0 => forTile m d c i k0_t1_loop.trips
  x := fun _ _ => iprop(emp)

instance P_storable : (P (F := F) m).IsStorable where
  st q d c := match q with | 0 => (inferInstance : BI.Storable (upEmb : UEmb _ 𝕄) (forCore m d c 0))
  dn q d c := match q with | 0 => (inferInstance : BI.Storable (upEmb : UEmb _ 𝕄) (forCore m d c k0_t1_loop.trips))
  go q d c i := match q with | 0 => (inferInstance : BI.Storable (upEmb : UEmb _ 𝕄) (forTile m d c i 0))
  td q d c i := match q with | 0 => (inferInstance : BI.Storable (upEmb : UEmb _ 𝕄) (forTile m d c i k0_t1_loop.trips))

/-! ## The tile's obligation -/

theorem defs₀_vector (c : Fin τ.nSC) (s : Fin τ.nSub) :
    defs₀ (F := F) (.scVector c s) 0 ()
      = SparseCore.onTile hcore0 hsub0 (fun c s => cc0_k (coordsV c s)
          tW (Memref.isWhole_whole _) pW (Memref.isWhole_whole _) oW (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory: every neighbour word is a row number of the table. -/
def PreOK : Prop := ∀ (d : Dev nD) j, (m (a1Loc d) j).toNat ≤ 9999

omit [FloatOps F] in
theorem pV_le (hpre : PreOK m) (d : Dev nD) : ∀ j, (pV m d j).toNat ≤ 9999 := by
  intro j
  unfold pV Cert.Spec.idxp
  split
  · exact hpre d _
  · simp

/-- The value lemma of a trip, as the tile's proof asks it. -/
def ValOK : Prop := ∀ (d : Dev nD) (L : grid0.Coords) (k : Fin k0_t1_loop.trips) fs fr hn hr,
  ∀ x ∈ chunkSet L k, landed (F := F) L k (tV m d) (pV m d) (o0V m d) fs fr hn hr x = Cert.Spec.gath (tV m d) (pV m d) x

theorem tileObl (hF : (K (F := F)).Facts) (hpre : PreOK m) (hval : ValOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (tV m d) (pV m d) (o0V m d) (qT c.val i.val) (qT c.val i.val) (pV_le m hpre d)
    (fun k fs fr hn hr => hval d _ k fs fr hn hr) O W hO).trans (wp_mono frame _ _ fun _ => obl_post)

/-! ## A SparseCore's operands split among its tiles -/

omit [FloatOps F] in
theorem bigSep_sep'' {I : Type} (s : Finset I) (Φ Ψ : I → sProp 𝕄) : (bigSep s fun i => iprop(Φ i ∗ Ψ i)) = iprop(bigSep s Φ ∗ bigSep s Ψ) :=
  BI.bigSep_sep s Φ Ψ

theorem vecSplit : (K (F := F)).VecSplit' (P m) 0 := by
  intro d c
  show forCore m d c 0 ⊢ |={Set.univ}=> iprop((bigSep Finset.univ fun i : Fin ((K (F := F)).nSub 0) => forTile m d c i 0)
      ∗ ((bigSep Finset.univ fun i : Fin ((K (F := F)).nSub 0) => forTile m d c i k0_t1_loop.trips) -∗ forCore m d c k0_t1_loop.trips))
  unfold forCore forTile
  rw [bigSep_sep'', bigSep_sep'', bigSep_sep'', bigSep_sep'']
  iintro ⟨Ht, Hp, Hch⟩
  ihave Ht' := (Transfers.pointsTo_toks (qC c.val) 16).1 $$ Ht
  ihave Hp' := (Transfers.pointsTo_toks (qC c.val) 16).1 $$ Hp
  icases Ht' with ⟨Htd, Hts⟩
  icases Hp' with ⟨Hpd, Hps⟩
  imodintro
  isplitl [Hts Hps Hch]
  · isplitl [Hts]; · iexact Hts
    isplitl [Hps]; · iexact Hps
    iexact Hch
  iintro ⟨Hts, Hps, Hch⟩
  isplitl [Htd Hts]
  · iapply (Transfers.pointsTo_toks (qC c.val) 16).2; isplitl [Htd]; · iexact Htd
    iexact Hts
  isplitl [Hpd Hps]
  · iapply (Transfers.pointsTo_toks (qC c.val) 16).2; isplitl [Hpd]; · iexact Hpd
    iexact Hps
  iexact Hch

end Cert.Kernel.Pf

end
-- ==== Proof.BValHost.lean ====
/-
  The host operations around the two kernels, each read as a function of the arguments.

  Before the kernels: the table `x : [1, 128, 10000]` is reshaped to `[128, 10000]` and transposed, which is `xt x`
  (point by channel); the neighbour list `idx : [1, 10000, 32]` is flattened to 320000 words, written over the
  first 320000 places of a zero vector of 327680 words, and cut into 2560 rows of 128, which is `idxp idx`.
  After them: the `[256, 320000]` result is reshaped to `[1, 256, 10000, 32]`; flat position `p` becomes
  `(p / 32, p % 32)`, i.e. entry `(0, c, n, k)` is entry `(c, n * 32 + k)`.

  The write of the list into the zero vector is a scatter whose body returns the update, with one start index,
  `0`, and the whole update as its window: update element `p` lands on place `0 + p`. The scatter is a left fold
  of single-place writes over the update's places; the places are distinct, so a place that some update element
  lands on holds that element and every other place keeps the operand's value.
-/
import proofs.«213211_g18829136625754_cont_8to1_584_2_alg».proof.Proof.Gen.Kernel
import proofs.«213211_g18829136625754_cont_8to1_584_2_alg».proof.Proof.Spec
import Idealize.ShloMosaic.Lib.ValueLayout

noncomputable section

namespace Cert.Kernel.Val

open Idealize.ShloMosaic Idealize.ShloMosaic.ValueIdx
open Cert.Kernel Cert.Kernel.Gen

/-! ## A fold of single-place writes -/

section Fold
variable {ι β α : Type} {_inst : DecidableEq ι}

/-- A place no write of the list lands on keeps its value. -/
theorem foldl_set_miss (E : β → ι) (U : β → α) : ∀ (L : List β) (r : ι → α) (i' : ι), (∀ n ∈ L, E n ≠ i') →
    L.foldl (fun r n => fun i'' => if i'' = E n then U n else r i'') r i' = r i'
  | [], _, _, _ => rfl
  | n :: L, r, i', h => by
    rw [List.foldl_cons, foldl_set_miss E U L _ i' (fun m hm => h m (List.mem_cons_of_mem _ hm))]
    exact if_neg (fun e => h n List.mem_cons_self e.symm)

/-- When the writes land on distinct places, the place of write `n0` holds its value. -/
theorem foldl_set_hit (E : β → ι) (U : β → α) (hinj : Function.Injective E) : ∀ (L : List β) (r : ι → α) (n0 : β),
    L.Nodup → n0 ∈ L → L.foldl (fun r n => fun i'' => if i'' = E n then U n else r i'') r (E n0) = U n0
  | [], _, _, _, h => absurd h List.not_mem_nil
  | n :: L, r, n0, hnd, hmem => by
    rw [List.foldl_cons]
    rcases List.mem_cons.1 hmem with e | hm
    · subst e
      rw [foldl_set_miss E U L _ (E n0) (fun m hm e => (List.nodup_cons.1 hnd).1 (hinj e ▸ hm))]
      exact if_pos rfl
    · exact foldl_set_hit E U hinj L _ n0 (List.nodup_cons.1 hnd).2 hm

end Fold

/-! ## A scatter whose body returns the update, every update element landing inside the operand -/

section Scatter
variable {α : Type} {s si u : Shape} {w : Nat}

/-- Such a scatter is the fold of the writes "place `E j` takes update element `j`". -/
theorem scatter_set_eq_foldl (d : ScatterDims s si u) (x : s.Idx → α) (idx : IVec si w) (upd : u.Idx → α)
    (E : u.Idx → s.Idx) (hE : ∀ j, d.resultIdx? j idx = some (E j)) :
    Host.scatter d (fun _ b => b) x idx upd
      = (List.finRange u.numel).foldl
          (fun r n => fun i' => if i' = E (u.rowMajor.symm n) then upd (u.rowMajor.symm n) else r i') x := by
  unfold Host.scatter
  simp only [hE]

/-- With distinct landing places, the place of update element `j0` holds it. -/
theorem scatter_set_hit (d : ScatterDims s si u) (x : s.Idx → α) (idx : IVec si w) (upd : u.Idx → α)
    (E : u.Idx → s.Idx) (hE : ∀ j, d.resultIdx? j idx = some (E j)) (hinj : Function.Injective E) (j0 : u.Idx) :
    Host.scatter d (fun _ b => b) x idx upd (E j0) = upd j0 := by
  rw [scatter_set_eq_foldl d x idx upd E hE]
  obtain ⟨n0, rfl⟩ : ∃ n0, j0 = u.rowMajor.symm n0 := ⟨u.rowMajor j0, (Equiv.symm_apply_apply _ _).symm⟩
  exact foldl_set_hit (fun n => E (u.rowMajor.symm n)) (fun n => upd (u.rowMajor.symm n))
    (hinj.comp u.rowMajor.symm.injective) (List.finRange u.numel) x n0 (List.nodup_finRange _)
    (List.mem_finRange _)

/-- A place no update element lands on keeps the operand's value. -/
theorem scatter_set_miss (d : ScatterDims s si u) (x : s.Idx → α) (idx : IVec si w) (upd : u.Idx → α)
    (E : u.Idx → s.Idx) (hE : ∀ j, d.resultIdx? j idx = some (E j)) (i' : s.Idx) (hi : ∀ j, E j ≠ i') :
    Host.scatter d (fun _ b => b) x idx upd i' = x i' := by
  rw [scatter_set_eq_foldl d x idx upd E hE]
  exact foldl_set_miss (fun n => E (u.rowMajor.symm n)) (fun n => upd (u.rowMajor.symm n)) _ x i' (fun n _ => hi _)

end Scatter

/-! ## The table transposed -/

variable {F : FTy → Type}

/-- The reshape to `[128, 10000]` followed by the transpose is `xt`. -/
theorem transpose_reshape_eq_xt (x : FVec F S1x128x10000 .f32) :
    transpose S10000x128 [1, 0] (shapeCast S128x10000 x shapeCasts_S1x128x10000_S128x10000)
      transposes_S128x10000_S10000x128_1_0 = Cert.Spec.xt x := by
  funext j
  obtain ⟨r, c, rfl⟩ : ∃ (r : Fin 10000) (c : Fin 128), j = ix2 r c := ⟨j 0, j 1, eq_ix2 j⟩
  exact (transpose_ix2_apply _ _ r c).trans (shapeCast_1ab_ab_apply x _ c r)

/-! ## The padded neighbour list -/

/-- The flat list: entry `p` is `idx[0, p / 32, p % 32]`. -/
theorem flat_apply {α : Type} (idx : (⟨3, ![1, 10000, 32]⟩ : Shape).Idx → α)
    (h : (⟨3, ![1, 10000, 32]⟩ : Shape).ShapeCasts ⟨1, ![320000]⟩) (p : Fin 320000) :
    shapeCast ⟨1, ![320000]⟩ idx h (ix1 p)
      = idx (ix3 (0 : Fin 1) (⟨p.val / 32, by omega⟩ : Fin 10000) (⟨p.val % 32, Nat.mod_lt _ (by norm_num)⟩ : Fin 32)) :=
  shapeCast_apply idx h _ _ (by
    rw [Shape.rowMajor_val_three, Shape.rowMajor_val_one]
    show (0 * 10000 + p.val / 32) * 32 + p.val % 32 = p.val
    omega)

/-- A vector of 327680 cut into rows of 128: entry `(a, b)` is entry `a * 128 + b`. -/
theorem rows_apply {α : Type} (v : (⟨1, ![327680]⟩ : Shape).Idx → α)
    (h : (⟨1, ![327680]⟩ : Shape).ShapeCasts ⟨2, ![2560, 128]⟩) (a : Fin 2560) (b : Fin 128) :
    shapeCast ⟨2, ![2560, 128]⟩ v h (ix2 a b) = v (ix1 (⟨a.val * 128 + b.val, by omega⟩ : Fin 327680)) :=
  shapeCast_apply v h _ _ (by
    rw [Shape.rowMajor_val_two, Shape.rowMajor_val_one]
    rfl)

/-- A rank-1 index's coordinate is below the extent, written as `n` itself. -/
theorem idx1_lt {n : Nat} (j : (⟨1, ![n]⟩ : Shape).Idx) : (j 0).val < n := (j 0).isLt

/-- The start index of the write: the one word `0`. -/
abbrev start0 : IVec S1 32 := broadcastInDim S1 ![] bcast_S_S1 (constantI S_ 32 0#32)

/-- Update element `p` lands on place `p`. -/
theorem resultIdx_pad (p : Fin 320000) :
    scatter_S327680_S1_S320000_0_n_0_0.resultIdx? (ix1 p) start0 = some (ix1 (⟨p.val, by omega⟩ : Fin 327680)) := by
  have hs : ∀ a, scatter_S327680_S1_S320000_0_n_0_0.start (ix1 p) start0 a = 0 := fun a => by
    unfold ScatterDims.start
    split <;> rfl
  have hw : ∀ a, scatter_S327680_S1_S320000_0_n_0_0.window (ix1 p) a = p.val := fun a => by
    obtain rfl : a = 0 := Subsingleton.elim _ _
    rfl
  have hp := p.isLt
  unfold ScatterDims.resultIdx?
  rw [dif_pos (fun a => by
    rw [hs, hw]
    obtain rfl : a = 0 := Subsingleton.elim _ _
    show 0 ≤ (0 : Int) + (p.val : Int) ∧ (0 : Int) + (p.val : Int) < ((327680 : Nat) : Int)
    omega)]
  refine congrArg some (funext fun a => ?_)
  obtain rfl : a = 0 := Subsingleton.elim _ _
  refine Fin.ext ?_
  show (scatter_S327680_S1_S320000_0_n_0_0.start (ix1 p) start0 0
    + (scatter_S327680_S1_S320000_0_n_0_0.window (ix1 p) 0 : Int)).toNat = p.val
  rw [hs, hw]
  omega

/-- The list written over the zero vector, at place `p`: the list's entry below 320000, zero from there on. -/
theorem pad_apply (upd : IVec S320000 32) (p : Fin 327680) :
    Host.scatter scatter_S327680_S1_S320000_0_n_0_0 (fun _ b => b)
        (broadcastInDim S327680 ![] bcast_S_S327680 (constantI S_ 32 0#32)) start0 upd (ix1 p)
      = if h : p.val < 320000 then upd (ix1 (⟨p.val, h⟩ : Fin 320000)) else 0#32 := by
  have hE : ∀ j : S320000.Idx, scatter_S327680_S1_S320000_0_n_0_0.resultIdx? j start0
      = some ((fun j : S320000.Idx => (ix1 (⟨(j 0).val, by have := idx1_lt j; omega⟩ : Fin 327680) : S327680.Idx)) j) := fun j => by
    obtain ⟨q, rfl⟩ : ∃ q : Fin 320000, j = ix1 q := ⟨j 0, eq_ix1 j⟩
    exact resultIdx_pad q
  by_cases h : p.val < 320000
  · rw [dif_pos h]
    exact scatter_set_hit _ _ _ upd _ hE (fun j j' e => by
      obtain ⟨q, rfl⟩ : ∃ q : Fin 320000, j = ix1 q := ⟨j 0, eq_ix1 j⟩
      obtain ⟨q', rfl⟩ : ∃ q : Fin 320000, j' = ix1 q := ⟨j' 0, eq_ix1 j'⟩
      have hv : q.val = q'.val := congrArg (fun i : S327680.Idx => (i 0).val) e
      exact congrArg ix1 (Fin.ext hv)) (ix1 (⟨p.val, h⟩ : Fin 320000))
  · rw [dif_neg h]
    exact scatter_set_miss _ _ _ upd _ hE (ix1 p) (fun j e => by
      have hv : (j 0).val = p.val := congrArg (fun i : S327680.Idx => (i 0).val) e
      have hj := idx1_lt j
      exact h (by omega))

/-- Flatten, write over the zero vector, cut into rows of 128: the padded list `idxp`. -/
theorem padded_eq_idxp (idx : IVec S1x10000x32 32) :
    shapeCast S2560x128
        (Host.scatter scatter_S327680_S1_S320000_0_n_0_0 (fun _ b => b)
          (broadcastInDim S327680 ![] bcast_S_S327680 (constantI S_ 32 0#32))
          (broadcastInDim S1 ![] bcast_S_S1 (constantI S_ 32 0#32))
          (shapeCast S320000 idx shapeCasts_S1x10000x32_S320000))
        shapeCasts_S327680_S2560x128
      = Cert.Spec.idxp idx := by
  funext j
  obtain ⟨a, b, rfl⟩ : ∃ (a : Fin 2560) (b : Fin 128), j = ix2 a b := ⟨j 0, j 1, eq_ix2 j⟩
  refine (rows_apply _ _ a b).trans ((pad_apply _ _).trans ?_)
  show _ = if h : a.val * 128 + b.val < 320000 then _ else 0#32
  by_cases h : a.val * 128 + b.val < 320000
  · rw [dif_pos h, dif_pos h]
    exact flat_apply idx _ _
  · rw [dif_neg h, dif_neg h]

/-! ## The result split into point and neighbour -/

/-- A `[256, 320000]` array reshaped to `[1, 256, 10000, 32]` reads, at `(a, c, n, k)`, entry `(c, n * 32 + k)`. -/
theorem split_apply {α : Type} (o : (⟨2, ![256, 320000]⟩ : Shape).Idx → α)
    (h : (⟨2, ![256, 320000]⟩ : Shape).ShapeCasts ⟨4, ![1, 256, 10000, 32]⟩)
    (a : Fin 1) (c : Fin 256) (n : Fin 10000) (k : Fin 32) :
    shapeCast ⟨4, ![1, 256, 10000, 32]⟩ o h (ix4 a c n k)
      = o (ix2 c (⟨n.val * 32 + k.val, by omega⟩ : Fin 320000)) :=
  shapeCast_apply o h _ _ (by
    have ha : a.val = 0 := by omega
    rw [Shape.rowMajor_val_four, Shape.rowMajor_val_two]
    show c.val * 320000 + (n.val * 32 + k.val) = ((a.val * 256 + c.val) * 10000 + n.val) * 32 + k.val
    omega)

variable [FloatOps F]

/-- The final reshape of `tcOut`: the flat position split into point and neighbour. -/
theorem split_tcOut (g : Cert.Spec.SG.Idx → F .f32) (t : Cert.Spec.ST.Idx → F .f32) :
    shapeCast S1x256x10000x32 (Cert.Spec.tcOut g t) shapeCasts_S256x320000_S1x256x10000x32
      = fun j => Cert.Spec.tcOut g t (ix2 (j 1) (⟨(j 2).val * 32 + (j 3).val, by
          have h2 : (j 2).val < 10000 := (j 2).isLt
          have h3 : (j 3).val < 32 := (j 3).isLt
          omega⟩ : Fin 320000)) := by
  funext j
  obtain ⟨a, c, n, k, rfl⟩ : ∃ (a : Fin 1) (c : Fin 256) (n : Fin 10000) (k : Fin 32), j = ix4 a c n k :=
    ⟨j 0, j 1, j 2, j 3, eq_ix4 j⟩
  exact split_apply _ _ a c n k

/-- The final reshape of the kernel's road is `kout`. -/
theorem split_tcOut_eq_kout (x : Cert.Spec.SX.Idx → F .f32) (idx : Cert.Spec.SJ.Idx → BitVec 32) :
    shapeCast S1x256x10000x32
        (Cert.Spec.tcOut (Cert.Spec.gath (Cert.Spec.xt x) (Cert.Spec.idxp idx)) (Cert.Spec.xt x))
        shapeCasts_S256x320000_S1x256x10000x32
      = Cert.Spec.kout x idx :=
  split_tcOut _ _

end Cert.Kernel.Val

end
-- ==== Proof.BHost.lean ====
/-
  The host operations of the kernel's @main as a list, @main as that list followed by the SparseCore call, the
  TensorCore call and the last reshape, and the arrays' contents after the list: the table is `x` transposed, the
  list is the neighbour words padded with zeros, every other array of interest is as at the launch.
-/
import proofs.«213211_g18829136625754_cont_8to1_584_2_alg».proof.Proof.BPay
import proofs.«213211_g18829136625754_cont_8to1_584_2_alg».proof.Proof.BValHost
import Idealize.ShloMosaic.Lib.StableHlo.RunLoop

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

open Idealize.ShloMosaic.StableHlo (held held_sub_split held_congr wp_hlo_within wp_seq launchContents after)

variable [FloatOps F]

/-- A TensorCore reference as a device buffer. -/
abbrev R (b : Ref sig .tc) : DevRef τ sig := Proc.devRef .tc b

abbrev op0 : HloOp τ sig (Elt F) := StableHlo.reshape main_arg0 main_v0 rfl shapeCasts_S1x128x10000_S128x10000
abbrev op1 : HloOp τ sig (Elt F) := StableHlo.unary main_v0 main_v1 ((transpose S10000x128 [1, 0] · transposes_S128x10000_S10000x128_1_0) : (⟨S128x10000, .f32⟩ : BufTy).Contents (Elt F) → (⟨S10000x128, .f32⟩ : BufTy).Contents (Elt F))
abbrev op2 : HloOp τ sig (Elt F) := StableHlo.reshape main_arg1 main_v2 rfl shapeCasts_S1x10000x32_S320000
abbrev op3 : HloOp τ sig (Elt F) := StableHlo.nullary main_c (constantI S_ 32 0#32)
abbrev op4 : HloOp τ sig (Elt F) := StableHlo.unary main_c main_v3 (broadcastInDim S327680 ![] bcast_S_S327680 : (⟨S_, .i32⟩ : BufTy).Contents (Elt F) → (⟨S327680, .i32⟩ : BufTy).Contents (Elt F))
abbrev op5 : HloOp τ sig (Elt F) := StableHlo.nullary main_c_0 (constantI S_ 32 0#32)
abbrev op6 : HloOp τ sig (Elt F) := StableHlo.unary main_c_0 main_v4 (broadcastInDim S1 ![] bcast_S_S1 : (⟨S_, .i32⟩ : BufTy).Contents (Elt F) → (⟨S1, .i32⟩ : BufTy).Contents (Elt F))
abbrev op7 : HloOp τ sig (Elt F) := StableHlo.ternary main_v3 main_v4 main_v2 main_v5 ((fun x i u => Host.scatter scatter_S327680_S1_S320000_0_n_0_0 (fun _ b => b) x i u) : (⟨S327680, .i32⟩ : BufTy).Contents (Elt F) → (⟨S1, .i32⟩ : BufTy).Contents (Elt F) → (⟨S320000, .i32⟩ : BufTy).Contents (Elt F) → (⟨S327680, .i32⟩ : BufTy).Contents (Elt F))
abbrev op8 : HloOp τ sig (Elt F) := StableHlo.reshape main_v5 main_v6 rfl shapeCasts_S327680_S2560x128
abbrev op9 : HloOp τ sig (Elt F) := StableHlo.reshape main_v8 main_v9 rfl shapeCasts_S256x320000_S1x256x10000x32

/-- The nine host operations before the SparseCore call. -/
abbrev ops0 : List (HloOp τ sig (Elt F)) := [op0, op1, op2, op3, op4, op5, op6, op7, op8]

theorem main_eq (d : Dev nD) :
    main (F := F) d = (StableHlo.seq ops0 >>= fun _ => (sc (F := F)).run d 0 >>= fun _ =>
      Prog.lift (.customCall (SparseCore.inner (Pipeline.entry 0)) ()) >>= fun _ => hlo rfl op9 (fun _ => .ret (⟨⟩ : PUnit)) >>= fun _ => pure ⟨⟩) := rfl

theorem ops0_sub : ∀ op ∈ (ops0 : List (HloOp τ sig (Elt F))), op.bufs ⊆ Pipeline.ucRefs τ sig := by
  intro op hop
  simp only [ops0, List.mem_cons, List.not_mem_nil, or_false] at hop
  rcases hop with rfl | rfl | rfl | rfl | rfl | rfl | rfl | rfl | rfl <;> exact Pipeline.sub_ucRefs _ (by simp)

theorem ops0_fresh : ∀ op ∈ (ops0 : List (HloOp τ sig (Elt F))), op.fresh = ∅ := by
  intro op hop
  simp only [ops0, List.mem_cons, List.not_mem_nil, or_false] at hop
  rcases hop with rfl | rfl | rfl | rfl | rfl | rfl | rfl | rfl | rfl <;> rfl

variable (m : (ℓ : Loc nD τ sig) → Buf (Elt F) ℓ)

/-- The device's arrays after the nine host operations. -/
def V1 (d : Dev nD) : Valuation τ sig (Elt F) := after ops0 (launchContents m d)

theorem V1_t (d : Dev nD) : V1 m d (R main_v1) = tV m d := by
  unfold V1 tV; after_results
  exact Cert.Kernel.Val.transpose_reshape_eq_xt _
theorem V1_p (d : Dev nD) : V1 m d (R main_v6) = pV m d := by
  unfold V1 pV; after_results
  exact Cert.Kernel.Val.padded_eq_idxp _
theorem V1_o (d : Dev nD) : V1 m d (R main_v7) = o0V m d := by
  unfold V1 o0V; after_results
theorem V1_a0 (d : Dev nD) : V1 m d (R main_arg0) = m (a0Loc d) := by
  unfold V1; after_results
theorem V1_a1 (d : Dev nD) : V1 m d (R main_arg1) = m (a1Loc d) := by
  unfold V1; after_results

end Cert.Kernel.Pf

end
-- ==== Proof.BSplit.lean ====
/-
  The gathered array as its chunks, and the read shares of the table and the list as one per SparseCore: what
  @main hands the SparseCore call from the whole arrays, and what it reassembles from what the call brings back.
-/
import proofs.«213211_g18829136625754_cont_8to1_584_2_alg».proof.Proof.BPay

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

/-- The chunks, indexed by SparseCore, tile and trip. -/
abbrev A : Type := Fin (grid0.bound 0) × Fin (grid0.bound 1) × Fin k0_t1_loop.trips
abbrev ch (a : A) : Finset S327680x128.Idx := chunkSet (coordsV a.1 a.2.1) a.2.2

/-- The chunks partition the gathered array. -/
def Partition : Prop :=
  (∀ a ∈ (Finset.univ : Finset A), ∀ b ∈ (Finset.univ : Finset A), a ≠ b → Disjoint (ch a) (ch b))
    ∧ (Finset.univ : Finset A).biUnion ch = Finset.univ

omit [FloatOps F] in
/-- The whole array at `f` is its chunks at `f`, grouped by SparseCore, then tile, then trip. -/
theorem array_chunks (hP : Partition) (d : Dev nD) (f : S327680x128.Idx → F .f32) :
    (oLoc d ↦{fullShare} f : sProp 𝕄)
      = bigSep Finset.univ fun c : Fin (grid0.bound 0) => bigSep Finset.univ fun i : Fin (grid0.bound 1) =>
          bigSep Finset.univ fun k : Fin k0_t1_loop.trips => oLoc d ↦[chunkSet (coordsV c i) k]{fullShare} f := by
  have h1 : (oLoc d ↦{fullShare} f : sProp 𝕄) = bigSep (Finset.univ : Finset A) fun a => oLoc d ↦[ch a]{fullShare} f := by
    rw [← pointsTo_biUnion Finset.univ (ℓ := oLoc d) ch hP.1, hP.2]
  rw [h1, show (Finset.univ : Finset A) = (Finset.univ : Finset (Fin (grid0.bound 0))) ×ˢ (Finset.univ : Finset (Fin (grid0.bound 1) × Fin k0_t1_loop.trips)) from rfl,
    SparseCore.bigSep_product]
  refine bigSep_congr fun c _ => ?_
  rw [show (Finset.univ : Finset (Fin (grid0.bound 1) × Fin k0_t1_loop.trips)) = (Finset.univ : Finset (Fin (grid0.bound 1))) ×ˢ (Finset.univ : Finset (Fin k0_t1_loop.trips)) from rfl,
    SparseCore.bigSep_product]

omit [FloatOps F] in
theorem chunks_zero (d : Dev nD) (L : grid0.Coords) (g o0 : S327680x128.Idx → F .f32) :
    (chunks d L g o0 0 : sProp 𝕄) = bigSep Finset.univ fun k : Fin k0_t1_loop.trips => oLoc d ↦[chunkSet L k]{fullShare} o0 := by
  unfold chunks
  exact bigSep_congr fun j _ => by rw [if_neg (Nat.not_lt_zero _)]
omit [FloatOps F] in
theorem chunks_all (d : Dev nD) (L : grid0.Coords) (g o0 : S327680x128.Idx → F .f32) :
    (chunks d L g o0 k0_t1_loop.trips : sProp 𝕄) = bigSep Finset.univ fun k : Fin k0_t1_loop.trips => oLoc d ↦[chunkSet L k]{fullShare} g := by
  unfold chunks
  exact bigSep_congr fun j _ => by rw [if_pos j.isLt]

omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tiles (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ)

/-- All the chunks at trip count `n` (`0`: as at the launch; the trip count: gathered), grouped as the call takes them. -/
def allChunks (d : Dev nD) (n : ℕ) : sProp 𝕄 :=
  bigSep Finset.univ fun c : Fin ((K (F := F)).nCore 0) => bigSep Finset.univ fun i : Fin ((K (F := F)).nSub 0) => chunks d (Lci c i) (gV m d) (o0V m d) n

theorem allChunks_zero (hP : Partition) (d : Dev nD) : (allChunks m d 0 : sProp 𝕄) = (oLoc d ↦{fullShare} o0V m d) := by
  rw [array_chunks hP]
  unfold allChunks
  simp only [chunks_zero]
  rw [← bigSep_cores (F := F) (fun c => bigSep Finset.univ fun i : Fin (grid0.bound 1) => bigSep Finset.univ fun k : Fin k0_t1_loop.trips => oLoc d ↦[chunkSet (coordsV c i) k]{fullShare} o0V m d)]
  refine bigSep_congr fun c _ => ?_
  rw [← bigSep_tiles (F := F) (fun i => bigSep Finset.univ fun k : Fin k0_t1_loop.trips => oLoc d ↦[chunkSet (coordsV (Fin.cast nCore_zero c) i) k]{fullShare} o0V m d)]

theorem allChunks_all (hP : Partition) (d : Dev nD) : (allChunks m d k0_t1_loop.trips : sProp 𝕄) = (oLoc d ↦{fullShare} gV m d) := by
  rw [array_chunks hP]
  unfold allChunks
  simp only [chunks_all]
  rw [← bigSep_cores (F := F) (fun c => bigSep Finset.univ fun i : Fin (grid0.bound 1) => bigSep Finset.univ fun k : Fin k0_t1_loop.trips => oLoc d ↦[chunkSet (coordsV c i) k]{fullShare} gV m d)]
  refine bigSep_congr fun c _ => ?_
  rw [← bigSep_tiles (F := F) (fun i => bigSep Finset.univ fun k : Fin k0_t1_loop.trips => oLoc d ↦[chunkSet (coordsV (Fin.cast nCore_zero c) i) k]{fullShare} gV m d)]

/-- What the SparseCore call takes (`n = 0`) and brings back (`n` the trip count), over both SparseCores: the two
    arrays' read shares, one per SparseCore, and all the chunks. -/
theorem cores_eq (d : Dev nD) (n : ℕ) :
    (bigSep Finset.univ fun c : Fin ((K (F := F)).nCore 0) => forCore m d c n)
      = iprop((bigSep Finset.univ fun c : Fin 2 => tLoc d ↦{Transfers.shareTok fullShare 2 c} tV m d)
          ∗ (bigSep Finset.univ fun c : Fin 2 => pLoc d ↦{Transfers.shareTok fullShare 2 c} pV m d) ∗ allChunks m d n) := by
  unfold forCore allChunks
  rw [bigSep_sep'', bigSep_sep'']

end Cert.Kernel.Pf

end
-- ==== Proof.BFinDef.lean ====
/-
  What @main leaves the claim on each device: the two arguments as at the launch and the result array at the
  kernel's function of them.
-/
import proofs.«213211_g18829136625754_cont_8to1_584_2_alg».proof.Proof.BPay

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

variable (m : (ℓ : Loc nD τ sig) → Buf (Elt F) ℓ)

/-- The result array, as a location of device `d`. -/
abbrev rLoc (d : Dev nD) : Loc nD τ sig := (SparseCore.T d).loc main_v9

/-- What @main leaves the claim. -/
def FIN (d : Dev nD) : sProp 𝕄 :=
  iprop((a0Loc d ↦{fullShare} m (a0Loc d)) ∗ (a1Loc d ↦{fullShare} m (a1Loc d))
    ∗ (rLoc d ↦{fullShare} Cert.Spec.kout (m (a0Loc d)) (m (a1Loc d))))

end Cert.Kernel.Pf

end
-- ==== Proof.BValBody.lean ====
/-
  The value the TensorCore body stores, read at one index.

  The body loads a block `g` of 6400 gathered rows (128 channels each) and a block `t` of 200 table rows. It
  repeats each table row 32 times (row `q` of the repeated block is table row `q / 32`), subtracts that from the
  gathered block, puts the difference and the repeated block side by side on the channel axis (256 channels)
  and stores the transpose. So entry `(c, q)` of what it stores is `g[q, c] - t[q / 32, c]` for `c < 128` and
  `t[q / 32, c - 128]` for `c ≥ 128`.
-/
import proofs.«213211_g18829136625754_cont_8to1_584_2_alg».proof.Proof.Gen.Kernel.Skeleton
import Idealize.ShloMosaic.Lib.ValueLayout

noncomputable section

namespace Cert.Kernel.Val

open Idealize.ShloMosaic Idealize.ShloMosaic.ValueIdx
open Cert.Kernel Cert.Kernel.Gen

/-! ## The layout operations of the body at explicit coordinates -/

section Layout
variable {α : Type}

/-- A `[200, 128]` array cast to `[200, 1, 128]` reads, at `(p, u, c)`, the operand at `(p, c)`. -/
theorem cast_200x128_200x1x128 (x : (⟨2, ![200, 128]⟩ : Shape).Idx → α)
    (h : (⟨2, ![200, 128]⟩ : Shape).ShapeCasts ⟨3, ![200, 1, 128]⟩) (p : Fin 200) (u : Fin 1) (c : Fin 128) :
    shapeCast ⟨3, ![200, 1, 128]⟩ x h (ix3 p u c) = x (ix2 p c) :=
  shapeCast_apply x h _ _ (by
    have hu : u.val = 0 := by omega
    rw [Shape.rowMajor_val_three, Shape.rowMajor_val_two]
    show p.val * 128 + c.val = (p.val * 1 + u.val) * 128 + c.val
    omega)

/-- A `[200, 1, 128]` array broadcast to `[200, 32, 128]` reads, at `(p, r, c)`, the operand at `(p, 0, c)`. -/
theorem bcast_200x1x128_200x32x128 (x : (⟨3, ![200, 1, 128]⟩ : Shape).Idx → α)
    (h : (⟨3, ![200, 1, 128]⟩ : Shape).Broadcasts ⟨3, ![200, 32, 128]⟩) (p : Fin 200) (r : Fin 32) (c : Fin 128) :
    broadcastTo ⟨3, ![200, 32, 128]⟩ x h (ix3 p r c) = x (ix3 p (0 : Fin 1) c) := by
  refine broadcastTo_apply x h (ix3 p r c) (ix3 p (0 : Fin 1) c) fun ax => ?_
  match ax with
  | ⟨0, _⟩ => rfl
  | ⟨1, _⟩ => rfl
  | ⟨2, _⟩ => rfl

/-- A `[200, 32, 128]` array cast to `[6400, 128]` reads, at `(q, c)`, the operand at `(q / 32, q % 32, c)`:
    row-major, row `q` of the flat array is row `q % 32` of slab `q / 32`. -/
theorem cast_200x32x128_6400x128 (x : (⟨3, ![200, 32, 128]⟩ : Shape).Idx → α)
    (h : (⟨3, ![200, 32, 128]⟩ : Shape).ShapeCasts ⟨2, ![6400, 128]⟩) (q : Fin 6400) (c : Fin 128) :
    shapeCast ⟨2, ![6400, 128]⟩ x h (ix2 q c)
      = x (ix3 (⟨q.val / 32, by omega⟩ : Fin 200) (⟨q.val % 32, Nat.mod_lt _ (by norm_num)⟩ : Fin 32) c) :=
  shapeCast_apply x h _ _ (by
    rw [Shape.rowMajor_val_three, Shape.rowMajor_val_two]
    show (q.val / 32 * 32 + q.val % 32) * 128 + c.val = q.val * 128 + c.val
    omega)

/-- Two `[6400, 128]` arrays side by side on axis 1, read at a column below 128: the first. -/
theorem concat_6400x256_left (x₁ x₂ : (⟨2, ![6400, 128]⟩ : Shape).Idx → α)
    (h : Shape.Concatenates [(⟨2, ![6400, 128]⟩ : Shape), ⟨2, ![6400, 128]⟩] ⟨2, ![6400, 256]⟩ 1)
    (q : Fin 6400) (c : Fin 256) (hc : c.val < 128) :
    concatenate ⟨2, ![6400, 256]⟩ 1 [⟨⟨2, ![6400, 128]⟩, x₁⟩, ⟨⟨2, ![6400, 128]⟩, x₂⟩] h (ix2 q c)
      = x₁ (ix2 q (⟨c.val, hc⟩ : Fin 128)) :=
  concatenate_pair_apply_left 1 x₁ x₂ h (ix2 q c) rfl (ix2 q (⟨c.val, hc⟩ : Fin 128))
    (fun b => match b with | ⟨0, _⟩ => rfl | ⟨1, _⟩ => rfl)

/-- Two `[6400, 128]` arrays side by side on axis 1, read at a column from 128 on: the second, 128 columns back. -/
theorem concat_6400x256_right (x₁ x₂ : (⟨2, ![6400, 128]⟩ : Shape).Idx → α)
    (h : Shape.Concatenates [(⟨2, ![6400, 128]⟩ : Shape), ⟨2, ![6400, 128]⟩] ⟨2, ![6400, 256]⟩ 1)
    (q : Fin 6400) (c : Fin 256) (hc : 128 ≤ c.val) :
    concatenate ⟨2, ![6400, 256]⟩ 1 [⟨⟨2, ![6400, 128]⟩, x₁⟩, ⟨⟨2, ![6400, 128]⟩, x₂⟩] h (ix2 q c)
      = x₂ (ix2 q (⟨c.val - 128, by omega⟩ : Fin 128)) :=
  concatenate_pair_apply_right 1 x₁ x₂ h (ix2 q c) rfl rfl (ix2 q (⟨c.val - 128, by omega⟩ : Fin 128))
    (fun b hb => match b, hb with
      | ⟨0, _⟩, _ => rfl
      | ⟨1, _⟩, hb => absurd rfl hb)
    (by show c.val - 128 + 128 = c.val; omega)

/-- The table block repeated 32 times: row `q` of the repeated block is row `q / 32` of the block. -/
theorem repeated_apply (t : (⟨2, ![200, 128]⟩ : Shape).Idx → α)
    (h1 : (⟨2, ![200, 128]⟩ : Shape).ShapeCasts ⟨2, ![200, 128]⟩)
    (h2 : (⟨2, ![200, 128]⟩ : Shape).ShapeCasts ⟨3, ![200, 1, 128]⟩)
    (h3 : (⟨3, ![200, 1, 128]⟩ : Shape).ShapeCasts ⟨3, ![200, 1, 128]⟩)
    (h4 : (⟨3, ![200, 1, 128]⟩ : Shape).Broadcasts ⟨3, ![200, 32, 128]⟩)
    (h5 : (⟨3, ![200, 32, 128]⟩ : Shape).ShapeCasts ⟨2, ![6400, 128]⟩) (q : Fin 6400) (c : Fin 128) :
    shapeCast ⟨2, ![6400, 128]⟩ (broadcastTo ⟨3, ![200, 32, 128]⟩
        (shapeCast ⟨3, ![200, 1, 128]⟩ (shapeCast ⟨3, ![200, 1, 128]⟩ (shapeCast ⟨2, ![200, 128]⟩ t h1) h2) h3) h4) h5 (ix2 q c)
      = t (ix2 (⟨q.val / 32, by omega⟩ : Fin 200) c) := by
  rw [shapeCast_self t h1, shapeCast_self _ h3]
  exact (cast_200x32x128_6400x128 _ h5 q c).trans
    ((bcast_200x1x128_200x32x128 _ h4 _ _ c).trans (cast_200x128_200x1x128 t h2 _ _ c))

end Layout

/-! ## The stored value at an index -/

variable {F : FTy → Type} [FloatOps F]

/-- Entry `(c, q)` of the value the body stores: the gathered entry minus the point's own on channels below 128,
    the point's own on the channels from 128 on; row `q` of the block belongs to table row `q / 32`. -/
theorem k1_pay1_apply (g : Vec F S6400x128 .f32) (t : Vec F S200x128 .f32) (c : Fin 256) (q : Fin 6400) :
    k1_pay1 g t (ix2 c q) =
      if h : c.val < 128 then
        FloatOps.subf ((g : FVec F S6400x128 .f32) (ix2 q (⟨c.val, h⟩ : Fin 128)))
          ((t : FVec F S200x128 .f32) (ix2 (⟨q.val / 32, by omega⟩ : Fin 200) (⟨c.val, h⟩ : Fin 128)))
      else (t : FVec F S200x128 .f32) (ix2 (⟨q.val / 32, by omega⟩ : Fin 200) (⟨c.val - 128, by omega⟩ : Fin 128)) := by
  unfold k1_pay1
  dsimp only
  refine (transpose_ix2_apply _ _ c q).trans ?_
  by_cases h : c.val < 128
  · rw [dif_pos h]
    refine (concat_6400x256_left _ _ _ q c h).trans ?_
    show FloatOps.subf _ _ = FloatOps.subf _ _
    rw [shapeCast_self, repeated_apply]
  · rw [dif_neg h]
    refine (concat_6400x256_right _ _ _ q c (by omega)).trans ?_
    exact repeated_apply _ _ _ _ _ _ q _

end Cert.Kernel.Val

end
-- ==== Proof.BRegion.lean ====
/-
  The TensorCore pallas_call inside the program's @main.

  After the SparseCore call has written the gathered rows `g : [327680, 128]`, @main runs one pipelined kernel on the
  TensorCore over a grid of 50 points. At point `i` the pipeline fetches rows `[6400 i, 6400 i + 6400)` of `g` and
  rows `[200 i, 200 i + 200)` of the table `t : [10000, 128]` into staging buffers, runs the body — two whole loads,
  the payload, one whole store — and writes the `[256, 6400]` block it stored back to columns
  `[6400 i, 6400 i + 6400)` of the result `[256, 320000]`.

  What is proved here (`wp_tcRegion`): from the three arrays at `g`, `t` and anything, the call terminates with
  `g` and `t` unchanged and the result equal to `Cert.Spec.tcOut g t`: channel `c < 128` of position `p` is
  `g[p, c] - t[p / 32, c]`, channel `c ≥ 128` is `t[p / 32, c - 128]`.

  The steps: the body at a point on any choice of staging buffers (`sound_body`); what each staging buffer holds
  when the body runs — the window of `g` is declared as one whose last block may overhang the array, but all fifty
  blocks used lie inside it, so a fetch overwrites the whole buffer (`moved0`, `fill0_eq`) —; the obligation of the
  body at every point (`body_obligation`); each block at explicit indices (`full0_apply`, `blk1_apply`,
  `emb2_apply`) and with the payload's value at an index the block a point writes back is that block of `tcOut`
  (`flushed2`); the fifty blocks of columns cover the result (`arrAt_final`); the region's record and its entry into
  the program of all the device's processors (`reg`, `wp_tcRegionF`, `wp_tcRegion`); and the part of the launch's
  ghost state the region consumes (`Greg`, `fund_Greg`).
-/
import proofs.«213211_g18829136625754_cont_8to1_584_2_alg».proof.Proof.BSetup
import proofs.«213211_g18829136625754_cont_8to1_584_2_alg».proof.Proof.Gen.Kernel.Launch
import proofs.«213211_g18829136625754_cont_8to1_584_2_alg».proof.Proof.Gen.Kernel.Points
import Idealize.ShloMosaic.Lib.Pipeline.Regions
import Idealize.ShloMosaic.Lib.Pipeline.Value
import proofs.«213211_g18829136625754_cont_8to1_584_2_alg».proof.Proof.BValBody

noncomputable section

namespace Cert.Kernel.Pf

open Cert.Kernel Cert.Kernel.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf kernel pipe)

variable {F : FTy → Type} [FloatOps F]

local notation "𝕄" => MT nD τ sig (HIx 1) (Elt F) ℕ UU ℕ

variable (g : (c : Dev nD) → Buf (Elt F) ((T c : Thread nD τ).loc main_v7)) (t : (c : Dev nD) → Buf (Elt F) ((T c : Thread nD τ).loc main_v1))
  (o : (c : Dev nD) → Buf (Elt F) ((T c : Thread nD τ).loc main_v8))

/-- Block `tt` of the gathered rows, as the fetch reads it. -/
def blk0 (c : Dev nD) (tt : Fin cfg1.N) : (win1_0.xblock (grid1.coords tt)).Idx → Elt F .f32 :=
  (win1_0.blk tt).view.read (Elt F) (g c)
def blk1 (c : Dev nD) (tt : Fin cfg1.N) : S200x128.Idx → Elt F .f32 :=
  (win1_1.blk tt).view.read (Elt F) (t c)
def full0 (c : Dev nD) (tt : Fin cfg1.N) : S6400x128.Idx → Elt F .f32 :=
  win1_0.fill (grid1.coords tt) (fun _ => Scalar.ofBits .f32 0#32) (blk0 g c tt)

def dats (_ : Fin 1) (c : Dev nD) : Dat τ (Elt F) (HIx 1) ℕ UU ℕ (Pipeline.pin (pcfgs (F := F)) adm 0) c where
  A w := match w with
    | ⟨0, _⟩ => g c
    | ⟨1, _⟩ => t c
    | ⟨2, _⟩ => o c
  after w tt := match w with
    | ⟨0, _⟩ => full0 g c tt
    | ⟨1, _⟩ => blk1 t c tt
    | ⟨2, _⟩ => k1_pay1 (full0 g c tt) (blk1 t c tt)
  Φ _ := iprop(emp)
  q _ := fullShare
  owed _ := 0
  recorded _ := {p | (K (F := F)).lev ((T c : Thread nD τ), p.1) p.2 ≤ 8}

/-! ## The body at a point -/

set_option hygiene false in
local macro "body_case" b0:term "," b1:term "," b2:term : tactic => `(tactic| (
    have hr0 : (Memref.whole $b0 : Memref sig .tc _ _ _).view.readAt (Elt F) (Rect.unit (s := S6400x128) ![0, 0] S6400x128.size
        inb_S6400x128_S6400x128_0_0).toLoadRect = id := funext (Memref.readAt_unit_zero (Elt F) $b0 hz _)
    have hr1 : (Memref.whole $b1 : Memref sig .tc _ _ _).view.readAt (Elt F) (Rect.unit (s := S200x128) ![0, 0] S200x128.size
        inb_S200x128_S200x128_0_0).toLoadRect = id := funext (Memref.readAt_unit_zero (Elt F) $b1 hz _)
    have hw2 : ∀ f w, (((Memref.whole $b2).access (Rect.unit (s := S256x6400) ![0, 0] S256x6400.size inb_S256x6400_S256x6400_0_0)) :
        View sig .tc _ _ _).write (Elt F) f w Finset.univ = w := Memref.write_access_unit_zero_univ (Elt F) $b2 hz _
    simp only [owns_whole_eq, cc1__tc_body_eq_skeleton]; unfold cc1__tc_body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2))

set_option maxHeartbeats 4000000 in
/-- The body on staging buffers `s0`, `s1`, `s2` of the three windows: it loads the first two whole, and stores the
    payload of what it read whole into the third; the first two are unchanged. -/
theorem sound_body (c : Dev nD) (E : Set ℕ) (i : grid1.Coords) (s0 s1 s2 : Fin 2)
    (X0 : S6400x128.Idx → Elt F .f32) (X1 : S200x128.Idx → Elt F .f32) (X2 : S256x6400.Idx → Elt F .f32) (Kk : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ Kk ⟨⟩))
      ⊢ wp frame (wpE (defs₀ (F := F)) 𝒱₀ c none) E
          (cc1__tc_body i (stage1_0 s0) (hstage1_0 s0) (stage1_1 s1) (hstage1_1 s1) (stage1_2 s2) (hstage1_2 s2)) Kk := by
  have hz : (![0, 0] : Fin 2 → Nat) = fun _ => 0 := funext fun a => by fin_cases a <;> rfl
  fin_cases s0 <;> fin_cases s1 <;> fin_cases s2
  · body_case cc1_stg0_0, cc1_stg1_0, cc1_stg2_0
  · body_case cc1_stg0_0, cc1_stg1_0, cc1_stg2_1
  · body_case cc1_stg0_0, cc1_stg1_1, cc1_stg2_0
  · body_case cc1_stg0_0, cc1_stg1_1, cc1_stg2_1
  · body_case cc1_stg0_1, cc1_stg1_0, cc1_stg2_0
  · body_case cc1_stg0_1, cc1_stg1_0, cc1_stg2_1
  · body_case cc1_stg0_1, cc1_stg1_1, cc1_stg2_0
  · body_case cc1_stg0_1, cc1_stg1_1, cc1_stg2_1

/-! ## What the body finds in the staging buffers -/

/-- The result's window is never fetched. -/
theorem fetch1_2 : ∀ tt : Fin cfg1.N, (cfg1.win 2).fetch tt = false :=
  (by decide +kernel : ∀ tt : Fin grid1.N, win1_2.fetch tt = false)

/-- Every block of the gathered rows that the grid uses lies inside the array: the transfer moves all of it. -/
theorem xsize0 : ∀ (tt : Fin cfg1.N) (a : Fin 2), win1_0.xsize (grid1.coords tt) a = S6400x128.size a :=
  (by decide +kernel : ∀ (tt : Fin grid1.N) (a : Fin 2), win1_0.xsize (grid1.coords tt) a = S6400x128.size a)

theorem moved0 (tt : Fin cfg1.N) (j : S6400x128.Idx) : win1_0.moved (grid1.coords tt) j = true :=
  (win1_0.moved_iff _ j).mpr fun a => by rw [xsize0 tt a]; exact (j a).isLt

/-- So what a fetch leaves in the staging buffer does not depend on what the buffer held. -/
theorem fill0_eq (tt : Fin cfg1.N) (d d' : S6400x128.Idx → Elt F .f32) (b : (win1_0.xblock (grid1.coords tt)).Idx → Elt F .f32) :
    win1_0.fill (grid1.coords tt) d b = win1_0.fill (grid1.coords tt) d' b := by
  funext j; unfold Window.fill; rw [dif_pos (moved0 tt j), dif_pos (moved0 tt j)]

theorem before_0 (c : Dev nD) (tt : Fin cfg1.N) (d) :
    (dats g t o 0 c).before (0 : Fin 3) tt d = win1_0.fill (grid1.coords tt) d (blk0 g c tt) := by
  unfold Dat.before; rw [if_pos (fetch1_0 tt)]; rfl
theorem before_1 (c : Dev nD) (tt : Fin cfg1.N) (d) :
    (dats g t o 0 c).before (1 : Fin 3) tt d = blk1 t c tt := by
  unfold Dat.before; rw [if_pos (fetch1_1 tt)]; rfl
theorem before_2 (c : Dev nD) (tt : Fin cfg1.N) (d) : (dats g t o 0 c).before (2 : Fin 3) tt d = d := by
  unfold Dat.before
  rw [if_neg (by rw [fetch1_2 tt]; exact Bool.false_ne_true)]
  by_cases h0 : tt.val = 0
  · rw [if_pos h0]
  · rw [if_neg h0]; exact if_pos (flush1_2 _)

/-! ## The body obligation -/

theorem body_obligation (c : Dev nD) : BodyObligationLoose (dats g t o 0 c) (defs₀ (F := F)) 𝒱₀ none Set.univ := fun tt => by
  rw [bigSep_W1, bigSep_W1]
  simp only
  rw [show (dats g t o 0 c).Φ tt.succ = (dats g t o 0 c).Φ tt.castSucc from rfl,
    show (dats g t o 0 c).owesAt none tt.succ = (dats g t o 0 c).owesAt none tt.castSucc from rfl]
  iintro ⟨HΦ, Ho, ⟨%d0, H0⟩, ⟨%d1, H1⟩, ⟨%d2, H2⟩⟩
  rw [before_0 g t o c tt d0, before_1 g t o c tt d1, before_2 g t o c tt d2]
  iapply (sound_body (F := F) c Set.univ (grid1.coords tt) (cfg1.slots tt 0) (cfg1.slots tt 1) (cfg1.slots tt 2)
    (win1_0.fill (grid1.coords tt) d0 (blk0 g c tt)) (blk1 t c tt) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win1_0.cut (grid1.coords tt) (full0 g c tt) = blk0 g c tt := win1_0.cut_fill _ _ _
  have hf : win1_0.fill (grid1.coords tt) d0 (blk0 g c tt) = full0 g c tt := fill0_eq tt _ _ _
  isplitl [H0]
  · iexists d0
    change _ ⊢ owns (c : Thread nD τ) (stage1_0 (cfg1.slots tt 0)) fullShare (win1_0.fill (grid1.coords tt) d0 (win1_0.cut (grid1.coords tt) (full0 g c tt)))
    rw [hx]; try iexact H0
  isplitl [H1]
  · iexact H1
  · rw [hf]; iexact H2

/-! ## The blocks at explicit indices -/

/-- The block index maps at a point: block `tt` of rows for the two operands, block `tt` of columns for the result. -/
theorem index0 : ∀ tt : Fin cfg1.N, win1_0.index tt 0 = tt.val ∧ win1_0.index tt 1 = 0 :=
  (by decide +kernel : ∀ tt : Fin grid1.N, win1_0.index tt 0 = tt.val ∧ win1_0.index tt 1 = 0)
theorem index1 : ∀ tt : Fin cfg1.N, win1_1.index tt 0 = tt.val ∧ win1_1.index tt 1 = 0 :=
  (by decide +kernel : ∀ tt : Fin grid1.N, win1_1.index tt 0 = tt.val ∧ win1_1.index tt 1 = 0)
theorem index2 : ∀ tt : Fin cfg1.N, win1_2.index tt 0 = 0 ∧ win1_2.index tt 1 = tt.val :=
  (by decide +kernel : ∀ tt : Fin grid1.N, win1_2.index tt 0 = 0 ∧ win1_2.index tt 1 = tt.val)

theorem tt_lt (tt : Fin cfg1.N) : tt.val < 50 := Nat.lt_of_lt_of_eq tt.isLt N_1

/-- Row `q` of block `tt` of the gathered rows is row `6400 tt + q` of the array. -/
theorem full0_apply (c : Dev nD) (tt : Fin cfg1.N) (q : Fin 6400) (ch : Fin 128) :
    full0 g c tt (ix2 q ch) = g c (ix2 (⟨tt.val * 6400 + q.val, by have := tt_lt tt; omega⟩ : Fin 327680) ch) := by
  unfold full0 Window.fill
  rw [dif_pos (moved0 tt _)]
  unfold blk0
  rw [View.read_apply]
  show g c ((win1_0.rect tt).emb _) = _
  congr 1
  funext a
  apply Fin.ext
  rw [Window.rect_emb_val]
  match a with
  | ⟨0, _⟩ => show win1_0.index tt 0 * 6400 + q.val = tt.val * 6400 + q.val; rw [(index0 tt).1]
  | ⟨1, _⟩ => show win1_0.index tt 1 * 128 + ch.val = ch.val; rw [(index0 tt).2]; omega

/-- Row `r` of block `tt` of the table is row `200 tt + r` of the array. -/
theorem blk1_apply (c : Dev nD) (tt : Fin cfg1.N) (r : Fin 200) (ch : Fin 128) :
    blk1 t c tt (ix2 r ch) = t c (ix2 (⟨tt.val * 200 + r.val, by have := tt_lt tt; omega⟩ : Fin 10000) ch) := by
  unfold blk1
  rw [View.read_apply]
  show t c ((win1_1.rect tt).emb _) = _
  congr 1
  funext a
  apply Fin.ext
  rw [Window.rect_emb_val]
  match a with
  | ⟨0, _⟩ => show win1_1.index tt 0 * 200 + r.val = tt.val * 200 + r.val; rw [(index1 tt).1]
  | ⟨1, _⟩ => show win1_1.index tt 1 * 128 + ch.val = ch.val; rw [(index1 tt).2]; omega

/-- Column `q` of block `tt` of the result is column `6400 tt + q` of the array. -/
theorem emb2_apply (tt : Fin cfg1.N) (y : (win1_2.xblock (grid1.coords tt)).Idx) :
    (win1_2.blk tt).view.emb y
      = ix2 (⟨(y 0).val, (y 0).isLt⟩ : Fin 256) (⟨tt.val * 6400 + (y 1).val, by have := tt_lt tt; have : (y 1).val < 6400 := (y 1).isLt; show _ < 320000; omega⟩ : Fin 320000) := by
  show (win1_2.rect tt).emb y = _
  funext a
  apply Fin.ext
  rw [Window.rect_emb_val]
  match a with
  | ⟨0, _⟩ => show win1_2.index tt 0 * 256 + (y 0).val = (y 0).val; rw [(index2 tt).1]; omega
  | ⟨1, _⟩ => show win1_2.index tt 1 * 6400 + (y 1).val = tt.val * 6400 + (y 1).val; rw [(index2 tt).2]

omit [FloatOps F] in
theorem ix2_congr {n0 n1 : Nat} {a a' : Fin n0} {b b' : Fin n1} (ha : a.val = a'.val) (hb : b.val = b'.val) : ix2 a b = ix2 a' b' := by
  rw [Fin.ext ha, Fin.ext hb]

/-! ## The result array after the last write-back -/

/-- What point `tt` writes back is block `tt` of `tcOut`. -/
theorem flushed2 (c : Dev nD) (tt : Fin cfg1.N) :
    (dats g t o 0 c).flushed (2 : Fin 3) tt = (win1_2.blk tt).view.read (Elt F) (Cert.Spec.tcOut (g c) (t c)) := by
  funext y
  rw [View.read_apply, emb2_apply]
  show k1_pay1 (full0 g c tt) (blk1 t c tt) (win1_2.xinj (grid1.coords tt) y) = Cert.Spec.tcOut (g c) (t c) _
  rw [eq_ix2 (win1_2.xinj (grid1.coords tt) y)]
  have hq : (y 1).val < 6400 := (y 1).isLt
  have hc : (y 0).val < 256 := (y 0).isLt
  have htt := tt_lt tt
  refine (Val.k1_pay1_apply (full0 g c tt) (blk1 t c tt) ⟨(y 0).val, hc⟩ ⟨(y 1).val, hq⟩).trans ?_
  unfold Cert.Spec.tcOut
  by_cases h : (y 0).val < 128
  · rw [dif_pos h, dif_pos (show ((ix2 (⟨(y 0).val, hc⟩ : Fin 256) (⟨tt.val * 6400 + (y 1).val, by omega⟩ : Fin 320000)) 0).val < 128 from h)]
    rw [full0_apply, blk1_apply]
    refine congrArg₂ FloatOps.subf (congrArg (g c) (ix2_congr rfl rfl)) (congrArg (t c) (ix2_congr ?_ rfl))
    show tt.val * 200 + (y 1).val / 32 = (tt.val * 6400 + (y 1).val) / 32
    omega
  · rw [dif_neg h, dif_neg (show ¬ ((ix2 (⟨(y 0).val, hc⟩ : Fin 256) (⟨tt.val * 6400 + (y 1).val, by omega⟩ : Fin 320000)) 0).val < 128 from h)]
    rw [blk1_apply]
    refine congrArg (t c) (ix2_congr ?_ rfl)
    show tt.val * 200 + (y 1).val / 32 = (tt.val * 6400 + (y 1).val) / 32
    omega

theorem mem_blk2 (tt : Fin cfg1.N) (i : S256x320000.Idx) (h : tt.val * 6400 ≤ (i 1).val ∧ (i 1).val < tt.val * 6400 + 6400) :
    i ∈ (win1_2.blk tt).view.set := by
  show i ∈ ((View.whole main_v8).slice (win1_2.rect tt)).set
  rw [View.set_slice_whole, Rect.mem_set_unit]
  have hi0 : (i 0).val < 256 := (i 0).isLt
  intro a
  match a with
  | ⟨0, _⟩ =>
    show win1_2.index tt 0 * 256 ≤ (i 0).val ∧ (i 0).val < win1_2.index tt 0 * 256 + 256
    rw [(index2 tt).1]; omega
  | ⟨1, _⟩ =>
    show win1_2.index tt 1 * 6400 ≤ (i 1).val ∧ (i 1).val < win1_2.index tt 1 * 6400 + 6400
    rw [(index2 tt).2]; exact h

/-- The fifty blocks of columns cover the result, and each is written with its block of `tcOut`: the result ends
    holding `tcOut`. -/
theorem arrAt_final (c : Dev nD) : (dats g t o 0 c).arrAt (2 : Fin 3) cfg1.N = Cert.Spec.tcOut (g c) (t c) := by
  refine (dats g t o 0 c).arrAt_eq_of_cover (2 : Fin 3) (Cert.Spec.tcOut (g c) (t c)) (fun tt _ => flushed2 g t o c tt) fun i => ?_
  have hi1 : ((i : S256x320000.Idx) 1).val < 320000 := (i 1).isLt
  exact ⟨⟨((i : S256x320000.Idx) 1).val / 6400, Nat.lt_of_lt_of_eq (by omega) N_1.symm⟩, flush1_2 _,
    mem_blk2 _ i (by show ((i : S256x320000.Idx) 1).val / 6400 * 6400 ≤ _ ∧ _ < ((i : S256x320000.Idx) 1).val / 6400 * 6400 + 6400; omega)⟩

/-! ## The region -/

/-- What the TensorCore owes and has recorded when it is at the region: nothing owed, every recorded pair at a level
    at most that of the first call's handshakes. -/
def owesB (c : Dev nD) : sProp 𝕄 :=
  iprop(∃ W, ⌜(K (F := F)).WBelow (T c) W 8⌝ ∗ owes (T c : Thread nD τ) (0 : CellTallies nD τ sig (HIx 1)) W)

theorem share_eq (c : Dev nD) (w : Fin 3) : (dats g t o 0 c).share w = fullShare :=
  (dats g t o 0 c).share_full (fun _ => rfl) w

set_option backward.isDefEq.respectTransparency.types false in
/-- The region's record: the layout decided by the generated launch facts, no semaphore of the kernel's own, the
    body obligation; entered with the three arrays at `g`, `t`, `o` and left with the result at `tcOut`. -/
def reg : Pipeline.RegionSeg (pcfgs (F := F)) adm (dats g t o) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation g t o c
  hwaits := Pipeline.hwaits_of_owed_zero _ _ _ _ (K (F := F)).L (K (F := F)).lev 0 fun _ _ => rfl
  pre c := iprop(owesB c ∗ ((T c : Thread nD τ).loc main_v7 ↦{fullShare} g c) ∗ ((T c : Thread nD τ).loc main_v1 ↦{fullShare} t c)
    ∗ ((T c : Thread nD τ).loc main_v8 ↦{fullShare} o c))
  post c := iprop(owesB c ∗ ((T c : Thread nD τ).loc main_v7 ↦{fullShare} g c) ∗ ((T c : Thread nD τ).loc main_v1 ↦{fullShare} t c)
    ∗ ((T c : Thread nD τ).loc main_v8 ↦{fullShare} (Cert.Spec.tcOut (g c) (t c) : Buf (Elt F) ((T c : Thread nD τ).loc main_v8))))
  X _ := iprop(emp)
  Y _ := iprop(emp)
  Z _ := iprop(emp)
  hentry c := by
    rw [Pipeline.arrays_eq (Pipeline.pin (pcfgs (F := F)) adm) (dats g t o) 0 c launch1.arr_whole (share_eq g t o c), bigSep_W1]
    unfold owesB
    iintro ⟨⟨⟨%W, %hW, HO⟩, H7, H1, H8⟩, -, -⟩
    imodintro
    isplitl [H7 H1 H8]
    · isplitl [H7]; · iexact H7
      isplitl [H1]; · iexact H1
      iexact H8
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [Pipeline.arrays_eq (Pipeline.pin (pcfgs (F := F)) adm) (dats g t o) 0 c launch1.arr_whole (share_eq g t o c), bigSep_W1]
    rw [(dats g t o 0 c).arrAt_in (0 : Fin 3) rfl _, (dats g t o 0 c).arrAt_in (1 : Fin 3) rfl _]
    rw [show (dats g t o 0 c).arrAt (2 : Fin 3) (Pipeline.pin (pcfgs (F := F)) adm 0).N = Cert.Spec.tcOut (g c) (t c) from arrAt_final g t o c]
    unfold owesB Pipeline.Dat.owesAt Pipeline.owesWithin
    iintro ⟨⟨H7, H1, H8⟩, ⟨%W, %hW, HO⟩, -, -⟩
    imodintro
    isplitl [HO]
    · iexists W; isplitr
      · ipureintro
        intro p hp
        rcases hW hp with h | ⟨w, s, rfl⟩
        · exact h
        · exact Nat.zero_le _
      iexact HO
    isplitl [H7]; · iexact H7
    isplitl [H1]; · iexact H1
    iexact H8

/-! ## The pallas_call inside @main -/

/-- What the launch element hands the TensorCore of `d` for the region: the staging cells' rounds and the duty tokens
    of the pipeline's transfers. -/
def Greg (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_fin1 {M : Type} [URA M] (Φ : Fin 1 → sProp M) : bigSep Finset.univ Φ = Φ 0 := by
  rw [show (Finset.univ : Finset (Fin 1)) = {0} from by decide, bigSep_singleton]

/-- The launch element's pipeline component funds every device's cells and tokens. -/
theorem fund_Greg :
    (BI.own (EP (F := F) (initOf (Pipeline.cells cfgs cellOf_inj) (Pipeline.launchToks cfgs cellOf_inj))) : sProp 𝕄)
      ⊢ |==> bigSep Finset.univ fun d : Dev nD => Greg (F := F) d := by
  have e : (bigSep Finset.univ fun d : Dev nD => Greg (F := F) d)
      = iprop((bigSep Finset.univ fun c : Dev nD => bigSep Finset.univ fun p : Fin 1 => Pipeline.cellsGhost cfgs (EP (F := F)) p c)
          ∗ (bigSep Finset.univ fun c : Dev nD => bigSep Finset.univ fun p : Fin 1 => (Pipeline.toksInit cfgs (EP (F := F)) p c : sProp 𝕄))) := by
    unfold Greg; rw [bigSep_sep']; simp only [bigSep_fin1]
  rw [e]; exact Pipeline.fund_ghost cfgs (EP (F := F)) cellOf_inj

set_option backward.isDefEq.respectTransparency.types false in
theorem wp_tcRegionF (d : Dev nD) (Φ : PUnit → sProp 𝕄) :
    iprop(levAts (K (F := F)).L (K (F := F)).lev
        ∗ (K (F := F)).tcSt EH d 1 ∗ boundary (T d : Thread nD τ) ∗ Greg d
        ∗ ((T d : Thread nD τ).loc main_v7 ↦{fullShare} g d) ∗ ((T d : Thread nD τ).loc main_v1 ↦{fullShare} t d)
        ∗ ((T d : Thread nD τ).loc main_v8 ↦{fullShare} o d)
        ∗ (iprop((K (F := F)).tcSt EH d 1 ∗ boundary (T d : Thread nD τ)
              ∗ ((T d : Thread nD τ).loc main_v7 ↦{fullShare} g d) ∗ ((T d : Thread nD τ).loc main_v1 ↦{fullShare} t d)
              ∗ ((T d : Thread nD τ).loc main_v8 ↦{fullShare} (Cert.Spec.tcOut (g d) (t d) : Buf (Elt F) ((T d : Thread nD τ).loc main_v8))))
            -∗ Φ ⟨⟩))
      ⊢ wp frame (wpE ((K (F := F)).defs (D (F := F))) 𝒱 (T d) none) Set.univ
          (Prog.lift (.customCall (SparseCore.inner (Pipeline.entry 0)) ())) Φ := by
  unfold SparseCore.Cfg.tcSt Greg
  rw [(K (F := F)).Otc_end d (le_refl 1)]
  iintro ⟨#Hlev, ⟨⟨%W, %hW, HO⟩, Hrest⟩, Hb, ⟨Hcg, Htk⟩, H7, H1, H8, Hk⟩
  iapply ((K (F := F)).wp_liftProg (D (F := F)) 𝒱 (T d) Set.univ none (Prog.lift (.customCall (Pipeline.entry (0 : Fin 1)) ())) Φ)
  iapply (Pipeline.RegionSeg.wp (pcfgs (F := F)) adm (dats g t o) none cellOf_inj EP defs₀ 𝒱₀ (K (F := F)).L (K (F := F)).lev
    (reg g t o) d none (fun _ h => nomatch h) (fun x => Prog.ret x) Φ)
  isplitl [Hrest Hk]
  · unfold reg owesB; dsimp only
    iintro ⟨Hb, ⟨%W', %hW', HO⟩, H7, H1, H8⟩
    rw [wp_ret]; imodintro
    iapply Hk
    isplitl [HO Hrest]
    · isplitl [HO]
      · iexists W'; isplitr; · ipureintro; exact hW'
        iexact HO
      iexact Hrest
    isplitl [Hb]; · iexact Hb
    isplitl [H7]; · iexact H7
    isplitl [H1]; · iexact H1
    iexact H8
  isplitl [Hb]; · iexact Hb
  isplitl [HO H7 H1 H8]
  · unfold reg owesB; dsimp only
    isplitl [HO]
    · iexists W; isplitr; · ipureintro; exact hW
      iexact HO
    isplitl [H7]; · iexact H7
    isplitl [H1]; · iexact H1
    iexact H8
  isplitr; · iexact Hlev
  isplitl [Hcg]; · iexact Hcg
  iexact Htk

/-! ## The statement at one device's contents -/

/-- Contents given at device `d`, read at any device: the mesh has one. -/
def atDev (d : Dev nD) {b : Ref sig .tc} (x : Buf (Elt F) ((T d : Thread nD τ).loc b)) (c : Dev nD) : Buf (Elt F) ((T c : Thread nD τ).loc b) :=
  (Subsingleton.elim d c) ▸ x

omit [FloatOps F] in
theorem atDev_self (d : Dev nD) {b : Ref sig .tc} (x : Buf (Elt F) ((T d : Thread nD τ).loc b)) : atDev d x d = x := rfl

/-- **The TensorCore pallas_call inside @main.** From the level facts, the TensorCore's handshake state after the
    SparseCore call, the region boundary, the staging cells' ghost state and the three arrays — the gathered rows at
    `g`, the table at `t`, the result at anything —, the call runs to the same with the result at `tcOut g t`. -/
theorem wp_tcRegion (d : Dev nD) (g : Buf (Elt F) ((T d : Thread nD τ).loc main_v7)) (t : Buf (Elt F) ((T d : Thread nD τ).loc main_v1))
    (o : Buf (Elt F) ((T d : Thread nD τ).loc main_v8)) (Φ : PUnit → sProp 𝕄) :
    iprop(levAts (K (F := F)).L (K (F := F)).lev
        ∗ (K (F := F)).tcSt EH d 1 ∗ boundary (T d : Thread nD τ) ∗ Greg d
        ∗ ((T d : Thread nD τ).loc main_v7 ↦{fullShare} g) ∗ ((T d : Thread nD τ).loc main_v1 ↦{fullShare} t)
        ∗ ((T d : Thread nD τ).loc main_v8 ↦{fullShare} o)
        ∗ (iprop((K (F := F)).tcSt EH d 1 ∗ boundary (T d : Thread nD τ)
              ∗ ((T d : Thread nD τ).loc main_v7 ↦{fullShare} g) ∗ ((T d : Thread nD τ).loc main_v1 ↦{fullShare} t)
              ∗ ((T d : Thread nD τ).loc main_v8 ↦{fullShare} (Cert.Spec.tcOut g t : Buf (Elt F) ((T d : Thread nD τ).loc main_v8))))
            -∗ Φ ⟨⟩))
      ⊢ wp frame (wpE ((K (F := F)).defs (D (F := F))) 𝒱 (T d) none) Set.univ
          (Prog.lift (.customCall (SparseCore.inner (Pipeline.entry 0)) ())) Φ :=
  wp_tcRegionF (atDev d g) (atDev d t) (atDev d o) d Φ

end Cert.Kernel.Pf

end
-- ==== Proof.BMain.lean ====
/-
  @main on the TensorCore: the nine host operations (the table and the padded list computed), the SparseCore call
  (the two read shares and the chunks out, the gathered array back), the TensorCore call (the difference and own
  features, channels by flat position), the last reshape. The arguments end as they began and the result holds
  the kernel's function of them.
-/
import proofs.«213211_g18829136625754_cont_8to1_584_2_alg».proof.Proof.BHost
import proofs.«213211_g18829136625754_cont_8to1_584_2_alg».proof.Proof.BSplit
import proofs.«213211_g18829136625754_cont_8to1_584_2_alg».proof.Proof.BFinDef
import proofs.«213211_g18829136625754_cont_8to1_584_2_alg».proof.Proof.BRegion

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

open Idealize.ShloMosaic.StableHlo (held held_sub_split held_congr wp_hlo_within wp_seq launchContents after)

variable [FloatOps F]

abbrev T7 : Finset (DevRef τ sig) := {R main_arg0, R main_arg1, R main_v1, R main_v6, R main_v7, R main_v8, R main_v9}

omit [FloatOps F] in
theorem T7_sub : T7 ⊆ Pipeline.ucRefs τ sig := by
  intro b hb
  simp only [T7, Finset.mem_insert, Finset.mem_singleton] at hb
  rcases hb with rfl | rfl | rfl | rfl | rfl | rfl | rfl <;> exact StableHlo.devRef_mem_ucRefs _ rfl

omit [FloatOps F] in
/-- The seven arrays @main goes on with, out of all it holds. -/
theorem held_T7 (d : Dev nD) (V : Valuation τ sig (Elt F)) :
    (held (d.tc : Thread nD τ) (Pipeline.ucRefs τ sig) V : sProp 𝕄)
      ⊢ iprop((a0Loc d ↦{fullShare} V (R main_arg0)) ∗ (a1Loc d ↦{fullShare} V (R main_arg1)) ∗ (tLoc d ↦{fullShare} V (R main_v1))
        ∗ (pLoc d ↦{fullShare} V (R main_v6)) ∗ (oLoc d ↦{fullShare} V (R main_v7)) ∗ ((SparseCore.T d).loc main_v8 ↦{fullShare} V (R main_v8))
        ∗ ((SparseCore.T d).loc main_v9 ↦{fullShare} V (R main_v9))) := by
  rw [held_sub_split (d.tc : Thread nD τ) T7_sub V]
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  iintro ⟨H, -⟩
  iexact H

variable (m : (ℓ : Loc nD τ sig) → Buf (Elt F) ℓ) (ρ : Dev nD → PrngReg)

abbrev S89 : Finset (DevRef τ sig) := {R main_v8, R main_v9}

omit [FloatOps F] in
theorem held_S89 (d : Dev nD) (V : Valuation τ sig (Elt F)) :
    (held (SparseCore.T d) S89 V : sProp 𝕄) = iprop(((SparseCore.T d).loc main_v8 ↦{fullShare} V (R main_v8)) ∗ (rLoc d ↦{fullShare} V (R main_v9))) := by
  unfold held S89
  rw [SparseCore.bigSep_insert' (by decide), bigSep_singleton]

theorem op9_sub : (op9 (F := F)).bufs ⊆ S89 := by
  rw [StableHlo.reshape_bufs]

/-- The arrays before the last reshape: the result of the TensorCore call in place. -/
def V9 (d : Dev nD) : Valuation τ sig (Elt F) :=
  Function.update (V1 m d) (R main_v8) (Cert.Spec.tcOut (gV m d) (tV m d) : S256x320000.Idx → F .f32)

theorem V9_v8 (d : Dev nD) : V9 m d (R main_v8) = (Cert.Spec.tcOut (gV m d) (tV m d) : S256x320000.Idx → F .f32) := Function.update_self _ _ _
theorem V9_v9 (d : Dev nD) : V9 m d (R main_v9) = V1 m d (R main_v9) := Function.update_of_ne (show R main_v9 ≠ R main_v8 by decide) _ _

/-- The last reshape's result: the kernel's function of the arguments. -/
theorem result_v9 (d : Dev nD) : (op9 (F := F)).result (V9 m d) (R main_v9) = Cert.Spec.kout (m (a0Loc d)) (m (a1Loc d)) := by
  rw [StableHlo.reshape_result, V9_v8]
  exact Cert.Kernel.Val.split_tcOut_eq_kout _ _

/-- What the call takes over both SparseCores, and what it brings back. -/
theorem st_eq (d : Dev nD) :
    (bigSep Finset.univ fun c : Fin ((K (F := F)).nCore 0) => (P m).st 0 d c)
      = iprop((bigSep Finset.univ fun c : Fin 2 => tLoc d ↦{Transfers.shareTok fullShare 2 c} tV m d)
          ∗ (bigSep Finset.univ fun c : Fin 2 => pLoc d ↦{Transfers.shareTok fullShare 2 c} pV m d) ∗ allChunks m d 0) := cores_eq m d 0
theorem dn_eq (d : Dev nD) :
    (bigSep Finset.univ fun c : Fin ((K (F := F)).nCore 0) => (P m).dn 0 d c)
      = iprop((bigSep Finset.univ fun c : Fin 2 => tLoc d ↦{Transfers.shareTok fullShare 2 c} tV m d)
          ∗ (bigSep Finset.univ fun c : Fin 2 => pLoc d ↦{Transfers.shareTok fullShare 2 c} pV m d) ∗ allChunks m d k0_t1_loop.trips) :=
  cores_eq m d k0_t1_loop.trips

theorem hmain (hP : Partition) (κ : GSem nD τ sig → ℕ) (d : Dev nD) :
    iprop((K (F := F)).ctx EH (P m) κ ∗ (K (F := F)).tcSt EH d 0 ∗ (K (F := F)).tcRes m ρ d ∗ Greg (F := F) d)
      ⊢ wp frame (wpE ((K (F := F)).defs (D (F := F))) 𝒱 (SparseCore.T d) none) Set.univ (main d)
          fun _ => iprop((K (F := F)).tcSt EH d 1 ∗ FIN m d) := by
  have e0 : after ops0 (launchContents m d) (R main_arg0) = m (a0Loc d) := V1_a0 m d
  have e1 : after ops0 (launchContents m d) (R main_arg1) = m (a1Loc d) := V1_a1 m d
  have e2 : after ops0 (launchContents m d) (R main_v1) = tV m d := V1_t m d
  have e3 : after ops0 (launchContents m d) (R main_v6) = pV m d := V1_p m d
  have e4 : after ops0 (launchContents m d) (R main_v7) = o0V m d := V1_o m d
  unfold SparseCore.Cfg.tcRes
  rw [show unscopedBufs d (fun b => m ((SparseCore.T d).loc b)) = held (SparseCore.T d) (Pipeline.ucRefs τ sig) (launchContents m d) from
    Pipeline.unscopedBufs_held d (launchContents m d), main_eq]
  iintro ⟨#Hctx, Hst, ⟨Hb, Hheld, -, -⟩, HG⟩
  ihave #Hlev := (SparseCore.Cfg.ctx_levAts κ) $$ Hctx
  iapply (wp_seq 𝒱 none Set.univ d (Pipeline.ucRefs τ sig) _ ops0 ops0_sub ops0_fresh (launchContents m d)) $$ [Hb Hheld]
  · isplitl [Hb]; · iexact Hb
    iexact Hheld
  iintro ⟨Hb, Hheld⟩
  ihave Hh := (held_T7 d (after ops0 (launchContents m d))) $$ Hheld
  rw [e0, e1, e2, e3, e4]
  icases Hh with ⟨Ha0, Ha1, Ht, Hp, Ho, Hv8, Hv9⟩
  -- the read shares, one per SparseCore; the gathered array as its chunks
  ihave Ht' := (Transfers.pointsTo_toks fullShare 2).1 $$ Ht
  icases Ht' with ⟨Htd, Hts⟩
  ihave Hp' := (Transfers.pointsTo_toks fullShare 2).1 $$ Hp
  icases Hp' with ⟨Hpd, Hps⟩
  ihave Hch := (Entails.of_eq (allChunks_zero m hP d).symm) $$ Ho
  simp only [wp_bind, wp_pure]
  iapply ((K (F := F)).wp_run (D (F := F)) 𝒱 (EH := EH) (P := P m) κ d 0) $$ [Hst Hts Hps Hch Hb Htd Hpd Ha0 Ha1 Hv8 Hv9 HG]
  isplitr; · iexact Hctx
  isplitl [Hst]; · iexact Hst
  isplitl [Hts Hps Hch]
  · rw [st_eq]
    isplitl [Hts]; · iexact Hts
    isplitl [Hps]; · iexact Hps
    iexact Hch
  iintro ⟨Hst, Hdn⟩
  ihave Hdn' := (Entails.of_eq (dn_eq m d)) $$ Hdn
  icases Hdn' with ⟨Hts, Hps, Hch⟩
  ihave Ho := (Entails.of_eq (allChunks_all m hP d)) $$ Hch
  ihave Ht := (Transfers.pointsTo_toks fullShare 2).2 $$ [Htd Hts]
  · isplitl [Htd]; · iexact Htd
    iexact Hts
  ihave Hp := (Transfers.pointsTo_toks fullShare 2).2 $$ [Hpd Hps]
  · isplitl [Hpd]; · iexact Hpd
    iexact Hps
  -- the TensorCore call: from the gathered array and the table, the result array
  iapply (wp_tcRegion d (gV m d) (tV m d) (after ops0 (launchContents m d) (R main_v8)) _) $$ [Hst Hb HG Ho Ht Hv8 Ha0 Ha1 Hv9 Hp]
  isplitr; · iexact Hlev
  isplitl [Hst]; · iexact Hst
  isplitl [Hb]; · iexact Hb
  isplitl [HG]; · iexact HG
  isplitl [Ho]; · iexact Ho
  isplitl [Ht]; · iexact Ht
  isplitl [Hv8]; · iexact Hv8
  iintro ⟨Hst, Hb, Ho, Ht, Hv8⟩
  -- the last reshape: the flat position split into point and neighbour
  iapply (wp_hlo_within 𝒱 (SparseCore.T d) none Set.univ (op := op9) (S := S89) op9_sub (V := V9 m d)) $$ [Hb Hv8 Hv9]
  · isplitl [Hb]; · iexact Hb
    rw [held_S89, V9_v8, V9_v9]
    isplitl [Hv8]; · iexact Hv8
    iexact Hv9
  iintro ⟨Hb, Hheld⟩
  ihave Hh := (Entails.of_eq (held_S89 d _)) $$ Hheld
  rw [result_v9]
  icases Hh with ⟨-, Hr⟩
  rw [wp_ret]; imodintro; imodintro
  isplitl [Hst]; · iexact Hst
  unfold FIN
  isplitl [Ha0]; · iexact Ha0
  isplitl [Ha1]; · iexact Ha1
  iexact Hr

end Cert.Kernel.Pf

end
-- ==== Proof.BFin.lean ====
/-
  How the final memory reads the claim: a device that holds its two arguments and its result array in full, at
  the launch values and at the kernel's function of them, has exactly those contents in memory.
-/
import proofs.«213211_g18829136625754_cont_8to1_584_2_alg».proof.Proof.BFinDef

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

variable (m : (ℓ : Loc nD τ sig) → Buf (Elt F) ℓ)

/-- The final memory of device `d`: the result array at the kernel's function of the arguments, the arguments
    as at the launch. -/
def fq (d : Dev nD) (s' : Phys nD τ sig (Elt F)) : Prop :=
  s'.mem.mem (rLoc d) = Cert.Spec.kout (m (a0Loc d)) (m (a1Loc d)) ∧ s'.mem.mem (a0Loc d) = m (a0Loc d)
    ∧ s'.mem.mem (a1Loc d) = m (a1Loc d)

/-- Full ownership of the three arrays at given contents, beside the state interpretation, says the memory holds
    those contents. -/
theorem hfin (d : Dev nD) (s' : Phys nD τ sig (Elt F)) : iprop(FIN m d ∗ SI s') ⊢ (⌜fq m d s'⌝ : sProp 𝕄) := by
  unfold FIN
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare)
    (f := Cert.Spec.kout (m (a0Loc d)) (m (a1Loc d)))) $$ [HSI Hr]
  · isplitl [HSI] <;> iassumption
  icases H with %h2
  ipureintro
  exact ⟨funext fun i => h2 i (Finset.mem_univ i), funext fun i => h0 i (Finset.mem_univ i),
    funext fun i => h1 i (Finset.mem_univ i)⟩

/-- The claim about the run's final memory: on every device the result array is the kernel's function of the
    arguments and the arguments are unchanged. -/
def QC : PUnit × MemSt nD τ sig (Elt F) → Prop := fun r =>
  ∀ c : Dev nD, r.2.mem (rLoc c) = Cert.Spec.kout (m (a0Loc c)) (m (a1Loc c)) ∧ r.2.mem (a0Loc c) = m (a0Loc c)
    ∧ r.2.mem (a1Loc c) = m (a1Loc c)

/-- Every device's final memory reading as above is the claim. -/
theorem hQC : ∀ s' : Phys nD τ sig (Elt F), (∀ d, fq m d s') → QC m (⟨⟩, s'.mem) := fun _ h => h

end Cert.Kernel.Pf

end
-- ==== Proof.BElem.lean ====
/-
  The launch element of the ghost state and what it funds: the rounds of the launch handshakes, the rounds and duty
  tokens of the TensorCore pipeline's staging cells, and a unit for the transfer counters. Owning it yields, after an
  update, the handshakes' part as it is, every device's share of the pipeline's cells and tokens, and the (empty)
  extra resources of the handshakes' payloads.
-/
import proofs.«213211_g18829136625754_cont_8to1_584_2_alg».proof.Proof.BPay
import proofs.«213211_g18829136625754_cont_8to1_584_2_alg».proof.Proof.BRegion

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

variable (m : (ℓ : Loc nD τ sig) → Buf (Elt F) ℓ)

/-- The launch element: the handshakes' rounds, beside the staging cells' rounds and tokens and the unit counters. -/
def u₀ : UU :=
  (initOf (K (F := F)).hsCells (K (F := F)).hsToks,
    (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

/-- Owning the launch element funds the handshakes, every device's pipeline cells and tokens, and the payloads' extras. -/
theorem hu₀ : (ownU (u₀ (F := F)) : sProp 𝕄)
    ⊢ |={Set.univ}=> iprop(BI.own (EH (initOf (K (F := F)).hsCells (K (F := F)).hsToks))
        ∗ (bigSep Finset.univ fun d : Dev nD => Greg (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (fund_Greg (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Pf

end
-- ==== Proof.BLanded.lean ====
/-
  What one trip of a tile leaves on its chunk of the gathered array.

  Trip `k` of tile `L` works on row `r = 160 * L 1 + 80 * L 0 + k` of the padded list. It copies that row (128 words)
  into the index scratch, gathers into the row scratch, for each word, the table row the word names, and copies the
  row scratch onto rows `128 * r, …, 128 * r + 127` of the gathered array. So the element of the chunk at local
  place `(y0, y1)`, which is element `(128 * r + y0, y1)` of the array, holds the table at row `ip[r, y0]`,
  column `y1`. As `(128 * r + y0) / 128 = r` and `(128 * r + y0) % 128 = y0`, and a word that is already a row
  number is its own clamp, this is `gath t ip` there.
-/
import proofs.«213211_g18829136625754_cont_8to1_584_2_alg».proof.Proof.BChunks
import Idealize.ShloMosaic.Lib.ValueLayout

noncomputable section

namespace Cert.Kernel.Pf

open Cert.Kernel Cert.Kernel.Gen

open Idealize.ShloMosaic Idealize.ShloMosaic.ValueIdx

variable {F : FTy → Type}

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

/-! ## Reading back one whole write, and the list's row in the index scratch -/

/-- One write of the whole shape through a view reads back as its payload. -/
theorem read_writes_whole {sig : RefSig} {κ : Kind} {sp : Space} {s : Shape} {e : EltTy} {Val : EltTy → Type}
    (v : View sig κ sp s e) (f : v.ty.Contents Val) (w : s.Idx → Val e) (y : s.Idx) :
    v.read Val (v.writes Val f [⟨Rect.whole s, w⟩]) y = w y := by
  have h := View.read_writes_cons_emb v f (Rect.whole s) w [] y
  rwa [Rect.emb_whole_apply] at h

/-- The number of the list's row that trip `k` of tile `L` works on. -/
abbrev rowNo (L : grid0.Coords) (k : Fin k0_t1_loop.trips) : Nat := 160 * (L 1).val + 80 * (L 0).val + k.val

theorem rowNo_lt (L : grid0.Coords) (k : Fin k0_t1_loop.trips) : rowNo L k < 2560 := by
  have h := k0_off1_inb L k 0
  rw [k0_off1_eq] at h
  have h' : rowNo L k + 1 ≤ 2560 := h
  omega

theorem off1_zero (L : grid0.Coords) (k : Fin k0_t1_loop.trips) : k0_off1 L k 0 = rowNo L k := by
  rw [k0_off1_eq]; rfl
theorem off1_one (L : grid0.Coords) (k : Fin k0_t1_loop.trips) : k0_off1 L k 1 = 0 := by
  rw [k0_off1_eq]; rfl
theorem off2_zero (L : grid0.Coords) (k : Fin k0_t1_loop.trips) : k0_off2 L k 0 = 128 * rowNo L k := by
  rw [k0_off2_eq]
  show 20480 * (L 1).val + 10240 * (L 0).val + 128 * k.val = 128 * (160 * (L 1).val + 80 * (L 0).val + k.val)
  omega
theorem off2_one (L : grid0.Coords) (k : Fin k0_t1_loop.trips) : k0_off2 L k 1 = 0 := by
  rw [k0_off2_eq]; rfl

/-- A vector index matched with the `[1, 128]` shape is `(0, ·)`. -/
theorem reshapeEquiv_128_1x128 (h : (⟨1, ![128]⟩ : Shape).numel = (⟨2, ![1, 128]⟩ : Shape).numel) (z : Fin 128) :
    Shape.reshapeEquiv h (ix1 z) = ix2 (0 : Fin 1) z :=
  Shape.reshapeEquiv_eq_of_rowMajor h (by
    rw [Shape.rowMajor_val_two, Shape.rowMajor_val_one]
    show 0 * 128 + z.val = z.val
    omega)

/-- The index scratch after the fetch holds the list's row: word `z` is `ip[r, z]`. -/
theorem fetched_apply (L : grid0.Coords) (k : Fin k0_t1_loop.trips) (ip : S2560x128.Idx → BitVec 32)
    (fs : S128.Idx → BitVec 32) (z : Fin 128) :
    fetched (F := F) L k ip fs (ix1 z) = ip (ix2 (⟨rowNo L k, rowNo_lt L k⟩ : Fin 2560) z) := by
  show View.read (Elt F) (sI).view (View.write (Elt F) (sI).view fs
    (ReadAs.same.apply (View.read (Elt F) (pRow L k).view ip)) Finset.univ) (ix1 z) = _
  rw [View.read_write_univ, ReadAs.apply_same]
  show ip ((pRow L k).view.emb (ix1 z)) = _
  refine congrArg ip (funext fun a => Fin.ext ?_)
  show k0_off1 L k a + 1 * ((Shape.reshapeEquiv squeezes_S1x128_S128.numel_eq (ix1 z)) a).val = _
  rw [reshapeEquiv_128_1x128]
  match a with
  | ⟨0, _⟩ => show k0_off1 L k 0 + 1 * 0 = rowNo L k; rw [off1_zero]; omega
  | ⟨1, _⟩ => show k0_off1 L k 1 + 1 * z.val = z.val; rw [off1_one]; omega

/-! ## The chunk after the trip -/

/-- The row a word names under the gather: entry `j` of the rows of the fetched words is the word's value. -/
theorem rows_fetched_val (L : grid0.Coords) (k : Fin k0_t1_loop.trips) (ip : S2560x128.Idx → BitVec 32)
    (fs : S128.Idx → BitVec 32) (hn : S128.numel = S128x128.size gathers_S10000x128_S128x128.axis')
    (hr : ∀ x, (fetched (F := F) L k ip fs x).toNat < S10000x128.size gathers_S10000x128_S128x128.axis)
    (j : Fin (S128x128.size gathers_S10000x128_S128x128.axis')) (z : Fin 128) (hz : z.val = j.val) :
    (SparseCore.rows (F := F) (fetched (F := F) L k ip fs) hn hr j).val
      = (ip (ix2 (⟨rowNo L k, rowNo_lt L k⟩ : Fin 2560) z)).toNat := by
  have e : S128.rowMajor.symm (j.cast hn.symm) = ix1 z := by
    apply S128.rowMajor.injective
    rw [Equiv.apply_symm_apply]
    refine Fin.ext ?_
    rw [Shape.rowMajor_val_one]
    exact hz.symm
  show (fetched (F := F) L k ip fs (S128.rowMajor.symm (j.cast hn.symm))).toNat = _
  rw [e, fetched_apply]

/-- What the trip leaves on its chunk is the gathered array there. -/
theorem landed_eq (L : grid0.Coords) (k : Fin k0_t1_loop.trips) (t : S10000x128.Idx → F .f32)
    (ip : S2560x128.Idx → BitVec 32) (o0 : S327680x128.Idx → F .f32) (fs : S128.Idx → BitVec 32)
    (fr : S128x128.Idx → F .f32) (hn : S128.numel = S128x128.size gathers_S10000x128_S128x128.axis')
    (hr : ∀ x, (fetched (F := F) L k ip fs x).toNat < S10000x128.size gathers_S10000x128_S128x128.axis)
    (hin : ∀ j, (ip j).toNat ≤ 9999) :
    ∀ x ∈ chunkSet L k, landed (F := F) L k t ip o0 fs fr hn hr x = Cert.Spec.gath t ip x := by
  intro x hx
  obtain ⟨y, rfl⟩ := View.exists_emb_of_mem_set (oChunk L k).view hx
  obtain ⟨y0, y1, rfl⟩ : ∃ (y0 : Fin 128) (y1 : Fin 128), y = ix2 y0 y1 := ⟨y 0, y 1, eq_ix2 y⟩
  -- the chunk's element reads the row scratch, the row scratch the gather's payload
  have hA : landed (F := F) L k t ip o0 fs fr hn hr ((oChunk L k).view.emb (ix2 y0 y1))
      = SparseCore.gatherPayload gathers_S10000x128_S128x128 (View.read (Elt F) (tSl).view t)
          (SparseCore.rows (F := F) (fetched (F := F) L k ip fs) hn hr) (ix2 y0 y1) := by
    show View.read (Elt F) (oChunk L k).view ((oChunk L k).view.writes (Elt F) o0 [⟨Rect.whole S128x128, _⟩]) (ix2 y0 y1) = _
    rw [read_writes_whole, ReadAs.apply_same]
    exact read_writes_whole _ _ _ _
  rw [hA]
  -- both sides are the table at one index
  show t ((tSl).view.emb (gathers_S10000x128_S128x128.idx
      (SparseCore.rows (F := F) (fetched (F := F) L k ip fs) hn hr) (ix2 y0 y1))) = _
  refine congrArg t (funext fun a => Fin.ext ?_)
  have hX0 : (((oChunk L k).view.emb (ix2 y0 y1)) 0).val = 128 * rowNo L k + y0.val := by
    show k0_off2 L k 0 + 1 * y0.val = _
    rw [off2_zero]; omega
  have hy0 := y0.isLt
  have hrow := rowNo_lt L k
  match a with
  | ⟨0, _⟩ =>
    show 0 + 1 * (gathers_S10000x128_S128x128.idx (SparseCore.rows (F := F) (fetched (F := F) L k ip fs) hn hr) (ix2 y0 y1)
      gathers_S10000x128_S128x128.axis).val = (Cert.Spec.rowOf _).val
    rw [Shape.Gathers.idx_axis, rows_fetched_val L k ip fs hn hr _ y0 rfl, Cert.Spec.rowOf_of_le (hin _)]
    have e : (ix2 (⟨rowNo L k, rowNo_lt L k⟩ : Fin 2560) y0 : S2560x128.Idx)
        = ix2 (⟨(((oChunk L k).view.emb (ix2 y0 y1)) 0).val / 128, by omega⟩ : Fin 2560)
            (⟨(((oChunk L k).view.emb (ix2 y0 y1)) 0).val % 128, Nat.mod_lt _ (by norm_num)⟩ : Fin 128) :=
      congrArg₂ ix2 (Fin.ext (by show rowNo L k = _ / 128; omega)) (Fin.ext (by show y0.val = _ % 128; omega))
    rw [e]
    omega
  | ⟨1, _⟩ =>
    show 0 + 1 * (gathers_S10000x128_S128x128.idx (SparseCore.rows (F := F) (fetched (F := F) L k ip fs) hn hr) (ix2 y0 y1)
      (1 : Fin 2)).val = k0_off2 L k 1 + 1 * y1.val
    have e1 := Shape.Gathers.idx_of_ne gathers_S10000x128_S128x128
      (SparseCore.rows (F := F) (fetched (F := F) L k ip fs) hn hr) (ix2 y0 y1) (1 : Fin 2) (by decide)
    rw [off2_one, e1]
    rfl

end Cert.Kernel.Pf

end
-- ==== Proof.BCover.lean ====
/-
  The chunks of the gathered array, one per tile and trip, are pairwise disjoint and cover it.

  Trip `k` of the tile at SparseCore `c`, subcore `s` writes rows `128 * r, …, 128 * r + 127` (all 128 columns) of
  the `[327680, 128]` array, with `r = 160 * s + 80 * c + k`. As `c < 2`, `s < 16`, `k < 80`, the map
  `(c, s, k) ↦ r` is a bijection onto `[0, 2560)` (`k = r % 80`, `c = r % 160 / 80`, `s = r / 160`), and the 2560
  row blocks of 128 partition the 327680 rows.
-/
import proofs.«213211_g18829136625754_cont_8to1_584_2_alg».proof.Proof.BChunks
import Idealize.ShloMosaic.Lib.ValueLayout

noncomputable section

namespace Cert.Kernel.Pf

open Cert.Kernel Cert.Kernel.Gen

open Idealize.ShloMosaic Idealize.ShloMosaic.ValueIdx

variable {F : FTy → Type}

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

/-- The loop has 80 trips. -/
theorem trips_eq : k0_t1_loop.trips = 80 := by decide

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- A chunk starts at row `128 * r`, `r = 160 * L 1 + 80 * L 0 + k`, column 0. -/
theorem chunk_off_zero (L : grid0.Coords) (k : Fin k0_t1_loop.trips) :
    k0_off2 L k 0 = 128 * (160 * (L 1).val + 80 * (L 0).val + k.val) := by
  rw [k0_off2_eq]
  show 20480 * (L 1).val + 10240 * (L 0).val + 128 * k.val = 128 * (160 * (L 1).val + 80 * (L 0).val + k.val)
  omega
theorem chunk_off_one (L : grid0.Coords) (k : Fin k0_t1_loop.trips) : k0_off2 L k 1 = 0 := by
  rw [k0_off2_eq]; rfl

/-- A chunk by coordinates: the 128 rows from `128 * r`, every column. -/
theorem mem_chunkSet (L : grid0.Coords) (k : Fin k0_t1_loop.trips) (i : S327680x128.Idx) :
    i ∈ chunkSet L k ↔ 128 * (160 * (L 1).val + 80 * (L 0).val + k.val) ≤ (i 0).val
      ∧ (i 0).val < 128 * (160 * (L 1).val + 80 * (L 0).val + k.val) + 128 := by
  have hs : chunkSet L k = (Rect.unit (s := S327680x128) (k0_off2 L k) S128x128.size (k0_off2_inb L k)).set :=
    View.set_slice_whole main_v7_scv _
  rw [hs, Rect.mem_set_unit]
  constructor
  · intro h
    have h0 := h 0
    rw [chunk_off_zero] at h0
    exact h0
  · intro h a
    have ha : a = 0 ∨ a = 1 := by
      match a with
      | ⟨0, _⟩ => exact Or.inl rfl
      | ⟨1, _⟩ => exact Or.inr rfl
    rcases ha with rfl | rfl
    · rw [chunk_off_zero]; exact h
    · rw [chunk_off_one]
      have h1 : (i 1).val < 128 := (i 1).isLt
      exact ⟨Nat.zero_le _, by show (i 1).val < 0 + 128; omega⟩

/-- A tile (SparseCore, subcore) and a trip. -/
abbrev TripIx : Type := Fin (grid0.bound 0) × Fin (grid0.bound 1) × Fin k0_t1_loop.trips

/-- The chunk of a tile's trip. -/
abbrev tripChunk (a : TripIx) : Finset S327680x128.Idx := chunkSet (coordsV a.1 a.2.1) a.2.2

/-- Different trips write disjoint chunks. -/
theorem chunk_disjoint : ∀ a ∈ (Finset.univ : Finset TripIx), ∀ b ∈ (Finset.univ : Finset TripIx), a ≠ b →
    Disjoint (tripChunk a) (tripChunk b) := by
  intro a _ b _ hab
  rw [Finset.disjoint_left]
  intro i hia hib
  obtain ⟨c, s, k⟩ := a
  obtain ⟨c', s', k'⟩ := b
  rw [mem_chunkSet, coordsV_zero, coordsV_one] at hia hib
  dsimp only at hia hib
  have hc : c.val < 2 := c.isLt
  have hc' : c'.val < 2 := c'.isLt
  have hs : s.val < 16 := s.isLt
  have hs' : s'.val < 16 := s'.isLt
  have hk : k.val < 80 := trips_eq ▸ k.isLt
  have hk' : k'.val < 80 := trips_eq ▸ k'.isLt
  apply hab
  have e1 : c = c' := Fin.ext (by omega)
  have e2 : s = s' := Fin.ext (by omega)
  have e3 : k = k' := Fin.ext (by omega)
  rw [e1, e2, e3]

/-- The chunks cover the gathered array. -/
theorem chunk_cover : (Finset.univ : Finset TripIx).biUnion tripChunk = Finset.univ := by
  rw [Finset.eq_univ_iff_forall]
  intro i
  rw [Finset.mem_biUnion]
  have h0 : (i 0).val < 327680 := (i 0).isLt
  refine ⟨(⟨(i 0).val / 128 % 160 / 80, by show _ < 2; omega⟩, ⟨(i 0).val / 128 / 160, by show _ < 16; omega⟩,
    ⟨(i 0).val / 128 % 160 % 80, by rw [trips_eq]; omega⟩), Finset.mem_univ _, ?_⟩
  rw [mem_chunkSet, coordsV_zero, coordsV_one]
  show 128 * (160 * ((i 0).val / 128 / 160) + 80 * ((i 0).val / 128 % 160 / 80) + (i 0).val / 128 % 160 % 80) ≤ (i 0).val
    ∧ (i 0).val < 128 * (160 * ((i 0).val / 128 / 160) + 80 * ((i 0).val / 128 % 160 / 80) + (i 0).val / 128 % 160 % 80) + 128
  omega

end Cert.Kernel.Pf

end
-- ==== Proof.BRun.lean ====
/-
  The kernel's run: under "every neighbour word is a row number of the table", every weakly fair execution of
  the device's threads terminates, nothing faulting, the arguments unchanged and the result array at the kernel's
  function `kout` of them — the SparseCore launch theorem at the one gather call, its tile obligation the loop
  over the tile's chunks, @main the host operations, the two calls and the last reshape.
-/
import proofs.«213211_g18829136625754_cont_8to1_584_2_alg».proof.Proof.BMain
import proofs.«213211_g18829136625754_cont_8to1_584_2_alg».proof.Proof.BFin
import proofs.«213211_g18829136625754_cont_8to1_584_2_alg».proof.Proof.BElem
import proofs.«213211_g18829136625754_cont_8to1_584_2_alg».proof.Proof.BLanded
import proofs.«213211_g18829136625754_cont_8to1_584_2_alg».proof.Proof.BCover
import proofs.«213211_g18829136625754_cont_8to1_584_2_alg».proof.Proof.PreIdx

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S10000x128 EltTy.f32)
local notation "pW" => (Memref.whole Cert.Kernel.main_v6_scv : Memref Cert.Kernel.sig Kind.scVector Space.hbm Cert.Kernel.S2560x128 EltTy.i32)
local notation "oW" => (Memref.whole Cert.Kernel.main_v7_scv : Memref Cert.Kernel.sig Kind.scVector Space.hbm Cert.Kernel.S327680x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

variable (m : (ℓ : Loc nD τ sig) → Buf (Elt F) ℓ) (ρ : Dev nD → PrngReg)

omit [FloatOps F] in
theorem partition : Partition := ⟨chunk_disjoint, chunk_cover⟩

omit [FloatOps F] in
theorem valOK (hpre : PreOK m) : ValOK m :=
  fun d L k fs fr hn hr => landed_eq L k (tV m d) (pV m d) (o0V m d) fs fr hn hr (pV_le m hpre d)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre (valOK m hpre))
    (fun q _ => match q with | 0 => SparseCore.Cfg.VecSplit.of_plain (vecSplit m))
    m ρ main (fun d => Greg (F := F) d) (FIN m) (u₀ (F := F)) (sep_elim_left.trans (hu₀ m)) (hmain m ρ partition) (fq m) (hfin m) (QC m) (hQC m)

/-- The precondition's integer conjunct, read at every neighbour word. -/
theorem preOK_of_pre [Cert.Pre_input_domain.Facts]
    (h : ∀ c : Dev nD, Cert.Pre_input_domain.fn (F := F) (m ((c.tc : Thread nD τ).loc main_arg0)) (m ((c.tc : Thread nD τ).loc main_arg1)) = fun _ => 1#1) :
    PreOK m := fun d j => Cert.Proof.PreIdx.idx_le _ _ (h d) j

end Cert.Kernel.Pf

end
-- ==== Proof.RefOps.lean ====
/-
  The reference's @main as the list of its 39 host operations (the two outlined functions' bodies, take and where,
  inlined at their call sites over the call's buffers), and its run: every weakly fair execution terminates with each
  buffer at the fold of the operations over the launch contents.
-/
import proofs.«213211_g18829136625754_cont_8to1_584_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The concatenation of two arrays on the channel axis, as a function of the two (the 38th operation's). -/
def cat2 (a b : (⟨S1x10000x32x128, .f32⟩ : BufTy).Contents (Elt F)) : (⟨S1x10000x32x256, .f32⟩ : BufTy).Contents (Elt F) :=
  concatenate S1x10000x32x256 3 [⟨S1x10000x32x128, a⟩, ⟨S1x10000x32x128, b⟩] concatenates_S1x10000x32x128_S1x10000x32x128_S1x10000x32x256_d3

/-- @main's 39 operations, in order: ten of its own, the 23 of take (the 17th the select of where), six of its own. -/
abbrev ops : List (HloOp τ sig (Elt F)) :=
  [ nullary main_v0 (iotaInDim S1 32 0),
    nullary main_c (constantI S_ 32 10000#32),
    unary main_c main_v1 (broadcastInDim S1 ![] bcast_S_S1 : (⟨S_, .i32⟩ : BufTy).Contents (Elt F) → (⟨S1, .i32⟩ : BufTy).Contents (Elt F)),
    binary main_v0 main_v1 main_v2 (muli : (⟨S1, .i32⟩ : BufTy).Contents (Elt F) → (⟨S1, .i32⟩ : BufTy).Contents (Elt F) → (⟨S1, .i32⟩ : BufTy).Contents (Elt F)),
    reshape main_v2 main_v3 rfl shapeCasts_S1_S1x1x1,
    unary main_v3 main_v4 (broadcastInDim S1x10000x32 ![0, 1, 2] bcast_S1x1x1_S1x10000x32_0_1_2 : (⟨S1x1x1, .i32⟩ : BufTy).Contents (Elt F) → (⟨S1x10000x32, .i32⟩ : BufTy).Contents (Elt F)),
    binary main_arg1 main_v4 main_v5 (addi : (⟨S1x10000x32, .i32⟩ : BufTy).Contents (Elt F) → (⟨S1x10000x32, .i32⟩ : BufTy).Contents (Elt F) → (⟨S1x10000x32, .i32⟩ : BufTy).Contents (Elt F)),
    reshape main_v5 main_v6 rfl shapeCasts_S1x10000x32_S320000,
    unary main_arg0 main_v7 ((transpose S1x10000x128 [0, 2, 1] · transposes_S1x128x10000_S1x10000x128_0_2_1) : (⟨S1x128x10000, .f32⟩ : BufTy).Contents (Elt F) → (⟨S1x10000x128, .f32⟩ : BufTy).Contents (Elt F)),
    reshape main_v7 main_v8 rfl shapeCasts_S1x10000x128_S10000x128,
    TRef.nullary main_call0.c (constantI S_ 32 0#32),
    TRef.unary main_call0.c main_call0.v0 (broadcastInDim S320000 ![] bcast_S_S320000),
    TRef.binary (.of main_v6) main_call0.v0 main_call0.v1 (cmpi .slt),
    TRef.nullary main_call0.c_0 (constantI S_ 32 10000#32),
    TRef.unary main_call0.c_0 main_call0.v2 (broadcastInDim S320000 ![] bcast_S_S320000),
    TRef.binary (.of main_v6) main_call0.v2 main_call0.v3 addi,
    TRef.ternary main_call0.v1 main_call0.v3 (.of main_v6) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_v8) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    reshape main_v9 main_v10 rfl shapeCasts_S320000x128_S1x10000x32x128,
    reshape main_v8 main_v11 rfl shapeCasts_S10000x128_S1x10000x1x128,
    unary main_v11 main_v12 (broadcastInDim S1x10000x32x128 ![0, 1, 2, 3] bcast_S1x10000x1x128_S1x10000x32x128_0_1_2_3 : (⟨S1x10000x1x128, .f32⟩ : BufTy).Contents (Elt F) → (⟨S1x10000x32x128, .f32⟩ : BufTy).Contents (Elt F)),
    binary main_v10 main_v12 main_v13 (subf : (⟨S1x10000x32x128, .f32⟩ : BufTy).Contents (Elt F) → (⟨S1x10000x32x128, .f32⟩ : BufTy).Contents (Elt F) → (⟨S1x10000x32x128, .f32⟩ : BufTy).Contents (Elt F)),
    binary main_v13 main_v12 main_v14 (cat2 : (⟨S1x10000x32x128, .f32⟩ : BufTy).Contents (Elt F) → (⟨S1x10000x32x128, .f32⟩ : BufTy).Contents (Elt F) → (⟨S1x10000x32x256, .f32⟩ : BufTy).Contents (Elt F)),
    unary main_v14 main_v15 ((transpose S1x256x10000x32 [0, 3, 1, 2] · transposes_S1x10000x32x256_S1x256x10000x32_0_3_1_2) : (⟨S1x10000x32x256, .f32⟩ : BufTy).Contents (Elt F) → (⟨S1x256x10000x32, .f32⟩ : BufTy).Contents (Elt F)) ]

set_option maxRecDepth 2048 in
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., reshape_bufs_sub .., unary_bufs_sub .., binary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., reshape_bufs_sub .., unary_bufs_sub .., binary_bufs_sub .., binary_bufs_sub .., unary_bufs_sub ..⟩

/-- From any memory with zero counters: every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as one term of its two arguments: the composition of the 39 operations' functions, cut at the
  values a reader names — the flat neighbour list, the table of points by channels, the list after the wrap of
  negative entries, the in-range mask, the gathered rows — and the fold of the operation list read back as that term.
-/
import proofs.«213211_g18829136625754_cont_8to1_584_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The batch offset added to every neighbour word: (iota over the one batch) times 10000, broadcast. -/
def offs : IVec S1x10000x32 32 :=
  broadcastInDim S1x10000x32 ![0, 1, 2] bcast_S1x1x1_S1x10000x32_0_1_2
    (shapeCast S1x1x1 (muli (iotaInDim S1 32 0) (broadcastInDim S1 ![] bcast_S_S1 (constantI S_ 32 10000#32))) shapeCasts_S1_S1x1x1)

/-- The neighbour words plus the batch offset, flattened. -/
def flatIdx (idx : IVec S1x10000x32 32) : IVec S320000 32 :=
  shapeCast S320000 (addi idx offs) shapeCasts_S1x10000x32_S320000

/-- The table: x transposed to points by channels. -/
def table (x : FVec F S1x128x10000 .f32) : FVec F S10000x128 .f32 :=
  shapeCast S10000x128 (transpose S1x10000x128 [0, 2, 1] x transposes_S1x128x10000_S1x10000x128_0_2_1) shapeCasts_S1x10000x128_S10000x128

/-- take's index normalisation: a negative entry has the table's length added; as a column. -/
def wrapIdx (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- take's in-range mask: entry by entry, 0 ≤ i ≤ 9999 as signed words, reduced by and over the unit axis. -/
def mask (i5 : IVec S320000x1 32) : IVec S320000 1 :=
  Host.reduce IntOp.andi
    (andi (cmpi .sge i5 (broadcastInDim S320000x1 ![] bcast_S_S320000x1 (constantI S_ 32 0#32)))
      (cmpi .sle i5 (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- take: the gathered rows where the mask holds, the fill elsewhere. -/
def take (t : FVec F S10000x128 .f32) (i : IVec S320000 32) : FVec F S320000x128 .f32 :=
  select (broadcastInDim S320000x128 ![0] bcast_S320000_S320000x128_0 (mask (wrapIdx i)))
    (Host.gather gather_S10000x128_S320000x1_S320000x128_1_0_n_n_0_1_1128 t (wrapIdx i))
    (broadcastInDim S320000x128 ![] bcast_S_S320000x128 (constant S_ .f32 0x7FC00000#32))

/-- The point's own row repeated over its neighbours. -/
def own (t : FVec F S10000x128 .f32) : FVec F S1x10000x32x128 .f32 :=
  broadcastInDim S1x10000x32x128 ![0, 1, 2, 3] bcast_S1x10000x1x128_S1x10000x32x128_0_1_2_3
    (shapeCast S1x10000x1x128 t shapeCasts_S10000x128_S1x10000x1x128)

/-- The reference's result. -/
def refOut (x : FVec F S1x128x10000 .f32) (idx : IVec S1x10000x32 32) : FVec F S1x256x10000x32 .f32 :=
  transpose S1x256x10000x32 [0, 3, 1, 2]
    (cat2 (subf (shapeCast S1x10000x32x128 (take (table x) (flatIdx idx)) shapeCasts_S320000x128_S1x10000x32x128) (own (table x)))
      (own (table x)))
    transposes_S1x10000x32x256_S1x256x10000x32_0_3_1_2

set_option maxRecDepth 65536 in
/-- The fold at the result buffer is the term: each operation's result at its own buffer is its function's value, at
    any other buffer what was there. -/
theorem out_eq (V : Valuation τ sig (Elt F)) :
    after ops V (main_v15 : DevRef τ sig) = refOut (F := F) (V (main_arg0 : DevRef τ sig)) (V (main_arg1 : DevRef τ sig)) := by
  after_results_simp
  unfold refOut take mask wrapIdx own table flatIdx offs
  simp only [TRef.toBuf, TRef.ofBuf, cast_eq]
  rfl

set_option maxRecDepth 16384 in
theorem arg0_eq (V : Valuation τ sig (Elt F)) :
    after ops V (main_arg0 : DevRef τ sig) = V (main_arg0 : DevRef τ sig) := by
  after_results_simp

set_option maxRecDepth 16384 in
theorem arg1_eq (V : Valuation τ sig (Elt F)) :
    after ops V (main_arg1 : DevRef τ sig) = V (main_arg1 : DevRef τ sig) := by
  after_results_simp

/-- The run with the result at the term: every weakly fair execution of @main terminates with the result buffer at
    `refOut` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (out_eq _), (h c main_arg0).trans (arg0_eq _), (h c main_arg1).trans (arg1_eq _)⟩)
    (run_main m ρ)

end Cert.ReferenceIdeal.RefValue

end
-- ==== Proof.RefGather.lean ====
/-
  The reference's gather read at an index: row `p`, channel `c` of the result is the table at the row the `p`-th
  start index names — read signed, clamped to the last row — and channel `c`.
-/
import proofs.«213211_g18829136625754_cont_8to1_584_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

local notation "gd" => gather_S10000x128_S320000x1_S320000x128_1_0_n_n_0_1_1128

theorem gather_apply {α : Type} (t : S10000x128.Idx → α) (i5 : IVec S320000x1 32) (p : Fin 320000) (c : Fin 128) :
    Host.gather gd t i5 (ix2 p c)
      = t (ix2 ⟨min (i5 (ix2 p 0)).toInt.toNat 9999, by omega⟩ c) := by
  unfold Host.gather
  refine congrArg t (funext fun a => Fin.ext ?_)
  match a with
  | ⟨0, _⟩ =>
    show GatherDims.start gd (ix2 p c) i5 0 + GatherDims.batchCoord gd (ix2 p c) 0 + GatherDims.offCoord gd (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix2 p c) ⟨List.idxOf (0 : Fin 2) (GatherDims.startIndexMap gd),
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show GatherDims.start gd (ix2 p c) i5 1 + GatherDims.batchCoord gd (ix2 p c) 1 + GatherDims.offCoord gd (ix2 p c) 1 = _
    rw [GatherDims.batchCoord_eq_zero _ _ _ List.not_mem_nil]
    unfold GatherDims.start
    rw [dif_neg (show (1 : Fin 2) ∉ GatherDims.startIndexMap gd from by decide)]
    unfold GatherDims.offCoord
    rw [dif_pos (show (1 : Fin 2) ∈ GatherDims.sKept gd from by decide)]
    simp only [Nat.zero_add]
    rfl

end Cert.ReferenceIdeal.RefValue

end
-- ==== Proof.RefIdx.lean ====
/-
  The reference's term read at an index: under the precondition (every neighbour word at most 9999) it is the
  statement's function. One lemma per named value of the term, over literal shapes and explicit coordinates.
-/
import proofs.«213211_g18829136625754_cont_8to1_584_2_alg».proof.Proof.RefTerm
import proofs.«213211_g18829136625754_cont_8to1_584_2_alg».proof.Proof.Spec
import proofs.«213211_g18829136625754_cont_8to1_584_2_alg».proof.Proof.RefGather
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import Idealize.ShloMosaic.PureOps.Reduce

noncomputable section

namespace Cert.ReferenceIdeal.RefValue

open Cert.ReferenceIdeal Cert.ReferenceIdeal.Gen Idealize.ShloMosaic Idealize.ShloMosaic.ValueIdx

variable {F : FTy → Type} [FloatOps F]

/-! ## Words -/

/-- A word at most 9999 read unsigned has that value read signed. -/
theorem toInt_of_le {w : BitVec 32} (h : w.toNat ≤ 9999) : w.toInt = (w.toNat : Int) := by
  rw [BitVec.toInt_eq_toNat_cond]; split <;> omega

/-- A left fold by `and` over one-bit words that are all 1, started at 1, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_one f l _ ?_ (fun n hn => hl n (List.mem_cons_of_mem _ hn))
    exact IntOp.andi_eq_one.2 ⟨hi, hl a List.mem_cons_self⟩

/-! ## The neighbour list -/

/-- The batch offset is zero everywhere: the one batch's number is 0. -/
theorem offs_apply (i : S1x10000x32.Idx) : offs i = 0#32 := by
  unfold offs
  rw [broadcastInDim_apply _ _ _ i (ix3 0 0 0) (fun a => match a with | ⟨0, _⟩ => rfl | ⟨1, _⟩ => rfl | ⟨2, _⟩ => rfl)]
  rw [shapeCast_apply _ _ (ix3 0 0 0) (ix1 0) (by rw [Shape.rowMajor_val_one, Shape.rowMajor_val_three]; rfl)]
  show IntOp.muli (BitVec.ofNat 32 0) _ = 0#32
  unfold IntOp.muli
  exact BitVec.zero_mul

/-- The flat neighbour list at position `n * 32 + k` is the word of point `n`, neighbour `k`. -/
theorem flatIdx_apply (idx : IVec S1x10000x32 32) (n : Fin 10000) (k : Fin 32) (h : n.val * 32 + k.val < 320000) :
    flatIdx idx (ix1 ⟨n.val * 32 + k.val, h⟩) = idx (ix3 0 n k) := by
  unfold flatIdx
  rw [shapeCast_apply _ _ _ (ix3 0 n k) (by
    rw [Shape.rowMajor_val_one, Shape.rowMajor_val_three]
    show ((0 : ℕ) * 10000 + n.val) * 32 + k.val = n.val * 32 + k.val
    omega)]
  show IntOp.addi (idx (ix3 0 n k)) (offs (ix3 0 n k)) = _
  rw [offs_apply]
  unfold IntOp.addi
  exact BitVec.add_zero _

/-- The table at point `n`, channel `c`. -/
theorem table_apply (x : FVec F S1x128x10000 .f32) (n : Fin 10000) (c : Fin 128) : table x (ix2 n c) = x (ix3 0 c n) := by
  unfold table
  rw [shapeCast_apply _ _ _ (ix3 0 n c) (by
    rw [Shape.rowMajor_val_two, Shape.rowMajor_val_three]
    show ((0 : ℕ) * 10000 + n.val) * 128 + c.val = n.val * 128 + c.val
    omega)]
  exact transpose_apply _ x _ _ _ fun b => match b with | ⟨0, _⟩ => rfl | ⟨1, _⟩ => rfl | ⟨2, _⟩ => rfl

/-! ## take -/

/-- A word at most 9999 is not negative, so the wrap leaves it. -/
theorem wrapIdx_apply (i : IVec S320000 32) (p : Fin 320000) (hp : (i (ix1 p)).toNat ≤ 9999) :
    wrapIdx i (ix2 p 0) = i (ix1 p) := by
  unfold wrapIdx
  rw [broadcastInDim_apply _ _ _ (ix2 p 0) (ix1 p) (fun a => match a with | ⟨0, _⟩ => rfl)]
  rw [select_apply]
  have hc : cmpi .slt i (broadcastInDim S320000 ![] bcast_S_S320000 (constantI S_ 32 0#32)) (ix1 p) = 0#1 := by
    refine eq_zero_of_ne_one fun h => ?_
    have h' := IntOp.cmpi_slt.1 h
    rw [toInt_of_le hp] at h'
    have h0 : (broadcastInDim S320000 ![] bcast_S_S320000 (constantI S_ 32 0#32) (ix1 p) : BitVec 32) = 0#32 := rfl
    rw [h0] at h'
    simp at h'
    omega
  rw [hc, select_zero]

/-- Words at most 9999 stay so after the wrap. -/
theorem wrapIdx_le (i : IVec S320000 32) (hi : ∀ p, (i (ix1 p)).toNat ≤ 9999) (a : Fin 320000) (b : Fin 1) :
    (wrapIdx i (ix2 a b)).toNat ≤ 9999 := by
  obtain rfl : b = 0 := Subsingleton.elim _ _
  rw [wrapIdx_apply i a (hi a)]
  exact hi a

/-- Every entry in range: the mask is 1 everywhere. -/
theorem mask_apply (i5 : IVec S320000x1 32) (hall : ∀ q, (i5 q).toNat ≤ 9999) (p : S320000.Idx) : mask i5 p = 1#1 := by
  unfold mask
  rw [Host.reduce_eq_foldl]
  refine foldl_andi_one _ _ _ rfl fun q _ => ?_
  refine IntOp.andi_eq_one.2 ⟨IntOp.cmpi_sge.2 ?_, IntOp.cmpi_sle.2 ?_⟩
  · have h0 : (broadcastInDim S320000x1 ![] bcast_S_S320000x1 (constantI S_ 32 0#32) q : BitVec 32) = 0#32 := rfl
    rw [h0, toInt_of_le (hall q)]
    simp
  · have h0 : (broadcastInDim S320000x1 ![0, 1] bcast_S1x1_S320000x1_0_1 (broadcastInDim S1x1 ![1] bcast_S1_S1x1_1 (constantI S1 32 9999#32)) q : BitVec 32) = 9999#32 := rfl
    rw [h0, toInt_of_le (hall q)]
    have := hall q
    simp
    omega

/-- take under the precondition: row `p`, channel `c` is the table at the row the `p`-th word names. -/
theorem take_apply (t : FVec F S10000x128 .f32) (i : IVec S320000 32) (hi : ∀ p, (i (ix1 p)).toNat ≤ 9999)
    (p : Fin 320000) (c : Fin 128) : take t i (ix2 p c) = t (ix2 (Cert.Spec.rowOf (i (ix1 p))) c) := by
  have hall : ∀ q, (wrapIdx i q).toNat ≤ 9999 := fun q => by
    rw [eq_ix2 q]; exact wrapIdx_le i hi (q 0) (q 1)
  unfold take
  rw [select_apply]
  rw [broadcastInDim_apply _ _ _ (ix2 p c) (ix1 p) (fun a => match a with | ⟨0, _⟩ => rfl)]
  rw [mask_apply _ hall, select_one, gather_apply]
  refine congrArg t (congrArg (fun r : Fin 10000 => ix2 r c) (Fin.ext ?_))
  show min (wrapIdx i (ix2 p 0)).toInt.toNat 9999 = min (i (ix1 p)).toNat 9999
  rw [wrapIdx_apply i p (hi p), toInt_of_le (hi p)]
  rfl

/-! ## The point's own row, and the whole -/

theorem own_apply (t : FVec F S10000x128 .f32) (n : Fin 10000) (k : Fin 32) (c : Fin 128) :
    own t (ix4 0 n k c) = t (ix2 n c) := by
  unfold own
  rw [broadcastInDim_apply _ _ _ (ix4 0 n k c) (ix4 0 n 0 c)
    (fun a => match a with | ⟨0, _⟩ => rfl | ⟨1, _⟩ => rfl | ⟨2, _⟩ => rfl | ⟨3, _⟩ => rfl)]
  rw [shapeCast_apply _ _ _ (ix2 n c) (by
    rw [Shape.rowMajor_val_two, Shape.rowMajor_val_four]
    show n.val * 128 + c.val = ((((0 : ℕ) * 10000 + n.val) * 1 + 0) * 128 + c.val)
    omega)]

/-- The statement's function on a channel below 128: the neighbour's feature minus the point's own. -/
theorem G_apply_lt (x : FVec F S1x128x10000 .f32) (idx : IVec S1x10000x32 32) (c : Fin 256) (n : Fin 10000) (k : Fin 32)
    (hc : c.val < 128) :
    Cert.Spec.G x idx (ix4 0 c n k)
      = FloatOps.subf (x (ix3 0 ⟨c.val, hc⟩ (Cert.Spec.rowOf (idx (ix3 0 n k))))) (x (ix3 0 ⟨c.val, hc⟩ n)) := by
  unfold Cert.Spec.G; exact dif_pos hc

/-- The statement's function on a channel from 128 on: the point's own feature. -/
theorem G_apply_ge (x : FVec F S1x128x10000 .f32) (idx : IVec S1x10000x32 32) (c : Fin 256) (n : Fin 10000) (k : Fin 32)
    (hc : ¬ c.val < 128) :
    Cert.Spec.G x idx (ix4 0 c n k) = x (ix3 0 ⟨c.val - 128, by have := c.isLt; omega⟩ n) := by
  unfold Cert.Spec.G; exact dif_neg hc

/-- The reference's term at `(0, c, n, k)` is the statement's function there. -/
theorem refOut_apply (x : FVec F S1x128x10000 .f32) (idx : IVec S1x10000x32 32) (hidx : ∀ i, (idx i).toNat ≤ 9999)
    (c : Fin 256) (n : Fin 10000) (k : Fin 32) :
    refOut x idx (ix4 0 c n k) = Cert.Spec.G x idx (ix4 0 c n k) := by
  have hp : n.val * 32 + k.val < 320000 := by have := n.isLt; have := k.isLt; omega
  have hflat : ∀ p, (flatIdx idx (ix1 p)).toNat ≤ 9999 := fun p => by
    have h1 : p.val / 32 < 10000 := by have := p.isLt; omega
    have h2 : p.val % 32 < 32 := Nat.mod_lt _ (by norm_num)
    have e : p = ⟨(⟨p.val / 32, h1⟩ : Fin 10000).val * 32 + (⟨p.val % 32, h2⟩ : Fin 32).val, by
        show p.val / 32 * 32 + p.val % 32 < 320000; have := p.isLt; omega⟩ :=
      Fin.ext (by show p.val = p.val / 32 * 32 + p.val % 32; omega)
    rw [e, flatIdx_apply]
    exact hidx _
  unfold refOut
  rw [transpose_apply _ _ _ (ix4 0 c n k) (ix4 0 n k c)
    (fun b => match b with | ⟨0, _⟩ => rfl | ⟨1, _⟩ => rfl | ⟨2, _⟩ => rfl | ⟨3, _⟩ => rfl)]
  unfold cat2
  by_cases hc : c.val < 128
  · rw [G_apply_lt x idx c n k hc]
    rw [concatenate_pair_apply_left (t := S1x10000x32x256) (s₁ := S1x10000x32x128) (s₂ := S1x10000x32x128) 3 _ _ _
      (ix4 (0 : Fin 1) n k c) rfl (ix4 (0 : Fin 1) n k (⟨c.val, hc⟩ : Fin 128))
      (fun b => match b with | ⟨0, _⟩ => rfl | ⟨1, _⟩ => rfl | ⟨2, _⟩ => rfl | ⟨3, _⟩ => rfl)]
    show FloatOps.subf (shapeCast S1x10000x32x128 _ _ (ix4 (0 : Fin 1) n k (⟨c.val, hc⟩ : Fin 128)))
      (own (table x) (ix4 (0 : Fin 1) n k (⟨c.val, hc⟩ : Fin 128))) = _
    rw [shapeCast_apply _ _ _ (ix2 (⟨n.val * 32 + k.val, hp⟩ : Fin 320000) (⟨c.val, hc⟩ : Fin 128)) (by
      rw [Shape.rowMajor_val_two, Shape.rowMajor_val_four]
      show (n.val * 32 + k.val) * 128 + c.val = ((((0 : ℕ) * 10000 + n.val) * 32 + k.val) * 128 + c.val)
      omega)]
    rw [take_apply _ _ hflat, own_apply, table_apply, table_apply, flatIdx_apply]
  · rw [G_apply_ge x idx c n k hc]
    rw [concatenate_pair_apply_right (t := S1x10000x32x256) (s₁ := S1x10000x32x128) (s₂ := S1x10000x32x128) 3 _ _ _
      (ix4 (0 : Fin 1) n k c) rfl rfl (ix4 (0 : Fin 1) n k (⟨c.val - 128, by have := c.isLt; omega⟩ : Fin 128))
      (fun b hb => match b, hb with
        | ⟨0, _⟩, _ => rfl | ⟨1, _⟩, _ => rfl | ⟨2, _⟩, _ => rfl | ⟨3, _⟩, hb => absurd rfl hb)
      (by show c.val - 128 + 128 = c.val; omega)]
    rw [own_apply, table_apply]

end Cert.ReferenceIdeal.RefValue

end
-- ==== Proof.RefRun.lean ====
/-
  The reference's run: under the precondition on the neighbour words, every weakly fair execution of its @main
  terminates with the result buffer at the statement's function of the two arguments, the arguments unchanged.
-/
import proofs.«213211_g18829136625754_cont_8to1_584_2_alg».proof.Proof.RefIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The reference's term is the statement's function, every neighbour word being a row number. -/
theorem refOut_eq_G {F : FTy → Type} [FloatOps F] (x : FVec F S1x128x10000 .f32) (idx : IVec S1x10000x32 32)
    (hidx : ∀ i, (idx i).toNat ≤ 9999) : refOut x idx = Cert.Spec.G (F := F) x idx := by
  have key : ∀ (a : Fin 1) (c : Fin 256) (n : Fin 10000) (k : Fin 32),
      refOut x idx (ix4 a c n k) = Cert.Spec.G (F := F) x idx (ix4 a c n k) := fun a c n k => by
    obtain rfl : a = 0 := Subsingleton.elim _ _
    exact refOut_apply x idx hidx c n k
  funext j
  rw [eq_ix4 j]
  exact key (j 0) (j 1) (j 2) (j 3)

theorem run (m : (ℓ : Loc Cert.ReferenceIdeal.nD Cert.ReferenceIdeal.τ Cert.ReferenceIdeal.sig) → Buf (Elt Ideal) ℓ)
    (ρ : Dev Cert.ReferenceIdeal.nD → PrngReg)
    (hidx : ∀ (c : Dev Cert.ReferenceIdeal.nD) i,
      (m ((c.tc : Thread Cert.ReferenceIdeal.nD Cert.ReferenceIdeal.τ).loc Cert.ReferenceIdeal.main_arg1) i).toNat ≤ 9999) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v15)
            = Cert.Spec.G (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run defs _ _).mono
    (fun _ h c => ⟨(h c).1.trans (refOut_eq_G (F := Ideal) _ _ (hidx c)), (h c).2⟩)
    (run_term (F := Ideal) m ρ)

end Cert.ReferenceIdeal.RefValue

end
-- ==== Proof.ValSpec.lean ====
/-
  The kernel's road arrives at the statement's function: `kout = G`.

  Entry `(0, c, n, k)` of `kout` reads `tcOut` at channel `c` and flat position `p = n * 32 + k`. Since `k < 32`,
  `p / 32 = n` and `p % 32 = k`, and `p < 320000`, so entry `(p / 128, p % 128)` of the padded list is entry `p` of the flat
  list, i.e. `idx[0, n, k]`: the gathered row `p` is row `rowOf idx[0, n, k]` of the transposed table, and the
  point's own row is row `n`.
-/
import proofs.«213211_g18829136625754_cont_8to1_584_2_alg».proof.Proof.Spec

noncomputable section

namespace Cert.Spec

open Idealize.ShloMosaic Idealize.ShloMosaic.ValueIdx

variable {F : FTy → Type}

/-- The transposed table at point `r`, channel `c`. -/
theorem xt_apply (x : SX.Idx → F .f32) (r : Fin 10000) (c : Fin 128) : xt x (ix2 r c) = x (ix3 0 c r) := rfl

/-- The padded list at `(a, b)`. -/
theorem idxp_apply (idx : SJ.Idx → BitVec 32) (a : Fin 2560) (b : Fin 128) :
    idxp idx (ix2 a b) =
      if h : a.val * 128 + b.val < 320000 then
        idx (ix3 0 ⟨(a.val * 128 + b.val) / 32, by omega⟩ ⟨(a.val * 128 + b.val) % 32, Nat.mod_lt _ (by norm_num)⟩)
      else 0#32 := rfl

/-- The padded list at the place of flat position `n * 32 + k` is `idx[0, n, k]`. -/
theorem idxp_flat (idx : SJ.Idx → BitVec 32) (n : Fin 10000) (k : Fin 32) (a : Fin 2560) (b : Fin 128)
    (ha : a.val = (n.val * 32 + k.val) / 128) (hb : b.val = (n.val * 32 + k.val) % 128) :
    idxp idx (ix2 a b) = idx (ix3 0 n k) := by
  have hn := n.isLt
  have hk := k.isLt
  have hp : a.val * 128 + b.val = n.val * 32 + k.val := by omega
  rw [idxp_apply, dif_pos (by omega)]
  congr 1
  refine congrArg₂ (ix3 (0 : Fin 1)) (Fin.ext ?_) (Fin.ext ?_)
  · show (a.val * 128 + b.val) / 32 = n.val
    omega
  · show (a.val * 128 + b.val) % 32 = k.val
    omega

/-- The gathered array at row `p`, channel `c`. -/
theorem gath_apply (t : ST.Idx → F .f32) (ip : SP.Idx → BitVec 32) (p : Fin 327680) (c : Fin 128) :
    gath t ip (ix2 p c) =
      t (ix2 (rowOf (ip (ix2 ⟨p.val / 128, by omega⟩ ⟨p.val % 128, Nat.mod_lt _ (by norm_num)⟩))) c) := rfl

variable [FloatOps F]

/-- `tcOut` at channel `c`, flat position `p`. -/
theorem tcOut_apply (g : SG.Idx → F .f32) (t : ST.Idx → F .f32) (c : Fin 256) (p : Fin 320000) :
    tcOut g t (ix2 c p) =
      if h : c.val < 128 then
        FloatOps.subf (g (ix2 ⟨p.val, by omega⟩ ⟨c.val, h⟩)) (t (ix2 ⟨p.val / 32, by omega⟩ ⟨c.val, h⟩))
      else t (ix2 ⟨p.val / 32, by omega⟩ ⟨c.val - 128, by omega⟩) := rfl

/-- `kout` at `(a, c, n, k)`. -/
theorem kout_apply (x : SX.Idx → F .f32) (idx : SJ.Idx → BitVec 32) (a : Fin 1) (c : Fin 256) (n : Fin 10000) (k : Fin 32) :
    kout x idx (ix4 a c n k) = tcOut (gath (xt x) (idxp idx)) (xt x) (ix2 c ⟨n.val * 32 + k.val, by omega⟩) := rfl

/-- `G` at `(a, c, n, k)`. -/
theorem G_apply (x : SX.Idx → F .f32) (idx : SJ.Idx → BitVec 32) (a : Fin 1) (c : Fin 256) (n : Fin 10000) (k : Fin 32) :
    G x idx (ix4 a c n k) =
      if h : c.val < 128 then
        FloatOps.subf (x (ix3 0 ⟨c.val, h⟩ (rowOf (idx (ix3 0 n k))))) (x (ix3 0 ⟨c.val, h⟩ n))
      else x (ix3 0 ⟨c.val - 128, by omega⟩ n) := rfl

/-- The kernel's road computes the statement's function. -/
theorem kout_eq_G (x : SX.Idx → F .f32) (idx : SJ.Idx → BitVec 32) : kout x idx = G x idx := by
  funext j
  obtain ⟨a, c, n, k, rfl⟩ : ∃ (a : Fin 1) (c : Fin 256) (n : Fin 10000) (k : Fin 32), j = ix4 a c n k :=
    ⟨j 0, j 1, j 2, j 3, eq_ix4 j⟩
  have hn := n.isLt
  have hk := k.isLt
  have hrow : (⟨(n.val * 32 + k.val) / 32, by omega⟩ : Fin 10000) = n := Fin.ext (by show (n.val * 32 + k.val) / 32 = n.val; omega)
  rw [kout_apply, tcOut_apply, G_apply]
  by_cases h : c.val < 128
  · rw [dif_pos h, dif_pos h, gath_apply, xt_apply, xt_apply, hrow,
      idxp_flat idx n k _ _ rfl rfl]
  · rw [dif_neg h, dif_neg h, xt_apply, hrow]

end Cert.Spec

end
-- ==== Proof.lean ====
/-
  The certificate's claim. The kernel gathers, for every point of a cloud and each of its 32 listed neighbours,
  the neighbour's feature row (on the SparseCores: a table of 10000 rows, a list of 320000 row numbers padded to
  2560 rows of 128), then on the TensorCore subtracts the point's own row and stacks the difference over the own
  row on the channel axis, channels first. The reference does the same with `jnp.take`. Both end with
  `G x idx [0, c, n, k] = x[0, c, idx[0, n, k]] − x[0, c, n]` for `c < 128` and `x[0, c − 128, n]` for `c ≥ 128`:
  the kernel's road is `kout`, equal to `G` by arithmetic on the flat position; the reference's masks and
  wrap-arounds are inactive because every neighbour word is a row number (the precondition's integer conjunct).
  No law of the extended reals beyond the one subtraction both sides perform is used, so finiteness of `x` is
  never opened. The three frames are the runs with the values dropped; the idealization rewrote nothing.
-/
import proofs.«213211_g18829136625754_cont_8to1_584_2_alg».proof.Defs
import proofs.«213211_g18829136625754_cont_8to1_584_2_alg».proof.Proof.Gen.Kernel
import proofs.«213211_g18829136625754_cont_8to1_584_2_alg».proof.Proof.Gen.KernelIdeal
import proofs.«213211_g18829136625754_cont_8to1_584_2_alg».proof.Proof.Gen.ReferenceIdeal
import proofs.«213211_g18829136625754_cont_8to1_584_2_alg».proof.Proof.Gen.Pre_input_domain
import proofs.«213211_g18829136625754_cont_8to1_584_2_alg».proof.Proof.KRun
import proofs.«213211_g18829136625754_cont_8to1_584_2_alg».proof.Proof.BRun
import proofs.«213211_g18829136625754_cont_8to1_584_2_alg».proof.Proof.RefRun
import proofs.«213211_g18829136625754_cont_8to1_584_2_alg».proof.Proof.ValSpec
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ hpre =>
  (θ_run Cert.Kernel.defs _ _).mono (fun _ h c => ⟨(h c).2.1, (h c).2.2⟩)
    (Cert.Kernel.Pf.run_main (F := Bits) m ρ (Cert.Kernel.Pf.preOK_of_pre m hpre))

/-- The idealized kernel runs and leaves its arguments unchanged. -/
theorem frame_ki : Cert.frame_KernelIdeal := fun m ρ hpre =>
  (θ_run Cert.KernelIdeal.defs _ _).mono (fun _ h c => ⟨(h c).2.1, (h c).2.2⟩)
    (Cert.KernelIdeal.Pf.run_main (F := Ideal) m ρ (Cert.KernelIdeal.Pf.preOK_of_pre m hpre))

/-- The reference runs and leaves its arguments unchanged. -/
theorem frame_ri : Cert.frame_ReferenceIdeal := fun m ρ hpre =>
  (θ_run Cert.ReferenceIdeal.defs _ _).mono (fun _ h c => (h c).2)
    (Cert.ReferenceIdeal.RefValue.run m ρ (fun c i => Cert.Proof.PreIdx.idx_le _ _ (hpre c) i))

/-- Both idealized programs end at `G` of the arguments: the kernel at `kout`, which is `G`; the reference at `G`
    of arguments that agree with the kernel's. -/
theorem algebraic : Cert.algebraic_KernelIdeal_ReferenceIdeal := by
  intro m ρ m' ρ' hpre hagree
  have hidx : Cert.KernelIdeal.Pf.PreOK (F := Ideal) m := Cert.KernelIdeal.Pf.preOK_of_pre m hpre
  refine ⟨fun c => Cert.Spec.G (F := Ideal) (m ((c.tc : Thread _ _).loc Cert.KernelIdeal.main_arg0)) (m ((c.tc : Thread _ _).loc Cert.KernelIdeal.main_arg1)), ?_, ?_⟩
  · refine (θ_run Cert.KernelIdeal.defs _ _).mono (fun _ h c => ⟨?_, (h c).2.1, (h c).2.2⟩)
      (Cert.KernelIdeal.Pf.run_main (F := Ideal) m ρ hidx)
    exact (h c).1.trans (Cert.Spec.kout_eq_G _ _)
  · refine (θ_run Cert.ReferenceIdeal.defs _ _).mono (fun _ h c => ⟨?_, (h c).2.1, (h c).2.2⟩)
      (Cert.ReferenceIdeal.RefValue.run m' ρ' (fun c i => by rw [(hagree c).2]; exact hidx c i))
    rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
